-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S1x64 : Shape := ⟨2, ![1, 64]⟩
abbrev S128x128 : Shape := ⟨2, ![128, 128]⟩
abbrev S128 : Shape := ⟨1, ![128]⟩
abbrev S128x256 : Shape := ⟨2, ![128, 256]⟩
abbrev S256 : Shape := ⟨1, ![256]⟩
abbrev S40x320 : Shape := ⟨2, ![40, 320]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1x64 : S_.BroadcastsInDim S1x64 (![] : Fin 0 → Fin S1x64.rank)
  reducesTo_S1x64_S_d0_1 : S1x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S40x320 : S_.BroadcastsInDim S40x320 (![] : Fin 0 → Fin S40x320.rank)
  reducesTo_S40x320_S_d0_1 : S40x320.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40x320 .f32) (main_arg8 : FVec F S40 .f32) (main_v33 : IVec S_ 1) : IVec S_ 1 :=
  let main_v34 : FVec F S40x320 .f32 := Host.absf main_arg7
  let main_cst_12 : FVec F S_ .f32 := constant S_ .f32 0x7F800000#32
  let main_v35 : FVec F S40x320 .f32 := broadcastInDim S40x320 ![] bcast_S_S40x320 main_cst_12
  let main_v36 : IVec S40x320 1 := cmpf .olt main_v34 main_v35
  let main_c_13 : IVec S_ 1 := constantI S_ 1 1#1
  let main_v37 : IVec S_ 1 := (fun x v => Host.reduce IntOp.andi x v reducesTo_S40x320_S_d0_1 h_S_) main_v36 main_c_13
  let main_v38 : IVec S_ 1 := andi main_v33 main_v37
  let main_v39 : FVec F S40 .f32 := Host.absf main_arg8
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg4 : FVec F S128 .f32) (main_arg5 : FVec F S128x256 .f32) (main_arg6 : FVec F S256 .f32) (main_arg7 : FVec F S40x320 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S1x64 .f32) (main_arg3 : FVec F S128x128 .f32) (main_arg4 : FVec F S128 .f32) (main_arg5 : FVec F S128x256 .f32) (main_arg6 : FVec F S256 .f32) (main_arg7 : FVec F S40x320 .f32) (main_arg8 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S1x64 : Shape := ⟨2, ![1, 64]⟩
abbrev S128x128 : Shape := ⟨2, ![128, 128]⟩
abbrev S128 : Shape := ⟨1, ![128]⟩
abbrev S128x256 : Shape := ⟨2, ![128, 256]⟩
abbrev S256 : Shape := ⟨1, ![256]⟩
abbrev S40x320 : Shape := ⟨2, ![40, 320]⟩
abbrev S40 : Shape := ⟨1, ![40]⟩
abbrev S1x128 : Shape := ⟨2, ![1, 128]⟩
abbrev S10000x256 : Shape := ⟨2, ![10000, 256]⟩
abbrev S400x10000 : Shape := ⟨2, ![400, 10000]⟩
abbrev S400x256 : Shape := ⟨2, ![400, 256]⟩
abbrev S400x128 : Shape := ⟨2, ![400, 128]⟩
abbrev S1x256 : Shape := ⟨2, ![1, 256]⟩
abbrev S25x1x256 : Shape := ⟨3, ![25, 1, 256]⟩
abbrev S1x1x256 : Shape := ⟨3, ![1, 1, 256]⟩
abbrev S25x256 : Shape := ⟨2, ![25, 256]⟩
abbrev S1x40 : Shape := ⟨2, ![1, 40]⟩
abbrev S1x1 : Shape := ⟨2, ![1, 1]⟩
abbrev S1x320 : Shape := ⟨2, ![1, 320]⟩
abbrev S1 : Shape := ⟨1, ![1]⟩
abbrev S1x40x320 : Shape := ⟨3, ![1, 40, 320]⟩
abbrev S1x1x1 : Shape := ⟨3, ![1, 1, 1]⟩
abbrev S_ : Shape := ⟨0, ![]⟩

abbrev nBuf : Space → Nat
  | .hbm => 19
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1x64, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S40x320, .f32⟩
  | .hbm, ⟨8, _⟩ => ⟨S40, .f32⟩
  | .hbm, ⟨9, _⟩ => ⟨S10000x128, .bf16⟩
  | .hbm, ⟨10, _⟩ => ⟨S1x128, .f32⟩
  | .hbm, ⟨11, _⟩ => ⟨S10000x256, .bf16⟩
  | .hbm, ⟨12, _⟩ => ⟨S1x256, .f32⟩
  | .hbm, ⟨13, _⟩ => ⟨S25x1x256, .f32⟩
  | .hbm, ⟨14, _⟩ => ⟨S25x256, .f32⟩
  | .hbm, ⟨15, _⟩ => ⟨S1x40, .f32⟩
  | .hbm, ⟨16, _⟩ => ⟨S1x40, .f32⟩
  | .hbm, ⟨17, _⟩ => ⟨S1x1, .f32⟩
  | .hbm, ⟨18, _⟩ => ⟨S_, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S400x10000, .f32⟩
  | .local _ .vmem, ⟨4, _⟩ => ⟨S400x10000, .f32⟩
  | .local _ .vmem, ⟨5, _⟩ => ⟨S10000x128, .bf16⟩
  | .local _ .vmem, ⟨6, _⟩ => ⟨S1x128, .f32⟩
  | .local _ .vmem, ⟨7, _⟩ => ⟨S128x256, .f32⟩
  | .local _ .vmem, ⟨8, _⟩ => ⟨S400x256, .bf16⟩
  | .local _ .vmem, ⟨9, _⟩ => ⟨S400x256, .bf16⟩
  | .local _ .vmem, ⟨10, _⟩ => ⟨S400x10000, .f32⟩
  | .local _ .vmem, ⟨11, _⟩ => ⟨S400x10000, .f32⟩
  | .local _ .vmem, ⟨12, _⟩ => ⟨S10000x256, .bf16⟩
  | .local _ .vmem, ⟨13, _⟩ => ⟨S1x256, .f32⟩
  | .local _ .vmem, ⟨14, _⟩ => ⟨S1x1x256, .f32⟩
  | .local _ .vmem, ⟨15, _⟩ => ⟨S1x1x256, .f32⟩
  | .local _ .vmem, ⟨16, _⟩ => ⟨S25x256, .f32⟩
  | .local _ .vmem, ⟨17, _⟩ => ⟨S1x64, .f32⟩
  | .local _ .vmem, ⟨18, _⟩ => ⟨S40x320, .f32⟩
  | .local _ .vmem, ⟨19, _⟩ => ⟨S1x40, .f32⟩
  | .local _ .vmem, ⟨20, _⟩ => ⟨S1x40, .f32⟩
  | .local _ .vmem, ⟨21, _⟩ => ⟨S1x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := .none

abbrev stage3_0 : Fin 1 → Memref sig .tc .vmem S25x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S40x320 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x256_S128x256_0_0 : ∀ a, (![0, 0] : Fin 2 → Nat) a + S128x256.size a ≤ S128x256.size a
  h_S128x256 : 0 < S128x256.numel
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  reduces_S400x256_S256 : S400x256.Reduces [0] S256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S25x1x256_S25x256 : S25x1x256.ShapeCasts S25x256
  shapeCasts_S40_S1x40 : S40.ShapeCasts S1x40
  inb_S25x256_S25x256_0_0 : ∀ a, (![0, 0] : Fin 2 → Nat) a + S25x256.size a ≤ S25x256.size a
  h_S25x256 : 0 < S25x256.numel
  shapeCasts_S25x256_S25x256 : S25x256.ShapeCasts S25x256
  reduces_S25x256_S256 : S25x256.Reduces [0] S256
  inb_S1x64_S1x64_0_0 : ∀ a, (![0, 0] : Fin 2 → Nat) a + S1x64.size a ≤ S1x64.size a
  h_S1x64 : 0 < S1x64.numel
  concatenates_S1x256_S1x64_S1x320_d1 : Shape.Concatenates [S1x256, S1x64] S1x320 1
  inb_S40x320_S40x320_0_0 : ∀ a, (![0, 0] : Fin 2 → Nat) a + S40x320.size a ≤ S40x320.size a
  h_S40x320 : 0 < S40x320.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  reduces_S1x40_S1 : S1x40.Reduces [1] S1
  shapeCasts_S1_S1x1 : S1.ShapeCasts S1x1
  broadcasts_S1x1_S1x40 : S1x1.Broadcasts S1x40
  shapeCasts_S40x320_S1x40x320 : S40x320.ShapeCasts S1x40x320
  reduces_S1x40x320_S1 : S1x40x320.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x256_S400x256_1_0_0_1_n_n_wf : DotDims.WF S400x128 S128x256 S400x256 [1] [0] [0] [1] [] []
  dot_S400x10000_S10000x256_S400x256_1_0_0_1_n_n_wf : DotDims.WF S400x10000 S10000x256 S400x256 [1] [0] [0] [1] [] []
  dot_S1x320_S40x320_S1x40_1_1_0_0_n_n_wf : DotDims.WF S1x320 S40x320 S1x40 [1] [1] [0] [0] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x256.size a ≤ S10000x256.size a
  hwx1_4 : ∀ i : grid1.Coords, EltTy.bits .bf16 = 32 ∨ (Rect.block (s := S10000x256) S400x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x256.size a ≤ S25x1x256.size a
  hwx2_3 : ∀ i : grid2.Coords, EltTy.bits .f32 = 32 ∨ (Rect.block (s := S25x1x256) S1x1x256.size (cc2_transform_3 i) (hinb2_3 i)).WholeWords (EltTy.packing .f32)
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole
  hstage3_5 : ∀ j, (stage3_5 j).IsWhole

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S1x320_S40x320_S1x40_1_1_0_0_n_n : DotDims S1x320 S40x320 S1x40 where
  lhsContracting := [1]
  rhsContracting := [1]
  lhsNonContracting := [0]
  rhsNonContracting := [0]
  lhsBatch := []
  rhsBatch := []
  wf := dot_S1x320_S40x320_S1x40_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S400x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x1x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.whole (Memref.whole main_v5) false false (stage3_0 0) (sem3_0 0) (Memref.isWhole_whole _) (hstage3_0 0)

abbrev win3_1 : Pipeline.Window sig grid3 :=
  Pipeline.Window.whole (Memref.whole main_arg2) false false (stage3_1 0) (sem3_1 0) (Memref.isWhole_whole _) (hstage3_1 0)

abbrev win3_2 : Pipeline.Window sig grid3 :=
  Pipeline.Window.whole (Memref.whole main_arg7) false false (stage3_2 0) (sem3_2 0) (Memref.isWhole_whole _) (hstage3_2 0)

abbrev win3_3 : Pipeline.Window sig grid3 :=
  Pipeline.Window.whole (Memref.whole main_v6) false false (stage3_3 0) (sem3_3 0) (Memref.isWhole_whole _) (hstage3_3 0)

abbrev win3_4 : Pipeline.Window sig grid3 :=
  Pipeline.Window.whole (Memref.whole main_v7_0) true false (stage3_4 0) (sem3_4 0) (Memref.isWhole_whole _) (hstage3_4 0)

abbrev win3_5 : Pipeline.Window sig grid3 :=
  Pipeline.Window.whole (Memref.whole main_v7_1) true false (stage3_5 0) (sem3_5 0) (Memref.isWhole_whole _) (hstage3_5 0)

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S1x64 : Shape := ⟨2, ![1, 64]⟩
abbrev S128x128 : Shape := ⟨2, ![128, 128]⟩
abbrev S128 : Shape := ⟨1, ![128]⟩
abbrev S128x256 : Shape := ⟨2, ![128, 256]⟩
abbrev S256 : Shape := ⟨1, ![256]⟩
abbrev S40x320 : Shape := ⟨2, ![40, 320]⟩
abbrev S40 : Shape := ⟨1, ![40]⟩
abbrev S1x128 : Shape := ⟨2, ![1, 128]⟩
abbrev S_ : Shape := ⟨0, ![]⟩
abbrev S10000x256 : Shape := ⟨2, ![10000, 256]⟩
abbrev S1x256 : Shape := ⟨2, ![1, 256]⟩
abbrev S1x320 : Shape := ⟨2, ![1, 320]⟩
abbrev S320x40 : Shape := ⟨2, ![320, 40]⟩
abbrev S1x40 : Shape := ⟨2, ![1, 40]⟩
abbrev S1 : Shape := ⟨1, ![1]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1x64, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S40x320, .f32⟩
  | .hbm, ⟨8, _⟩ => ⟨S40, .f32⟩
  | .hbm, ⟨9, _⟩ => ⟨S10000x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000x128, .f32⟩
  | .hbm, ⟨16, _⟩ => ⟨S10000x128, .f32⟩
  | .hbm, ⟨17, _⟩ => ⟨S10000x256, .f32⟩
  | .hbm, ⟨18, _⟩ => ⟨S10000x256, .f32⟩
  | .hbm, ⟨19, _⟩ => ⟨S1x256, .f32⟩
  | .hbm, ⟨20, _⟩ => ⟨S10000x256, .f32⟩
  | .hbm, ⟨21, _⟩ => ⟨S10000x256, .f32⟩
  | .hbm, ⟨22, _⟩ => ⟨S_, .f32⟩
  | .hbm, ⟨23, _⟩ => ⟨S10000x256, .f32⟩
  | .hbm, ⟨24, _⟩ => ⟨S10000x256, .f32⟩
  | .hbm, ⟨25, _⟩ => ⟨S_, .f32⟩
  | .hbm, ⟨26, _⟩ => ⟨S256, .f32⟩
  | .hbm, ⟨27, _⟩ => ⟨S1x256, .f32⟩
  | .hbm, ⟨28, _⟩ => ⟨S_, .f32⟩
  | .hbm, ⟨29, _⟩ => ⟨S1x256, .f32⟩
  | .hbm, ⟨30, _⟩ => ⟨S1x256, .f32⟩
  | .hbm, ⟨31, _⟩ => ⟨S_, .f32⟩
  | .hbm, ⟨32, _⟩ => ⟨S_, .f32⟩
  | .hbm, ⟨33, _⟩ => ⟨S1x256, .f32⟩
  | .hbm, ⟨34, _⟩ => ⟨S1x256, .i1⟩
  | .hbm, ⟨35, _⟩ => ⟨S_, .f32⟩
  | .hbm, ⟨36, _⟩ => ⟨S1x256, .f32⟩
  | .hbm, ⟨37, _⟩ => ⟨S1x256, .i1⟩
  | .hbm, ⟨38, _⟩ => ⟨S_, .f32⟩
  | .hbm, ⟨39, _⟩ => ⟨S_, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S_, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S_, .f32⟩
  | .hbm, ⟨48, _⟩ => ⟨S1x256, .f32⟩
  | .hbm, ⟨49, _⟩ => ⟨S1x256, .f32⟩
  | .hbm, ⟨50, _⟩ => ⟨S1x320, .f32⟩
  | .hbm, ⟨51, _⟩ => ⟨S320x40, .f32⟩
  | .hbm, ⟨52, _⟩ => ⟨S1x40, .f32⟩
  | .hbm, ⟨53, _⟩ => ⟨S1x40, .f32⟩
  | .hbm, ⟨54, _⟩ => ⟨S1x40, .f32⟩
  | .hbm, ⟨55, _⟩ => ⟨S_, .f32⟩
  | .hbm, ⟨56, _⟩ => ⟨S1, .f32⟩
  | .hbm, ⟨57, _⟩ => ⟨S_, .f32⟩
  | .hbm, ⟨58, _⟩ => ⟨S1, .f32⟩
  | .hbm, ⟨59, _⟩ => ⟨S1, .f32⟩
  | .hbm, ⟨60, _⟩ => ⟨S1x1, .f32⟩
  | .hbm, ⟨61, _⟩ => ⟨S1x40, .f32⟩
  | .hbm, ⟨62, _⟩ => ⟨S1x40, .f32⟩
  | .hbm, ⟨63, _⟩ => ⟨S1x40, .f32⟩
  | .hbm, ⟨64, _⟩ => ⟨S_, .f32⟩
  | .hbm, ⟨65, _⟩ => ⟨S1, .f32⟩
  | .hbm, ⟨66, _⟩ => ⟨S1x1, .f32⟩
  | .hbm, ⟨67, _⟩ => ⟨S1x1, .f32⟩
  | .hbm, ⟨68, _⟩ => ⟨S1x40, .f32⟩
  | .hbm, ⟨69, _⟩ => ⟨S1x40, .f32⟩
  | .hbm, ⟨70, _⟩ => ⟨S40x320, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_call2_cst : Ref sig .tc := ⟨.hbm, 31, rfl⟩
abbrev main_call2_call0_cst : Ref sig .tc := ⟨.hbm, 32, rfl⟩
abbrev main_call2_call0_v0 : Ref sig .tc := ⟨.hbm, 33, rfl⟩
abbrev main_call2_call0_v1 : Ref sig .tc := ⟨.hbm, 34, rfl⟩
abbrev main_call2_call0_cst_0 : Ref sig .tc := ⟨.hbm, 35, rfl⟩
abbrev main_call2_call0_v2 : Ref sig .tc := ⟨.hbm, 36, rfl⟩
abbrev main_call2_call0_v3 : Ref sig .tc := ⟨.hbm, 37, rfl⟩
abbrev main_call2_call0_cst_1 : Ref sig .tc := ⟨.hbm, 38, rfl⟩
abbrev main_call2_call0_call0_v0 : Ref sig .tc := ⟨.hbm, 39, rfl⟩
abbrev main_call2_call0_call0_v1 : Ref sig .tc := ⟨.hbm, 40, rfl⟩
abbrev main_call2_call0_v4 : Ref sig .tc := ⟨.hbm, 41, rfl⟩
abbrev main_call2_call0_v5 : Ref sig .tc := ⟨.hbm, 42, rfl⟩
abbrev main_call2_call0_v6 : Ref sig .tc := ⟨.hbm, 43, rfl⟩
abbrev main_call2_call0_v7 : Ref sig .tc := ⟨.hbm, 44, rfl⟩
abbrev main_call2_call0_v8 : Ref sig .tc := ⟨.hbm, 45, rfl⟩
abbrev main_call2_v0 : Ref sig .tc := ⟨.hbm, 46, rfl⟩
abbrev main_call2_cst_0 : Ref sig .tc := ⟨.hbm, 47, rfl⟩
abbrev main_call2_v1 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_call3_cst : Ref sig .tc := ⟨.hbm, 55, rfl⟩
abbrev main_call3_v0 : Ref sig .tc := ⟨.hbm, 56, rfl⟩
abbrev main_call3_cst_0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_v6 : Ref sig .tc := ⟨.hbm, 63, rfl⟩
abbrev main_call3_cst_1 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_v22 : Ref sig .tc := ⟨.hbm, 69, rfl⟩
abbrev main_v23 : Ref sig .tc := ⟨.hbm, 70, rfl⟩
abbrev main_cst_1 : Ref sig .tc := ⟨.hbm, 71, rfl⟩
abbrev main_v24 : Ref sig .tc := ⟨.hbm, 72, rfl⟩
abbrev main_cst_2 : Ref sig .tc := ⟨.hbm, 73, rfl⟩
abbrev main_v25 : Ref sig .tc := ⟨.hbm, 74, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  reducesTo_S10000x256_S256_d0 : S10000x256.ReducesTo [0] S256
  h_S_ : 0 < S_.numel
  bcast_S_S1x256 : S_.BroadcastsInDim S1x256 (![] : Fin 0 → Fin S1x256.rank)
  concatenates_S1x256_S1x64_S1x320_d1 : Shape.Concatenates [S1x256, S1x64] S1x320 1
  transposes_S40x320_S320x40_1_0 : S40x320.Transposes [1, 0] S320x40
  bcast_S40_S1x40_1 : S40.BroadcastsInDim S1x40 (![1] : Fin 1 → Fin S1x40.rank)
  reducesTo_S1x40_S1_d1 : S1x40.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x40_0_1 : S1x1.BroadcastsInDim S1x40 (![0, 1] : Fin 2 → Fin S1x40.rank)
  reducesTo_S40x320_S_d0_1 : S40x320.ReducesTo [0, 1] S_
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x256_S10000x256_1_0_0_1_n_n_wf : DotDims.WF S10000x128 S128x256 S10000x256 [1] [0] [0] [1] [] []
  dot_S10000x10000_S10000x256_S10000x256_1_0_0_1_n_n_wf : DotDims.WF S10000x10000 S10000x256 S10000x256 [1] [0] [0] [1] [] []
  dot_S1x320_S320x40_S1x40_1_0_0_1_n_n_wf : DotDims.WF S1x320 S320x40 S1x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S1x320_S320x40_S1x40_1_0_0_1_n_n : DotDims S1x320 S320x40 S1x40 where
  lhsContracting := [1]
  rhsContracting := [0]
  lhsNonContracting := [0]
  rhsNonContracting := [1]
  lhsBatch := []
  rhsBatch := []
  wf := dot_S1x320_S320x40_S1x40_1_0_0_1_n_n_wf

class Facts : Prop extends Facts₀ where

variable [Facts]
-- ==== Proof.KernelRun.lean ====
/-
  The kernel program's run with its two results named.

  The program is four kernel launches among short stretches of host reshapes.  Its run ends with every buffer that
  outlives the launches at the contents `W8`: the launch memory folded through the host stretches and through what
  each launch's write-backs leave in its arrays.  So the two result buffers end holding `W8` at their references, and the
  nine argument arrays end as launched.
-/
import proofs.«152444_g91036126806362_cont_sun_c4_717_5_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the log-probabilities' buffer and the
    scalar result's buffer holding the last boundary's contents at their references, the arguments as launched. -/
theorem run_values : θ_run defs (onTc (τ := τ) (main (F := F))) ⟨m, fun _ => 0, ρ⟩ (fun r => ∀ c : Dev nD,
      r.2.mem ((c.tc : Thread nD τ).loc main_v7_0) = W8 m ρ c (Proc.devRef .tc main_v7_0)
      ∧ r.2.mem ((c.tc : Thread nD τ).loc main_v8) = W8 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v7_0 (by decide)),
       h c _ (mem_uc main_v8 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Val

end
-- ==== Proof.Fold.lean ====
/-
  The buffer contents at the end of the kernel program, walked back to the launch arrays.

  Between the four launches the program only reshapes: a bias vector into a one-row matrix before the second, third and
  fourth launch, the [25, 1, 256] partial sums into [25, 256] before the fourth, and the [1, 1] scalar result into a
  scalar after it.  A reshape leaves every buffer but its destination as it was, and a launch leaves every buffer but
  its own arrays as it was, its input arrays included.  So each launch finds the argument arrays as launched, the
  reshaped biases, and the previous launch's output array; and the program's two results are the last launch's two
  output arrays, the second one reshaped.
-/
import proofs.«152444_g91036126806362_cont_sun_c4_717_5_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-! ## A buffer a stretch of reshapes does not write passes through it -/

/-- Host stretch 1 writes only main_v1: every other buffer passes through it. -/
theorem W2_keep (c : Dev nD) (b : Ref sig .tc) (h0 : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne h0))

/-- Host stretch 2 writes only main_v3: every other buffer passes through it. -/
theorem W4_keep (c : Dev nD) (b : Ref sig .tc) (h0 : b ≠ main_v3) :
    W4 m ρ c (Proc.devRef .tc b) = W3 m ρ c (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne h0))

/-- Host stretch 3 writes only main_v5, main_v6: every other buffer passes through it. -/
theorem W6_keep (c : Dev nD) (b : Ref sig .tc) (h0 : b ≠ main_v5) (h1 : b ≠ main_v6) :
    W6 m ρ c (Proc.devRef .tc b) = W5 m ρ c (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1⟩))

/-- Host stretch 4 writes only main_v8: every other buffer passes through it. -/
theorem W8_keep (c : Dev nD) (b : Ref sig .tc) (h0 : b ≠ main_v8) :
    W8 m ρ c (Proc.devRef .tc b) = W7 m ρ c (Proc.devRef .tc b) :=
  StableHlo.after_of_forall_not_mem (b := Proc.devRef .tc b) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne h0))

/-! ## What each reshape leaves at its destination -/

/-- Before the second launch: the first bias as a one-row matrix. -/
theorem W2_v1 (c : Dev nD) (q : Fin 128) :
    W2 m ρ c (Proc.devRef .tc main_v1) (ix2 (0 : Fin 1) q) = W1 m ρ c (Proc.devRef .tc main_arg4) (ix1 q) := by
  show StableHlo.after hostOps1 (W1 m ρ c) (Proc.devRef .tc main_v1) (ix2 (0 : Fin 1) q) = _
  simp only [hostOps1, StableHlo.after_cons, StableHlo.after_nil]
  rw [StableHlo.reshape_result]
  exact shapeCast_a_1a_apply _ _ _ _

/-- Before the third launch: the second bias as a one-row matrix. -/
theorem W4_v3 (c : Dev nD) (q : Fin 256) :
    W4 m ρ c (Proc.devRef .tc main_v3) (ix2 (0 : Fin 1) q) = W3 m ρ c (Proc.devRef .tc main_arg6) (ix1 q) := by
  show StableHlo.after hostOps2 (W3 m ρ c) (Proc.devRef .tc main_v3) (ix2 (0 : Fin 1) q) = _
  simp only [hostOps2, StableHlo.after_cons, StableHlo.after_nil]
  rw [StableHlo.reshape_result]
  exact shapeCast_a_1a_apply _ _ _ _

/-- Before the fourth launch: the 25 partial sums as a [25, 256] matrix. -/
theorem W6_v5 (c : Dev nD) (b : Fin 25) (q : Fin 256) :
    W6 m ρ c (Proc.devRef .tc main_v5) (ix2 b q) = W5 m ρ c (Proc.devRef .tc main_v4) (ix3 b (0 : Fin 1) q) := by
  show StableHlo.after hostOps3 (W5 m ρ c) (Proc.devRef .tc main_v5) (ix2 b q) = _
  simp only [hostOps3, StableHlo.after_cons, StableHlo.after_nil]
  rw [StableHlo.reshape_result_ne]; rotate_left; decide
  rw [StableHlo.reshape_result]
  refine shapeCast_apply _ _ (ix2 b q) (ix3 b (0 : Fin 1) q) ?_
  rw [Shape.rowMajor_val_three, Shape.rowMajor_val_two]
  show (b.val * 1 + 0) * 256 + q.val = b.val * 256 + q.val
  omega

/-- Before the fourth launch: the last bias as a one-row matrix. -/
theorem W6_v6 (c : Dev nD) (n : Fin 40) :
    W6 m ρ c (Proc.devRef .tc main_v6) (ix2 (0 : Fin 1) n) = W5 m ρ c (Proc.devRef .tc main_arg8) (ix1 n) := by
  show StableHlo.after hostOps3 (W5 m ρ c) (Proc.devRef .tc main_v6) (ix2 (0 : Fin 1) n) = _
  simp only [hostOps3, StableHlo.after_cons, StableHlo.after_nil]
  rw [StableHlo.reshape_result]
  rw [StableHlo.reshape_result_ne]; rotate_left; decide
  exact shapeCast_a_1a_apply _ _ _ _

/-- After the fourth launch: the [1, 1] result as a scalar. -/
theorem W8_v8 (c : Dev nD) :
    W8 m ρ c (Proc.devRef .tc main_v8) ix0 = W7 m ρ c (Proc.devRef .tc main_v7_1) (ix2 (0 : Fin 1) (0 : Fin 1)) := by
  show StableHlo.after hostOps4 (W7 m ρ c) (Proc.devRef .tc main_v8) ix0 = _
  simp only [hostOps4, StableHlo.after_cons, StableHlo.after_nil]
  rw [StableHlo.reshape_result]
  refine shapeCast_apply _ _ ix0 (ix2 (0 : Fin 1) (0 : Fin 1)) ?_
  rw [Shape.rowMajor_val_two]
  rfl

/-! ## What each launch finds -/

/-- The launch memory read at the TensorCore's references is the launch memory. -/
theorem W0_eq (c : Dev nD) (b : Ref sig .tc) : W0 m ρ c (Proc.devRef .tc b) = m ((c : Thread nD τ).loc b) := rfl

/-- The second launch finds the adjacency matrix as launched. -/
theorem W2_arg1 (c : Dev nD) : W2 m ρ c (Proc.devRef .tc main_arg1) = m ((c : Thread nD τ).loc main_arg1) :=
  (W2_keep m ρ c main_arg1 (by decide)).trans ((W1_of_ne m ρ c main_arg1 (by decide)).trans (W0_eq m ρ c _))
/-- … the second weight matrix as launched. -/
theorem W2_arg5 (c : Dev nD) : W2 m ρ c (Proc.devRef .tc main_arg5) = m ((c : Thread nD τ).loc main_arg5) :=
  (W2_keep m ρ c main_arg5 (by decide)).trans ((W1_of_ne m ρ c main_arg5 (by decide)).trans (W0_eq m ρ c _))
/-- … the first bias as a one-row matrix. -/
theorem W2_bias (c : Dev nD) (q : Fin 128) :
    W2 m ρ c (Proc.devRef .tc main_v1) (ix2 (0 : Fin 1) q) = m ((c : Thread nD τ).loc main_arg4) (ix1 q) :=
  (W2_v1 m ρ c q).trans (congrFun ((W1_of_ne m ρ c main_arg4 (by decide)).trans (W0_eq m ρ c _)) (ix1 q))
/-- … and the first launch's output array. -/
theorem W2_v0 (c : Dev nD) : W2 m ρ c (Proc.devRef .tc main_v0) = (dat0 (V0 m ρ) c).arrAt 2 cfg0.N :=
  (W2_keep m ρ c main_v0 (by decide)).trans (W1_arr m ρ c 2)

/-- A buffer the first two launches and the reshapes between leave alone still holds the launch contents before the third launch. -/
theorem W4_launch (c : Dev nD) (b : Ref sig .tc) (h3 : b ≠ main_v3) (hs1 : ∀ w, Pipeline.arrRef spec1 w ≠ b) (h1 : b ≠ main_v1)
    (hs0 : ∀ w, Pipeline.arrRef spec0 w ≠ b) : W4 m ρ c (Proc.devRef .tc b) = m ((c : Thread nD τ).loc b) :=
  (W4_keep m ρ c b h3).trans ((W3_of_ne m ρ c b hs1).trans ((W2_keep m ρ c b h1).trans ((W1_of_ne m ρ c b hs0).trans (W0_eq m ρ c b))))

/-- The third launch finds the adjacency matrix as launched (the second launch only read it). -/
theorem W4_arg1 (c : Dev nD) : W4 m ρ c (Proc.devRef .tc main_arg1) = m ((c : Thread nD τ).loc main_arg1) :=
  (W4_keep m ρ c main_arg1 (by decide)).trans
    (((W3_arr m ρ c 0).trans (((dat1 (V2 m ρ) c).arrAt_in 0 rfl _).trans (A_eq1 (V2 m ρ) c 0))).trans (W2_arg1 m ρ c))
/-- … the second bias as a one-row matrix. -/
theorem W4_bias (c : Dev nD) (q : Fin 256) :
    W4 m ρ c (Proc.devRef .tc main_v3) (ix2 (0 : Fin 1) q) = m ((c : Thread nD τ).loc main_arg6) (ix1 q) :=
  (W4_v3 m ρ c q).trans (congrFun ((W3_of_ne m ρ c main_arg6 (by decide)).trans
    ((W2_keep m ρ c main_arg6 (by decide)).trans ((W1_of_ne m ρ c main_arg6 (by decide)).trans (W0_eq m ρ c _)))) (ix1 q))
/-- … and the second launch's output array. -/
theorem W4_v2 (c : Dev nD) : W4 m ρ c (Proc.devRef .tc main_v2) = (dat1 (V2 m ρ) c).arrAt 4 cfg1.N :=
  (W4_keep m ρ c main_v2 (by decide)).trans (W3_arr m ρ c 4)

/-- A buffer no launch and no reshape before the fourth launch writes still holds the launch contents there. -/
theorem W5_launch (c : Dev nD) (b : Ref sig .tc) (hs2 : ∀ w, Pipeline.arrRef spec2 w ≠ b) (h3 : b ≠ main_v3)
    (hs1 : ∀ w, Pipeline.arrRef spec1 w ≠ b) (h1 : b ≠ main_v1) (hs0 : ∀ w, Pipeline.arrRef spec0 w ≠ b) :
    W5 m ρ c (Proc.devRef .tc b) = m ((c : Thread nD τ).loc b) :=
  (W5_of_ne m ρ c b hs2).trans (W4_launch m ρ c b h3 hs1 h1 hs0)

/-- The fourth launch finds the side features as launched. -/
theorem W6_arg2 (c : Dev nD) : W6 m ρ c (Proc.devRef .tc main_arg2) = m ((c : Thread nD τ).loc main_arg2) :=
  (W6_keep m ρ c main_arg2 (by decide) (by decide)).trans (W5_launch m ρ c main_arg2 (by decide) (by decide) (by decide) (by decide) (by decide))
/-- … the last layer's weights as launched. -/
theorem W6_arg7 (c : Dev nD) : W6 m ρ c (Proc.devRef .tc main_arg7) = m ((c : Thread nD τ).loc main_arg7) :=
  (W6_keep m ρ c main_arg7 (by decide) (by decide)).trans (W5_launch m ρ c main_arg7 (by decide) (by decide) (by decide) (by decide) (by decide))
/-- … the last bias as a one-row matrix. -/
theorem W6_bias (c : Dev nD) (n : Fin 40) :
    W6 m ρ c (Proc.devRef .tc main_v6) (ix2 (0 : Fin 1) n) = m ((c : Thread nD τ).loc main_arg8) (ix1 n) :=
  (W6_v6 m ρ c n).trans (congrFun (W5_launch m ρ c main_arg8 (by decide) (by decide) (by decide) (by decide) (by decide)) (ix1 n))
/-- … and the third launch's output array, laid as a [25, 256] matrix. -/
theorem W6_partials (c : Dev nD) (b : Fin 25) (q : Fin 256) :
    W6 m ρ c (Proc.devRef .tc main_v5) (ix2 b q) = (dat2 (V4 m ρ) c).arrAt 3 cfg2.N (ix3 b (0 : Fin 1) q) :=
  (W6_v5 m ρ c b q).trans (congrFun (W5_arr m ρ c 3) (ix3 b (0 : Fin 1) q))

/-! ## The program's two results -/

/-- The log-probabilities' buffer ends holding the fourth launch's first output array. -/
theorem W8_logp (c : Dev nD) : W8 m ρ c (Proc.devRef .tc main_v7_0) = (dat3 (V6 m ρ) c).arrAt 4 cfg3.N :=
  (W8_keep m ρ c main_v7_0 (by decide)).trans (W7_arr m ρ c 4)
/-- The scalar result's buffer ends holding the one entry of the fourth launch's second output array. -/
theorem W8_scalar (c : Dev nD) :
    W8 m ρ c (Proc.devRef .tc main_v8) ix0 = (dat3 (V6 m ρ) c).arrAt 5 cfg3.N (ix2 (0 : Fin 1) (0 : Fin 1)) :=
  (W8_v8 m ρ c).trans (congrFun (W7_arr m ρ c 5) (ix2 (0 : Fin 1) (0 : Fin 1)))

end Cert.KernelIdeal.Val

end
-- ==== Proof.Spec.lean ====
/-
  The mathematics both programs compute, on the extended reals, entry by entry.

  A graph convolution layer takes node features S, propagates them along the adjacency matrix A, adds a bias and clips
  at zero: H(i, j) = max (∑ n, A(i, n) · S(n, j) + b(j)) 0.  The network is two such layers, each fed by a dense product
  (X·W1, then H1·W2), followed by the mean of the second layer's activations over the 10000 nodes, the selu activation,
  the 64 side features appended, one linear layer to 40 classes and a log-softmax; beside it the mean absolute value of
  the last layer's weights.  The pooled mean is kept as a parameter of the head (`head μ …`), because the two programs
  reach it differently: one sums 25 partial sums of 400 nodes each and multiplies by 1/10000, the other sums all nodes
  and divides by 10000.
-/
import Idealize.ShloMosaic.PureOps.Ideal
import Idealize.ShloMosaic.Lib.ValueIdx

noncomputable section

open scoped BigOperators

namespace Cert.Gcn

open Idealize.ShloMosaic

/-- The product of an M×K by a K×N matrix: entry (i, j) is ∑ k, A(i, k) · B(k, j). -/
def mm {M K N : ℕ} (A : Fin M → Fin K → EReal) (B : Fin K → Fin N → EReal) (i : Fin M) (j : Fin N) : EReal :=
  ∑ k : Fin K, A i k * B k j

/-- The sum of column q of an n-row matrix. -/
def colSum {n N : ℕ} (a : Fin n → Fin N → EReal) (q : Fin N) : EReal := ∑ i : Fin n, a i q

/-- One graph-convolution layer: propagate S along A, add the bias, clip at zero. -/
def layer {M K N : ℕ} (A : Fin M → Fin K → EReal) (S : Fin K → Fin N → EReal) (b : Fin N → EReal)
    (i : Fin M) (j : Fin N) : EReal :=
  max (mm A S i j + b j) 0

/-- The second layer's activations: layer A (layer A (X·W1) b1 · W2) b2. -/
def hidden2 (x : Fin 10000 → Fin 128 → EReal) (adj : Fin 10000 → Fin 10000 → EReal)
    (w1 : Fin 128 → Fin 128 → EReal) (b1 : Fin 128 → EReal) (w2 : Fin 128 → Fin 256 → EReal)
    (b2 : Fin 256 → EReal) : Fin 10000 → Fin 256 → EReal :=
  layer adj (mm (layer adj (mm x w1) b1) w2) b2

/-- elu with slope word α = 0x3FD62D7D: x where x > 0, α · (eˣ − 1) elsewhere. -/
def elu (x : EReal) : EReal :=
  Scalar.select (Ideal.cmp .ogt x 0) x (Ideal.ofBits .f32 0x3FD62D7D#32 * (Ideal.exp x - 1))

/-- selu: the scale word 0x3F867D5F times elu. -/
def selu (x : EReal) : EReal := Ideal.ofBits .f32 0x3F867D5F#32 * elu x

/-- The 256 pooled features followed by the 64 side features. -/
def joined (g : Fin 256 → EReal) (s : Fin 64 → EReal) (k : Fin 320) : EReal :=
  if h : k.val < 256 then g ⟨k.val, h⟩ else s ⟨k.val - 256, by have := k.isLt; omega⟩

/-- The last linear layer: z · Wfᵀ + bf. -/
def logits (z : Fin 320 → EReal) (wf : Fin 40 → Fin 320 → EReal) (bf : Fin 40 → EReal) (n : Fin 40) : EReal :=
  (∑ k : Fin 320, z k * wf n k) + bf n

/-- The greatest of 40 values (from −∞). -/
def rowMax (l : Fin 40 → EReal) : EReal := (Finset.univ : Finset (Fin 40)).fold max ⊥ l

/-- log-softmax of 40 values, shifted by their maximum. -/
def logSoftmax (l : Fin 40 → EReal) (n : Fin 40) : EReal :=
  (l n - rowMax l) - Ideal.log (∑ k : Fin 40, Ideal.exp (l k - rowMax l))

/-- The head of the network from the pooled mean μ: log-softmax of the last layer on selu μ joined with the side
    features. -/
def head (μ : Fin 256 → EReal) (sub : Fin 64 → EReal) (wf : Fin 40 → Fin 320 → EReal) (bf : Fin 40 → EReal)
    (n : Fin 40) : EReal :=
  logSoftmax (logits (joined (fun c => selu (μ c)) sub) wf bf) n

/-- The mean absolute value of the 40 × 320 weights (the divisor is the f32 word of 12800). -/
def l1 (wf : Fin 40 → Fin 320 → EReal) : EReal :=
  Ideal.div (∑ a : Fin 40, ∑ b : Fin 320, max (wf a b) (-(wf a b))) (Ideal.ofBits .f32 0x46480000#32)

end Cert.Gcn

end
-- ==== Proof.Consts.lean ====
/-
  The float words the two programs spell, as the extended reals they denote: zero, one, minus infinity and ten thousand.
  They are evaluated here once; every other module reads them from here.
-/
import Idealize.ShloMosaic.PureOps.Ideal

noncomputable section

namespace Cert.Words

open Idealize.ShloMosaic

/-- The word of +0.0 is 0. -/
theorem zero : Ideal.ofBits .f32 0x00000000#32 = 0 := by
  simp [Ideal.ofBits, Ideal.ieee]

/-- The word of 1.0 is 1. -/
theorem one : Ideal.ofBits .f32 0x3F800000#32 = 1 := by
  simp [Ideal.ofBits, Ideal.ieee, -EReal.coe_mul]; norm_num

/-- The word of 10000.0 is the real 10000. -/
theorem tenThousand : Ideal.ofBits .f32 0x461C4000#32 = ((10000 : ℝ) : EReal) := by
  simp [Ideal.ofBits, Ideal.ieee, -EReal.coe_mul]; norm_num

/-- The word 0xFF800000 is −∞. -/
theorem negInf : Ideal.ofBits .f32 0xFF800000#32 = ⊥ := by
  simp [Ideal.ofBits, Ideal.ieee]

end Cert.Words

end
-- ==== Proof.LibTiles.lean ====
/-
  A sum over a range of `n * b` consecutive indices, cut into `n` consecutive tiles of width `b`:
  the index `k * b + j` is the `j`-th element of the `k`-th tile.
-/
import Mathlib.Algebra.BigOperators.Fin
import Mathlib.Logic.Equiv.Fin.Basic
import Mathlib.Data.EReal.Basic

open scoped BigOperators

namespace Cert.Lib.Tiles

/-- The `j`-th element of the `k`-th tile of width `b` lies below `n * b`. -/
theorem tile_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right b k.isLt

/-- A sum over `Fin (n * b)` is the sum over the `n` tiles of the sums over each tile's `b` elements. -/
theorem sum_tiles {M : Type*} [AddCommMonoid M] (n b : ℕ) (f : Fin (n * b) → M) :
    ∑ i : Fin (n * b), f i = ∑ k : Fin n, ∑ j : Fin b, f ⟨k.val * b + j.val, tile_lt k j⟩ := by
  rw [← Equiv.sum_comp finProdFinEquiv f, Fintype.sum_prod_type]
  refine Finset.sum_congr rfl fun k _ => Finset.sum_congr rfl fun j _ => ?_
  refine congrArg f (Fin.ext ?_)
  show j.val + b * k.val = k.val * b + j.val
  rw [Nat.mul_comm, Nat.add_comm]

/-- The inner width 11008 as 43 tiles of width 256. -/
theorem sum_11008 (f : Fin 11008 → EReal) :
    ∑ i : Fin 11008, f i = ∑ k : Fin 43, ∑ j : Fin 256, f ⟨k.val * 256 + j.val, by omega⟩ :=
  sum_tiles 43 256 f

end Cert.Lib.Tiles
-- ==== Proof.Algebra.lean ====
/-
  The two laws that join the two programs' ways to the pooled mean.

  One program adds, for each of 25 consecutive blocks of 400 nodes, the block's activations, and then adds the 25
  partial sums; the other adds all 10000 nodes at once.  Addition of extended reals is commutative and associative, so
  the two totals agree with no finiteness needed.  One program multiplies the total by the constant it names 1/10000,
  the other divides it by the float 10000: on every extended real, dividing by a nonzero real is multiplying by its
  inverse.
-/
import proofs.«152444_g91036126806362_cont_sun_c4_717_5_alg».proof.Proof.Spec
import proofs.«152444_g91036126806362_cont_sun_c4_717_5_alg».proof.Proof.Consts
import proofs.«152444_g91036126806362_cont_sun_c4_717_5_alg».proof.Proof.LibTiles

noncomputable section

open scoped BigOperators

namespace Cert.Gcn

open Idealize.ShloMosaic

/-- Row r of block b, as a node: 400 · b + r. -/
def node (b : Fin 25) (r : Fin 400) : Fin 10000 :=
  ⟨b.val * 400 + r.val, by have := b.isLt; have := r.isLt; omega⟩

/-- The column sums of the 25 blocks' partial sums are the column sums over all nodes. -/
theorem colSum_blocks (h : Fin 10000 → Fin 256 → EReal) (q : Fin 256) :
    colSum (fun (b : Fin 25) (q : Fin 256) => ∑ r : Fin 400, h (node b r) q) q = colSum h q := by
  unfold colSum
  exact (Cert.Lib.Tiles.sum_tiles 25 400 (fun i : Fin (25 * 400) => h ⟨i.val, by have := i.isLt; omega⟩ q)).symm

/-- A total times the real 1/10000 is the total divided by the float word of 10000. -/
theorem times_inv_eq_div (s v : EReal) (hv : v = ((1 / 10000 : ℝ) : EReal)) :
    s * v = Ideal.div s (Ideal.ofBits .f32 0x461C4000#32) := by
  rw [hv, Cert.Words.tenThousand, Ideal.div_coe (by norm_num : (10000 : ℝ) ≠ 0)]

end Cert.Gcn

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibDenseBias.lean ====
/-
  A dense layer's two steps read entry by entry on the extended reals, as a kernel spells them on a block of rows and as
  the host spells them on the whole array; any extents.

  The product.  A kernel multiplies a block of rows of the left matrix by the whole right matrix, both narrowed to bf16
  first (which changes nothing on the extended reals), into a zero accumulator; the host multiplies the whole matrices.
  Either way the entry (p, q) is the sum over k of A (p, k) · B (k, q) (dense_block_entry, dense_host_entry): an entry of the
  product reads one row of the left factor, so a block of rows of the product is the product of that block of rows.

  The bias step.  A kernel adds a one-row matrix [1, b], repeated down the rows of its block (row_down_entry), and may take
  the maximum with zero; the host adds the row repeated down all rows by broadcast_in_dim (row_down_host_entry) and takes
  the same maximum against the zero matrix.  Entry (p, q) is x (p, q) + row (0, q), or its maximum with 0
  (bias_block_entry, bias_relu_block_entry, bias_host_entry, bias_relu_host_entry).  A bias vector [b] laid as the row
  [1, b] by a reshape or by a broadcast_in_dim along the last axis is the same row (bias_row_eq).

  It imports this unit's copies of LibPlainDot.lean and LibHostDot.lean.
-/
import Idealize.ShloMosaic.Lib.ValueIdx
import Idealize.ShloMosaic.Lib.ValueLayout
import Idealize.ShloMosaic.Lib.Pipeline.Value
import Idealize.ShloMosaic.PureOps.Ideal.Laws
import proofs.«152444_g91036126806362_cont_sun_c4_717_5_alg».proof.Proof.LibPlainDot
import proofs.«152444_g91036126806362_cont_sun_c4_717_5_alg».proof.Proof.LibHostDot

noncomputable section

namespace Cert.Lib.DenseBias

open Idealize.ShloMosaic Idealize.ShloMosaic.ValueIdx

variable {M K N : ℕ}

/-- The kernel's product of a block of rows, both factors narrowed to bf16, into the zero accumulator: entry (p, q) is
    the sum over k of x0 (p, k) · x1 (k, q). -/
theorem dense_block_entry (h : FTy.bits .bf16 < FTy.bits .f32)
    (x0 : FVec Ideal ⟨2, ![M, K]⟩ .f32) (x1 : FVec Ideal ⟨2, ![K, N]⟩ .f32) (p : Fin M) (q : Fin N) :
    matmul (DotDims.plain M K N) none (truncf .bf16 x0 h) (truncf .bf16 x1 h)
        (constant (F := Ideal) ⟨2, ![M, N]⟩ .f32 0x00000000#32) (ix2 p q)
      = ∑ k : Fin K, x0 (ix2 p k) * x1 (ix2 k q) :=
  (Cert.PlainDot.matmul_zero_plain_apply none (truncf .bf16 x0 h) (truncf .bf16 x1 h) p q).trans
    (Finset.sum_congr rfl fun _ _ => rfl)

/-- The host's product of the whole matrices: entry (p, q) is the sum over k of A (p, k) · B (k, q). -/
theorem dense_host_entry (A : FVec Ideal ⟨2, ![M, K]⟩ .f32) (B : FVec Ideal ⟨2, ![K, N]⟩ .f32) (p : Fin M) (q : Fin N) :
    Host.dotGeneral (F := Ideal) (DotDims.plain M K N) none A B (ix2 p q) = ∑ k : Fin K, A (ix2 p k) * B (ix2 k q) :=
  Cert.HostDot.dotGeneral_plain_apply none A B p q

variable {a b : ℕ}

/-- A one-row matrix [1, b] repeated down a rows (the kernel's broadcast of its bias row): entry (p, q) is the row's
    entry q. -/
theorem row_down_entry {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The same repetition as the host spells it (broadcast_in_dim of [1, b] to [a, b] along both axes). -/
theorem row_down_host_entry {α : Type} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector [b] laid as a one-row matrix [1, b], by a reshape (the kernel's program) or by a broadcast_in_dim
    along the last axis (the reference's): the same row. -/
theorem bias_row_eq {α : Type} (x : (⟨1, ![b]⟩ : Shape).Idx → α)
    (h1 : (⟨1, ![b]⟩ : Shape).ShapeCasts ⟨2, ![1, b]⟩)
    (h2 : (⟨1, ![b]⟩ : Shape).BroadcastsInDim ⟨2, ![1, b]⟩ (![1] : Fin 1 → Fin 2)) :
    shapeCast ⟨2, ![1, b]⟩ x h1 = broadcastInDim ⟨2, ![1, b]⟩ (![1] : Fin 1 → Fin 2) h2 x := by
  funext j
  obtain ⟨u, q, rfl⟩ : ∃ (u : Fin 1) (q : Fin b), j = ix2 u q := ⟨j 0, j 1, eq_ix2 j⟩
  rw [shapeCast_a_1a_apply]
  refine (broadcastInDim_apply _ h2 x (ix2 u q) (ix1 q) fun ax => ?_).symm
  match ax with
  | ⟨0, _⟩ =>
    show q.val = if b = 1 then 0 else q.val
    split
    · have := q.isLt; omega
    · rfl

/-- The kernel's bias step on a block, with the maximum against zero: entry (p, q) is max (x0 (p, q) + x1 (0, q)) 0. -/
theorem bias_relu_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x0 h0) (broadcastTo ⟨2, ![a, b]⟩ (shapeCast ⟨2, ![1, b]⟩ x1 h1) hb))
        (broadcast ⟨2, ![a, b]⟩ (Scalar.ofBits (F := Ideal) .f32 0x00000000#32)) (ix2 p q)
      = max (x0 (ix2 p q) + x1 (ix2 (0 : Fin 1) q)) (Ideal.ofBits .f32 0x00000000#32) := by
  rw [maximumf_apply, addf_apply, shapeCast_self, shapeCast_self, row_down_entry]
  rfl

/-- The kernel's bias step on a block, second layer (no maximum): entry (p, q) is x0 (p, q) + x1 (0, q). -/
theorem bias_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    addf (shapeCast ⟨2, ![a, b]⟩ x0 h0) (broadcastTo ⟨2, ![a, b]⟩ (shapeCast ⟨2, ![1, b]⟩ x1 h1) hb) (ix2 p q)
      = x0 (ix2 p q) + x1 (ix2 (0 : Fin 1) q) := by
  rw [addf_apply, shapeCast_self, shapeCast_self, row_down_entry]

/-- The reference's bias step with the maximum against the zero matrix: entry (p, q) is max (X (p, q) + R (0, q)) 0. -/
theorem bias_relu_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2))
    (hz : (⟨0, ![]⟩ : Shape).BroadcastsInDim ⟨2, ![a, b]⟩ (![] : Fin 0 → Fin 2)) (p : Fin a) (q : Fin b) :
    maximumf (addf X (broadcastInDim ⟨2, ![a, b]⟩ (![0, 1] : Fin 2 → Fin 2) hR R))
        (broadcastInDim ⟨2, ![a, b]⟩ (![] : Fin 0 → Fin 2) hz (constant (F := Ideal) ⟨0, ![]⟩ .f32 0x00000000#32)) (ix2 p q)
      = max (X (ix2 p q) + R (ix2 (0 : Fin 1) q)) (Ideal.ofBits .f32 0x00000000#32) := by
  rw [maximumf_apply, addf_apply, row_down_host_entry]
  rfl

/-- The reference's bias step, second layer: entry (p, q) is X (p, q) + R (0, q). -/
theorem bias_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2)) (p : Fin a) (q : Fin b) :
    addf X (broadcastInDim ⟨2, ![a, b]⟩ (![0, 1] : Fin 2 → Fin 2) hR R) (ix2 p q)
      = X (ix2 p q) + R (ix2 (0 : Fin 1) q) := by
  rw [addf_apply, row_down_host_entry]

end Cert.Lib.DenseBias

end
-- ==== Proof.Region0.lean ====
/-
  The first launch, X · W1: what it leaves in its result array, entry by entry, whatever the arrays hold when it starts.

  The launch has no grid: its one block of each array is the whole array. The body narrows both factors to bf16,
  multiplies them into a zero accumulator and narrows the product; on the extended reals a narrowing changes nothing, so
  the stored block is the matrix product, and the one write-back covers the result array.
-/
import proofs.«152444_g91036126806362_cont_sun_c4_717_5_alg».proof.Proof.Gen.KernelIdeal.Frame
import proofs.«152444_g91036126806362_cont_sun_c4_717_5_alg».proof.Proof.Spec
import proofs.«152444_g91036126806362_cont_sun_c4_717_5_alg».proof.Proof.Consts
import proofs.«152444_g91036126806362_cont_sun_c4_717_5_alg».proof.Proof.LibPlainDot
import proofs.«152444_g91036126806362_cont_sun_c4_717_5_alg».proof.Proof.LibDenseBias
import Idealize.ShloMosaic.Lib.ValueIdx
import Idealize.ShloMosaic.Lib.Pipeline.Value

noncomputable section

namespace Cert.KernelIdeal.Val

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The zero offsets of a whole-block access, however they are spelt. -/
theorem zeros2 : (![0, 0] : Fin 2 → Nat) = fun _ => 0 := funext fun a => by fin_cases a <;> rfl

/-- The first launch's contraction is the plain one: rows of the left factor against columns of the right. -/
theorem dot0_plain : dot_S10000x128_S128x128_S10000x128_1_0_0_1_n_n = DotDims.plain 10000 128 128 := rfl

/-- What the first launch stores, entry by entry: both factors are narrowed to bf16, multiplied into a zero accumulator
    and the product narrowed again; on the extended reals none of the narrowings changes a value, so entry (p, q) is
    the sum over k of x0 (p, k) · x1 (k, q). -/
theorem pay0_entry (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  show matmul dot_S10000x128_S128x128_S10000x128_1_0_0_1_n_n none (truncf .bf16 x0 bitsLt_bf16_f32)
      (truncf .bf16 x1 bitsLt_bf16_f32) (constant (F := Ideal) S10000x128 .f32 0x00000000#32) (ix2 p q) = _
  rw [dot0_plain]
  exact Cert.Lib.DenseBias.dense_block_entry bitsLt_bf16_f32 x0 x1 p q

/-- The array the first launch leaves, as one function of the two arrays it reads: X · W1. -/
def G0 (c : Dev nD) : S10000x128.Idx → EReal := fun j =>
  Cert.Gcn.mm (fun i k => V c main_arg0 (ix2 i k)) (fun k j => V c main_arg3 (ix2 k j))
    (⟨(j 0).val, idx2_lt0 j⟩ : Fin 10000) (⟨(j 1).val, idx2_lt1 j⟩ : Fin 128)

/-- With no grid the one block of the left factor is the whole array. -/
theorem iblk0_0_apply (c : Dev nD) (t : Fin cfg0.N) (p : Fin 10000) (k : Fin 128) :
    iblk0 V c 0 t (ix2 p k) = V c main_arg0 (ix2 p k) := by
  unfold iblk0
  rw [View.read_apply]
  show V c main_arg0 (((cfg0.win 0).blk t).view.emb (ix2 p k)) = V c main_arg0 (ix2 p k)
  refine congrArg _ (funext fun a => Fin.ext ?_)
  match a with
  | ⟨0, _⟩ => show win0_0.index t (0 : Fin 2) * 10000 + 1 * p.val = p.val; show 0 * 10000 + 1 * p.val = p.val; omega
  | ⟨1, _⟩ => show win0_0.index t (1 : Fin 2) * 128 + 1 * k.val = k.val; show 0 * 128 + 1 * k.val = k.val; omega

/-- And the one block of the right factor is the whole array. -/
theorem iblk0_1_apply (c : Dev nD) (t : Fin cfg0.N) (k : Fin 128) (q : Fin 128) :
    iblk0 V c 1 t (ix2 k q) = V c main_arg3 (ix2 k q) := by
  unfold iblk0
  rw [View.read_apply]
  show V c main_arg3 (((cfg0.win 1).blk t).view.emb (ix2 k q)) = V c main_arg3 (ix2 k q)
  refine congrArg _ (funext fun a => Fin.ext ?_)
  match a with
  | ⟨0, _⟩ => show win0_1.index t (0 : Fin 2) * 128 + 1 * k.val = k.val; show 0 * 128 + 1 * k.val = k.val; omega
  | ⟨1, _⟩ => show win0_1.index t (1 : Fin 2) * 128 + 1 * q.val = q.val; show 0 * 128 + 1 * q.val = q.val; omega

/-- What the one point writes back is the one block (the whole array) of X · W1. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  unfold out0_2
  rw [View.canon_unit_zero zeros2]
  simp only [View.ld_unit_zero (S := S10000x128) zeros2, View.ld_unit_zero (S := S128x128) zeros2]
  funext y
  obtain ⟨p, q, rfl⟩ : ∃ (p : Fin 10000) (q : Fin 128), y = ix2 p q := ⟨y 0, y 1, eq_ix2 y⟩
  show k0_pay1 (iblk0 V c 0 t) (iblk0 V c 1 t) (ix2 p q) = G0 V c (((cfg0.win 2).blk t).view.emb (ix2 p q))
  refine (pay0_entry (iblk0 V c 0 t) (iblk0 V c 1 t) p q).trans ?_
  unfold G0 Cert.Gcn.mm
  refine Finset.sum_congr rfl fun k _ => ?_
  rw [iblk0_0_apply V c t p k, iblk0_1_apply V c t k q]
  have ep : (⟨((((cfg0.win 2).blk t).view.emb (ix2 p q)) 0).val, idx2_lt0 _⟩ : Fin 10000) = p := Fin.ext (by
    show win0_2.index t (0 : Fin 2) * 10000 + 1 * p.val = p.val
    show 0 * 10000 + 1 * p.val = p.val; omega)
  have eq : (⟨((((cfg0.win 2).blk t).view.emb (ix2 p q)) 1).val, idx2_lt1 _⟩ : Fin 128) = q := Fin.ext (by
    show win0_2.index t (1 : Fin 2) * 128 + 1 * q.val = q.val
    show 0 * 128 + 1 * q.val = q.val; omega)
  rw [ep, eq]

/-- An index of the result array lies in the one block iff each coordinate is in the block's range. -/
theorem mem_blk0 (t : Fin cfg0.N) (i : S10000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v0).slice (win0_2.rect t)).set ↔ _
  rw [View.set_slice_whole, Rect.mem_set_unit]
  exact Iff.rfl

/-- The one block covers the result array. -/
theorem cover0 (i : S10000x128.Idx) :
    ∃ t : Fin cfg0.N, (cfg0.win 2).flush t = true ∧ i ∈ ((cfg0.win 2).blk t).view.set := by
  refine ⟨⟨0, by decide⟩, flush0_2 _, ?_⟩
  rw [mem_blk0]
  intro a
  have h0 : (i 0).val < 10000 := idx2_lt0 i
  have h1 : (i 1).val < 128 := idx2_lt1 i
  match a with
  | ⟨0, _⟩ => show 0 * 10000 ≤ (i 0).val ∧ (i 0).val < 0 * 10000 + 10000; omega
  | ⟨1, _⟩ => show 0 * 128 ≤ (i 1).val ∧ (i 1).val < 0 * 128 + 128; omega

/-- THE FIRST LAUNCH'S RESULT: entry (i, j) of the array it leaves is the (i, j) entry of X · W1. -/
theorem region0_value (c : Dev nD) (i : Fin 10000) (j : Fin 128) :
    (dat0 (F := Ideal) V c).arrAt 2 cfg0.N (ix2 i j)
      = Cert.Gcn.mm (fun i k => V c main_arg0 (ix2 i k)) (fun k j => V c main_arg3 (ix2 k j)) i j :=
  congrFun ((dat0 (F := Ideal) V c).arrAt_eq_of_cover 2 (G0 V c) (fun t _ => flushed0_eq V c t) cover0) (ix2 i j)

end Cert.KernelIdeal.Val

end
-- ==== Proof.Region1Pay.lean ====
/-
  The second launch on one block of 400 rows: what its body stores, entry by entry, as a function of the four blocks it
  reads (400 rows of the adjacency matrix, the node features, the bias row, the second layer's weights).

  The body narrows the adjacency rows to bf16, multiplies them by the (bf16) node features into a zero accumulator, adds
  the bias row down the rows, clips at zero, narrows, multiplies by the narrowed weights into a zero accumulator and
  narrows the product. On the extended reals a narrowing changes nothing, so the stored entry (p, q) is
  ∑ j, max (∑ n, A (p, n) · S (n, j) + b (0, j)) 0 · W2 (j, q).
-/
import proofs.«152444_g91036126806362_cont_sun_c4_717_5_alg».proof.Proof.Gen.KernelIdeal.Frame
import proofs.«152444_g91036126806362_cont_sun_c4_717_5_alg».proof.Proof.Spec
import proofs.«152444_g91036126806362_cont_sun_c4_717_5_alg».proof.Proof.Consts
import proofs.«152444_g91036126806362_cont_sun_c4_717_5_alg».proof.Proof.LibPlainDot
import proofs.«152444_g91036126806362_cont_sun_c4_717_5_alg».proof.Proof.LibDenseBias
import Idealize.ShloMosaic.Lib.ValueIdx
import Idealize.ShloMosaic.Lib.Pipeline.Value

noncomputable section

namespace Cert.KernelIdeal.Val

open Idealize.ShloMosaic Idealize.ShloMosaic.ValueIdx Idealize.ShloMosaic.TcCoe Idealize.SL.Sem
open Cert.KernelIdeal Cert.KernelIdeal.Gen
open Idealize.ShloMosaic.Pipeline (Dat)

/-- The second launch's two contractions are plain ones: rows of the left factor against columns of the right. -/
theorem dot1a_plain : dot_S400x10000_S10000x128_S400x128_1_0_0_1_n_n = DotDims.plain 400 10000 128 := rfl
theorem dot1b_plain : dot_S400x128_S128x256_S400x256_1_0_0_1_n_n = DotDims.plain 400 128 256 := rfl

/-- The first layer on a block of 400 rows of the adjacency matrix: the rows are narrowed to bf16 (no change on the
    extended reals), multiplied by the node features into a zero accumulator, the bias row is added down the rows and
    the result clipped at zero. Entry (p, j) is max (∑ n, A (p, n) · S (n, j) + b (0, j)) 0. -/
theorem hidden_entry (x0 : FVec Ideal S400x10000 .f32) (x1 : FVec Ideal S10000x128 .bf16) (x2 : FVec Ideal S1x128 .f32)
    (p : Fin 400) (j : Fin 128) :
    maximumf (addf (matmul (DotDims.plain 400 10000 128) none (truncf .bf16 x0 bitsLt_bf16_f32)
          (shapeCast S10000x128 x1 shapeCasts_S10000x128_S10000x128) (constant (F := Ideal) S400x128 .f32 0x00000000#32))
        (broadcastTo S400x128 (shapeCast S1x128 x2 shapeCasts_S1x128_S1x128) broadcasts_S1x128_S400x128))
      (broadcast S400x128 (Scalar.ofBits (F := Ideal) .f32 0x00000000#32)) (ix2 p j)
    = max ((∑ n : Fin 10000, x0 (ix2 p n) * x1 (ix2 n j)) + x2 (ix2 (0 : Fin 1) j)) 0 := by
  rw [maximumf_apply, addf_apply, shapeCast_self, shapeCast_self, Cert.Lib.DenseBias.row_down_entry,
    Cert.PlainDot.matmul_zero_plain_apply, broadcast_apply]
  show max ((∑ n : Fin 10000, x0 (ix2 p n) * x1 (ix2 n j)) + x2 (ix2 (0 : Fin 1) j)) (Ideal.ofBits .f32 0x00000000#32) = _
  rw [Cert.Words.zero]

/-- What the second launch stores for a block of 400 rows, entry by entry: the first layer's block, narrowed, times W2
    narrowed, into a zero accumulator, the product narrowed. Entry (p, q) is ∑ j, H (p, j) · W2 (j, q). -/
theorem pay1_entry (x0 : Vec Ideal S400x10000 .f32) (x1 : Vec Ideal S10000x128 .bf16) (x2 : Vec Ideal S1x128 .f32)
    (x3 : Vec Ideal S128x256 .f32) (p : Fin 400) (q : Fin 256) :
    k1_pay1 (F := Ideal) x0 x1 x2 x3 (ix2 p q)
      = ∑ j : Fin 128, max ((∑ n : Fin 10000, x0 (ix2 p n) * x1 (ix2 n j)) + x2 (ix2 (0 : Fin 1) j)) 0 * x3 (ix2 j q) := by
  unfold k1_pay1
  show matmul dot_S400x128_S128x256_S400x256_1_0_0_1_n_n none
      (truncf .bf16 (maximumf (addf (matmul dot_S400x10000_S10000x128_S400x128_1_0_0_1_n_n none
            (truncf .bf16 x0 bitsLt_bf16_f32)
            (shapeCast S10000x128 x1 shapeCasts_S10000x128_S10000x128 : FVec Ideal S10000x128 .bf16)
            (constant (F := Ideal) S400x128 .f32 0x00000000#32))
          (broadcastTo S400x128 (shapeCast S1x128 x2 shapeCasts_S1x128_S1x128) broadcasts_S1x128_S400x128))
        (broadcast S400x128 (Scalar.ofBits (F := Ideal) .f32 0x00000000#32))) bitsLt_bf16_f32)
      (truncf .bf16 x3 bitsLt_bf16_f32) (constant (F := Ideal) S400x256 .f32 0x00000000#32) (ix2 p q) = _
  rw [dot1a_plain, dot1b_plain]
  refine (Cert.PlainDot.matmul_zero_plain_apply none _ _ p q).trans ?_
  refine Finset.sum_congr rfl fun j _ => ?_
  exact congrArg (· * x3 (ix2 j q)) (hidden_entry x0 x1 x2 p j)

end Cert.KernelIdeal.Val

end
-- ==== Proof.Region1.lean ====
/-
  The second launch, (first layer) · W2: what it leaves in its result array, entry by entry, whatever the arrays hold
  when it starts.

  The grid has 25 points; point t reads rows 400 t … 400 t + 399 of the adjacency matrix and the whole of the node
  features, the bias row and the second layer's weights, and writes rows 400 t … 400 t + 399 of the result. An entry of
  a product reads one row of its left factor, so what point t writes is block t of ONE function of the whole arrays; the
  25 blocks tile the 10000 rows (row r lies in block r / 400), so the result array ends holding that function.
-/
import proofs.«152444_g91036126806362_cont_sun_c4_717_5_alg».proof.Proof.Gen.KernelIdeal.Frame
import proofs.«152444_g91036126806362_cont_sun_c4_717_5_alg».proof.Proof.Spec
import proofs.«152444_g91036126806362_cont_sun_c4_717_5_alg».proof.Proof.Consts
import proofs.«152444_g91036126806362_cont_sun_c4_717_5_alg».proof.Proof.LibPlainDot
import proofs.«152444_g91036126806362_cont_sun_c4_717_5_alg».proof.Proof.LibDenseBias
import proofs.«152444_g91036126806362_cont_sun_c4_717_5_alg».proof.Proof.Region1Pay
import Idealize.ShloMosaic.Lib.ValueIdx
import Idealize.ShloMosaic.Lib.Pipeline.Value

noncomputable section

namespace Cert.KernelIdeal.Val

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The printed index maps over the 25 grid points: the adjacency window and the result window move down one block of
    400 rows per point, the three shared operands stay at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The grid has 25 points. -/
theorem N1 : cfg1.N = 25 := by decide

/-- Row p of the adjacency block at point t is row 400 t + p of the adjacency matrix. -/
theorem iblk1_0_apply (c : Dev nD) (t : Fin cfg1.N) (p : Fin 400) (n : Fin 10000) (i : Fin 10000)
    (hi : i.val = t.val * 400 + p.val) :
    iblk1 V c 0 t (ix2 p n) = V c main_arg1 (ix2 i n) := by
  obtain ⟨e0, e1, -⟩ := idx_facts1 t
  unfold iblk1
  rw [View.read_apply]
  show V c main_arg1 (((cfg1.win 0).blk t).view.emb (ix2 p n)) = V c main_arg1 (ix2 i n)
  refine congrArg _ (funext fun a => Fin.ext ?_)
  match a with
  | ⟨0, _⟩ => show win1_0.index t (0 : Fin 2) * 400 + 1 * p.val = i.val; omega
  | ⟨1, _⟩ => show win1_0.index t (1 : Fin 2) * 10000 + 1 * n.val = n.val; omega

/-- The node-feature block is the whole array at every point. -/
theorem iblk1_1_apply (c : Dev nD) (t : Fin cfg1.N) (n : Fin 10000) (j : Fin 128) :
    iblk1 V c 1 t (ix2 n j) = V c main_v0 (ix2 n j) := by
  obtain ⟨-, -, e0, e1, -⟩ := idx_facts1 t
  unfold iblk1
  rw [View.read_apply]
  show V c main_v0 (((cfg1.win 1).blk t).view.emb (ix2 n j)) = V c main_v0 (ix2 n j)
  refine congrArg _ (funext fun a => Fin.ext ?_)
  match a with
  | ⟨0, _⟩ => show win1_1.index t (0 : Fin 2) * 10000 + 1 * n.val = n.val; omega
  | ⟨1, _⟩ => show win1_1.index t (1 : Fin 2) * 128 + 1 * j.val = j.val; omega

/-- The bias block is the whole one-row array at every point. -/
theorem iblk1_2_apply (c : Dev nD) (t : Fin cfg1.N) (j : Fin 128) :
    iblk1 V c 2 t (ix2 (0 : Fin 1) j) = V c main_v1 (ix2 (0 : Fin 1) j) := by
  obtain ⟨-, -, -, -, e0, e1, -⟩ := idx_facts1 t
  unfold iblk1
  rw [View.read_apply]
  show V c main_v1 (((cfg1.win 2).blk t).view.emb (ix2 (0 : Fin 1) j)) = V c main_v1 (ix2 (0 : Fin 1) j)
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * j.val = j.val; omega

/-- The block of the second layer's weights is the whole array at every point. -/
theorem iblk1_3_apply (c : Dev nD) (t : Fin cfg1.N) (j : Fin 128) (q : Fin 256) :
    iblk1 V c 3 t (ix2 j q) = V c main_arg5 (ix2 j q) := by
  obtain ⟨-, -, -, -, -, -, e0, e1, -⟩ := idx_facts1 t
  unfold iblk1
  rw [View.read_apply]
  show V c main_arg5 (((cfg1.win 3).blk t).view.emb (ix2 j q)) = V c main_arg5 (ix2 j q)
  refine congrArg _ (funext fun a => Fin.ext ?_)
  match a with
  | ⟨0, _⟩ => show win1_3.index t (0 : Fin 2) * 128 + 1 * j.val = j.val; omega
  | ⟨1, _⟩ => show win1_3.index t (1 : Fin 2) * 256 + 1 * q.val = q.val; omega

/-- The zero offsets of a whole-block access, however they are spelt. -/
theorem r1_zeros : (![0, 0] : Fin 2 → Nat) = fun _ => 0 := funext fun a => by fin_cases a <;> rfl

/-- The array the second launch leaves, as one function of the four arrays it reads: (first layer) · W2. -/
def G1 (c : Dev nD) : S10000x256.Idx → EReal := fun j =>
  Cert.Gcn.mm (Cert.Gcn.layer (fun i n => V c main_arg1 (ix2 i n)) (fun n j => V c main_v0 (ix2 n j))
      (fun j => V c main_v1 (ix2 (0 : Fin 1) j))) (fun j q => V c main_arg5 (ix2 j q))
    (⟨(j 0).val, idx2_lt0 j⟩ : Fin 10000) (⟨(j 1).val, idx2_lt1 j⟩ : Fin 256)

/-- What point t writes back is block t (rows 400 t … 400 t + 399) of that one function. -/
theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 V c).after 4 t) = _
  rw [after1_4]
  unfold out1_4
  rw [View.canon_unit_zero r1_zeros]
  simp only [View.ld_unit_zero (S := S400x10000) r1_zeros, View.ld_unit_zero (S := S10000x128) r1_zeros,
    View.ld_unit_zero (S := S1x128) r1_zeros, View.ld_unit_zero (S := S128x256) r1_zeros]
  funext y
  obtain ⟨p, q, rfl⟩ : ∃ (p : Fin 400) (q : Fin 256), y = ix2 p q := ⟨y 0, y 1, eq_ix2 y⟩
  show k1_pay1 (iblk1 V c 0 t) (iblk1 V c 1 t) (iblk1 V c 2 t) (iblk1 V c 3 t) (ix2 p q)
    = G1 V c (((cfg1.win 4).blk t).view.emb (ix2 p q))
  refine (pay1_entry (iblk1 V c 0 t) (iblk1 V c 1 t) (iblk1 V c 2 t) (iblk1 V c 3 t) p q).trans ?_
  obtain ⟨-, -, -, -, -, -, -, -, e0, e1⟩ := idx_facts1 t
  have ht : t.val < 25 := lt_of_lt_of_eq t.isLt N1
  have hlt : t.val * 400 + p.val < 10000 := by have := p.isLt; omega
  have hrow : (⟨((((cfg1.win 4).blk t).view.emb (ix2 p q)) 0).val, idx2_lt0 _⟩ : Fin 10000)
      = ⟨t.val * 400 + p.val, hlt⟩ := Fin.ext (by
    show win1_4.index t (0 : Fin 2) * 400 + 1 * p.val = t.val * 400 + p.val; omega)
  have hcol : (⟨((((cfg1.win 4).blk t).view.emb (ix2 p q)) 1).val, idx2_lt1 _⟩ : Fin 256) = q := Fin.ext (by
    show win1_4.index t (1 : Fin 2) * 256 + 1 * q.val = q.val; omega)
  unfold G1
  rw [hrow, hcol]
  simp only [Cert.Gcn.mm, Cert.Gcn.layer]
  refine Finset.sum_congr rfl fun j _ => ?_
  rw [iblk1_2_apply V c t j, iblk1_3_apply V c t j q]
  refine congrArg (fun z => max (z + V c main_v1 (ix2 (0 : Fin 1) j)) 0 * V c main_arg5 (ix2 j q)) ?_
  refine Finset.sum_congr rfl fun n _ => ?_
  rw [iblk1_0_apply V c t p n ⟨t.val * 400 + p.val, hlt⟩ rfl, iblk1_1_apply V c t n j]

/-- An index of the result array lies in point t's block iff each coordinate is in the block's range. -/
theorem mem_blk1 (t : Fin cfg1.N) (i : S10000x256.Idx) :
    i ∈ ((cfg1.win 4).blk t).view.set ↔ ∀ a : Fin 2, win1_4.index t a * S400x256.size a ≤ (i a).val
      ∧ (i a).val < win1_4.index t a * S400x256.size a + S400x256.size a := by
  show i ∈ ((View.whole main_v2).slice (win1_4.rect t)).set ↔ _
  rw [View.set_slice_whole, Rect.mem_set_unit]
  exact Iff.rfl

/-- The 25 blocks cover the result array: row r lies in the block of point r / 400. -/
theorem cover1 (i : S10000x256.Idx) :
    ∃ t : Fin cfg1.N, (cfg1.win 4).flush t = true ∧ i ∈ ((cfg1.win 4).blk t).view.set := by
  have h0 : (i 0).val < 10000 := idx2_lt0 i
  have h1 : (i 1).val < 256 := idx2_lt1 i
  have hN : (i 0).val / 400 < cfg1.N := by rw [N1]; omega
  refine ⟨⟨(i 0).val / 400, hN⟩, flush1_4 _, ?_⟩
  rw [mem_blk1]
  obtain ⟨-, -, -, -, -, -, -, -, e0, e1⟩ := idx_facts1 ⟨(i 0).val / 400, hN⟩
  have e0' : win1_4.index ⟨(i 0).val / 400, hN⟩ (0 : Fin 2) = (i 0).val / 400 := e0
  intro a
  match a with
  | ⟨0, _⟩ =>
    show win1_4.index ⟨(i 0).val / 400, _⟩ (0 : Fin 2) * 400 ≤ (i 0).val
      ∧ (i 0).val < win1_4.index ⟨(i 0).val / 400, _⟩ (0 : Fin 2) * 400 + 400
    omega
  | ⟨1, _⟩ =>
    show win1_4.index ⟨(i 0).val / 400, _⟩ (1 : Fin 2) * 256 ≤ (i 1).val
      ∧ (i 1).val < win1_4.index ⟨(i 0).val / 400, _⟩ (1 : Fin 2) * 256 + 256
    omega

/-- THE SECOND LAUNCH'S RESULT: entry (i, q) of the array it leaves is the (i, q) entry of (first layer) · W2. -/
theorem region1_value (c : Dev nD) (i : Fin 10000) (q : Fin 256) :
    (dat1 (F := Ideal) V c).arrAt 4 cfg1.N (ix2 i q)
      = Cert.Gcn.mm (Cert.Gcn.layer (fun i n => V c main_arg1 (ix2 i n)) (fun n j => V c main_v0 (ix2 n j))
          (fun j => V c main_v1 (ix2 (0 : Fin 1) j))) (fun j q => V c main_arg5 (ix2 j q)) i q :=
  congrFun ((dat1 (F := Ideal) V c).arrAt_eq_of_cover 4 (G1 V c) (fun t _ => flushed1_eq V c t) (cover1)) (ix2 i q)

end Cert.KernelIdeal.Val

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.Region2Pay.lean ====
/-
  One block of the second graph-convolution layer, summed down its rows, read entry by entry on the extended reals.

  The body takes a block of 400 rows of the adjacency matrix, the whole 10000 × 256 matrix S2 and the bias row, forms
  relu (adj_blk · S2 + b2) and sums each of the 256 columns over the block's 400 rows; the 256 sums are then laid out as a
  [1, 1, 256] block.  Narrowing the adjacency block to bf16 changes nothing on the extended reals, a product into the
  zero matrix is the plain sum of products, and the shape casts only rename indices.  So the entry (·, ·, q) of the
  payload is  ∑ r, max (∑ n, adj (r, n) · S2 (n, q) + b2 (0, q)) 0.
-/
import proofs.«152444_g91036126806362_cont_sun_c4_717_5_alg».proof.Proof.Gen.KernelIdeal.Skeleton
import proofs.«152444_g91036126806362_cont_sun_c4_717_5_alg».proof.Proof.LibPlainDot
import proofs.«152444_g91036126806362_cont_sun_c4_717_5_alg».proof.Proof.LibDenseBias
import proofs.«152444_g91036126806362_cont_sun_c4_717_5_alg».proof.Proof.LibVecIx2
import proofs.«152444_g91036126806362_cont_sun_c4_717_5_alg».proof.Proof.LibLayout
import proofs.«152444_g91036126806362_cont_sun_c4_717_5_alg».proof.Proof.Consts
import Idealize.ShloMosaic.Lib.ValueIdx
import Idealize.ShloMosaic.Lib.ValueLayout
import Idealize.ShloMosaic.Lib.Pipeline.Value

noncomputable section

open scoped BigOperators

namespace Cert.KernelIdeal.Val.Region2

open Idealize.ShloMosaic Idealize.ShloMosaic.ValueIdx
open Cert.KernelIdeal Cert.KernelIdeal.Gen

/-- The printed dimension numbers of the block product are the plain ones: contract the left operand's columns against
    the right operand's rows. -/
theorem dot2_plain : dot_S400x10000_S10000x256_S400x256_1_0_0_1_n_n = DotDims.plain 400 10000 256 := rfl

set_option maxHeartbeats 200000 in
/-- The block's activations: entry (r, q) of relu (adj_blk · S2 + b2). -/
theorem act2_entry (x0 : FVec Ideal S400x10000 .f32) (x1 : FVec Ideal S10000x256 .bf16) (x2 : FVec Ideal S1x256 .f32)
    (r : Fin 400) (q : Fin 256) :
    maximumf
        (addf
          (matmul dot_S400x10000_S10000x256_S400x256_1_0_0_1_n_n none (truncf .bf16 x0 bitsLt_bf16_f32)
            (shapeCast S10000x256 x1 shapeCasts_S10000x256_S10000x256) (constant (F := Ideal) S400x256 .f32 0x00000000#32))
          (broadcastTo S400x256 (shapeCast S1x256 x2 shapeCasts_S1x256_S1x256) broadcasts_S1x256_S400x256))
        (broadcast S400x256 (Scalar.ofBits (F := Ideal) .f32 0x00000000#32)) (ix2 r q)
      = max ((∑ n : Fin 10000, x0 (ix2 r n) * x1 (ix2 n q)) + x2 (ix2 (0 : Fin 1) q)) 0 := by
  rw [maximumf_apply, addf_apply, broadcast_apply, shapeCast_self, shapeCast_self]
  rw [Cert.Lib.DenseBias.row_down_entry x2 broadcasts_S1x256_S400x256 r q]
  have hm : matmul dot_S400x10000_S10000x256_S400x256_1_0_0_1_n_n none (truncf .bf16 x0 bitsLt_bf16_f32) x1
        (constant (F := Ideal) S400x256 .f32 0x00000000#32) (ix2 r q)
      = ∑ n : Fin 10000, x0 (ix2 r n) * x1 (ix2 n q) :=
    Cert.PlainDot.matmul_zero_plain_apply (M := 400) (K := 10000) (N := 256) none
      (truncf .bf16 x0 bitsLt_bf16_f32) x1 r q
  exact congrArg₂ (fun s z => max (s + x2 (ix2 (0 : Fin 1) q)) z) hm Cert.Words.zero

set_option maxHeartbeats 200000 in
/-- The payload at (·, ·, q): the column sums over the block's 400 rows. -/
theorem pay2_entry (x0 : Vec Ideal S400x10000 .f32) (x1 : Vec Ideal S10000x256 .bf16) (x2 : Vec Ideal S1x256 .f32)
    (u v : Fin 1) (q : Fin 256) :
    k2_pay1 (F := Ideal) x0 x1 x2 (ix3 u v q)
      = ∑ r : Fin 400, max ((∑ n : Fin 10000, x0 (ix2 r n) * x1 (ix2 n q)) + x2 (ix2 (0 : Fin 1) q)) 0 := by
  unfold k2_pay1
  refine (Cert.LibLayout.shapeCast_ac_a1c_apply _ shapeCasts_S1x256_S1x1x256 u v q).trans ?_
  refine (shapeCast_a_1a_apply _ shapeCasts_S256_S1x256 u q).trans ?_
  refine (Cert.Lib.VecIx2.reduce_rows' _ reduces_S400x256_S256 (.inl rfl) rfl q).trans ?_
  exact Finset.sum_congr rfl fun r _ => act2_entry x0 x1 x2 r q

end Cert.KernelIdeal.Val.Region2

end
-- ==== Proof.Region2.lean ====
/-
  The third launch, read as one function of the arrays it finds: its output array [25, 1, 256] holds, at (b, 0, q), the
  sum over the 400 rows of row block b of column q of the second layer's activations relu (adj · S2 + b2).

  The launch runs 25 points.  Point t reads rows 400·t … 400·t + 399 of the adjacency matrix, the whole of S2 and the
  bias row, and writes the 256 column sums of its block of activations to block (t, 0, 0) of the output.  Each block of
  the output is written by exactly one point and the 25 blocks fill the array, so the array after the run is that one
  function everywhere.  A block's coordinate in its array is always  block index × block size + coordinate inside the block.
-/
import proofs.«152444_g91036126806362_cont_sun_c4_717_5_alg».proof.Proof.Gen.KernelIdeal.Frame
import proofs.«152444_g91036126806362_cont_sun_c4_717_5_alg».proof.Proof.Spec
import proofs.«152444_g91036126806362_cont_sun_c4_717_5_alg».proof.Proof.Region2Pay
import Idealize.ShloMosaic.Lib.ValueIdx
import Idealize.ShloMosaic.Lib.Pipeline.Value

noncomputable section

open scoped BigOperators

namespace Cert.KernelIdeal.Val.Region2

open Idealize.ShloMosaic Idealize.ShloMosaic.ValueIdx Idealize.ShloMosaic.TcCoe Idealize.SL.Sem
open Cert.KernelIdeal Cert.KernelIdeal.Gen

/-- Column q of one layer summed over the 400 rows of row block bb. -/
def blockSum (A : Fin 10000 → Fin 10000 → EReal) (S : Fin 10000 → Fin 256 → EReal) (bias : Fin 256 → EReal)
    (bb : Fin 25) (q : Fin 256) : EReal :=
  ∑ r : Fin 400, Cert.Gcn.layer A S bias
    (⟨bb.val * 400 + r.val, by have := bb.isLt; have := r.isLt; omega⟩ : Fin 10000) q

theorem zeros2 : (![0, 0] : Fin 2 → Nat) = fun _ => 0 := funext fun a => by fin_cases a <;> rfl
theorem zeros3 : (![0, 0, 0] : Fin 3 → Nat) = fun _ => 0 := funext fun a => by fin_cases a <;> rfl

set_option maxHeartbeats 200000 in
/-- The payload of a block whose inputs are rows 400·b … 400·b + 399 of A, the whole of S and the bias row, read at a
    block index y, is the block sum at any array index i whose first coordinate is b and whose last is y's. -/
theorem pay2_blockSum (x0 : Vec Ideal S400x10000 .f32) (x1 : Vec Ideal S10000x256 .bf16) (x2 : Vec Ideal S1x256 .f32)
    (A : Fin 10000 → Fin 10000 → EReal) (S : Fin 10000 → Fin 256 → EReal) (bias : Fin 256 → EReal)
    (y : S1x1x256.Idx) (bb : Fin 25) (q : Fin 256)
    (h0 : ∀ (r : Fin 400) (n : Fin 10000), x0 (ix2 r n)
      = A (⟨bb.val * 400 + r.val, by have := bb.isLt; have := r.isLt; omega⟩ : Fin 10000) n)
    (h1 : ∀ (n : Fin 10000) (q : Fin 256), x1 (ix2 n q) = S n q)
    (h2 : ∀ q : Fin 256, x2 (ix2 (0 : Fin 1) q) = bias q)
    (hq : (y 2).val = q.val) :
    k2_pay1 (F := Ideal) x0 x1 x2 y = blockSum A S bias bb q := by
  obtain ⟨u, v, q', rfl⟩ : ∃ (u v : Fin 1) (q' : Fin 256), y = ix3 u v q' := ⟨y 0, y 1, y 2, eq_ix3 y⟩
  obtain rfl : q' = q := Fin.ext hq
  rw [pay2_entry]
  unfold blockSum Cert.Gcn.layer Cert.Gcn.mm
  refine Finset.sum_congr rfl fun r _ => ?_
  rw [h2 q']
  refine congrArg (fun s => max (s + bias q') 0) (Finset.sum_congr rfl fun n _ => ?_)
  rw [h0 r n, h1 n q']

variable (V : (c : Dev nD) → (b : Ref sig .tc) → Buf (Elt Ideal) ((c : Thread nD τ).loc b))

/-- What the output array ends holding: at (b, ·, q) the block sum of the layer on the arrays the region finds. -/
def G2 (c : Dev nD) : S25x1x256.Idx → EReal := fun i =>
  blockSum (fun i n => V c main_arg1 (ix2 i n)) (fun n q => V c main_v2 (ix2 n q))
    (fun q => V c main_v3 (ix2 (0 : Fin 1) q)) (i 0) (i 2)

/-- The printed index maps over the 25 points: the adjacency window and the output move with the point, the other two
    windows stay at block 0. -/
theorem idx2_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0 :=
  (by decide +kernel : ∀ t : Fin grid2.N, _)

/-! ## The windows' blocks at a point, read at explicit coordinates -/

set_option maxHeartbeats 400000 in
/-- The adjacency window's block at point t is rows 400·t … 400·t + 399 of the adjacency matrix. -/
theorem iblk2_adj (c : Dev nD) (t : Fin cfg2.N) (r : Fin 400) (n : Fin 10000) (k : Fin 10000)
    (hk : k.val = t.val * 400 + r.val) :
    (iblk2 (F := Ideal) V c 0 t : Vec Ideal S400x10000 .f32) (ix2 r n) = V c main_arg1 (ix2 k n) := by
  obtain ⟨e0, e1, -⟩ := idx2_facts t
  show V c main_arg1 (((cfg2.win 0).blk t).view.emb (ix2 r n)) = V c main_arg1 (ix2 k n)
  refine congrArg (V c main_arg1) (funext fun a => Fin.ext ?_)
  match a with
  | ⟨0, _⟩ => show win2_0.index t (0 : Fin 2) * 400 + 1 * r.val = k.val; rw [e0, hk]; omega
  | ⟨1, _⟩ => show win2_0.index t (1 : Fin 2) * 10000 + 1 * n.val = n.val; rw [e1]; omega

set_option maxHeartbeats 400000 in
/-- The second window's block at every point is the whole matrix S2. -/
theorem iblk2_s2 (c : Dev nD) (t : Fin cfg2.N) (n : Fin 10000) (q : Fin 256) :
    (iblk2 (F := Ideal) V c 1 t : Vec Ideal S10000x256 .bf16) (ix2 n q) = V c main_v2 (ix2 n q) := by
  obtain ⟨-, -, e0, e1, -⟩ := idx2_facts t
  show V c main_v2 (((cfg2.win 1).blk t).view.emb (ix2 n q)) = V c main_v2 (ix2 n q)
  refine congrArg (V c main_v2) (funext fun a => Fin.ext ?_)
  match a with
  | ⟨0, _⟩ => show win2_1.index t (0 : Fin 2) * 10000 + 1 * n.val = n.val; rw [e0]; omega
  | ⟨1, _⟩ => show win2_1.index t (1 : Fin 2) * 256 + 1 * q.val = q.val; rw [e1]; omega

set_option maxHeartbeats 400000 in
/-- The third window's block at every point is the bias row. -/
theorem iblk2_b2 (c : Dev nD) (t : Fin cfg2.N) (u : Fin 1) (q : Fin 256) :
    (iblk2 (F := Ideal) V c 2 t : Vec Ideal S1x256 .f32) (ix2 u q) = V c main_v3 (ix2 (0 : Fin 1) q) := by
  obtain ⟨-, -, -, -, e0, e1, -⟩ := idx2_facts t
  show V c main_v3 (((cfg2.win 2).blk t).view.emb (ix2 u q)) = V c main_v3 (ix2 (0 : Fin 1) q)
  refine congrArg (V c main_v3) (funext fun a => Fin.ext ?_)
  match a with
  | ⟨0, _⟩ => show win2_2.index t (0 : Fin 2) * 1 + 1 * u.val = 0; rw [e0]; omega
  | ⟨1, _⟩ => show win2_2.index t (1 : Fin 2) * 256 + 1 * q.val = q.val; rw [e1]; omega

/-! ## What a point writes back, and the array after the run -/

set_option maxHeartbeats 400000 in
/-- What point t writes back is block t of G2. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2_3
  rw [View.canon_unit_zero zeros3]
  simp only [View.ld_unit_zero (S := S400x10000) zeros2, View.ld_unit_zero (S := S10000x256) zeros2, View.ld_unit_zero (S := S1x256) zeros2]
  obtain ⟨-, -, -, -, -, -, e0, e1, e2⟩ := idx2_facts t
  have hN : t.val < 25 := t.isLt
  funext j
  have hj0 : (j 0).val < 1 := (j 0).isLt
  have hj2 : (j 2).val < 256 := (j 2).isLt
  show k2_pay1 (F := Ideal) (iblk2 V c 0 t) (iblk2 V c 1 t) (iblk2 V c 2 t) ((win2 3).xinj (grid2.coords t) j)
      = blockSum (fun i n => V c main_arg1 (ix2 i n)) (fun n q => V c main_v2 (ix2 n q))
          (fun q => V c main_v3 (ix2 (0 : Fin 1) q))
          ((((cfg2.win 3).blk t).view.emb j) 0) ((((cfg2.win 3).blk t).view.emb j) 2)
  have hb : (((cfg2.win 3).blk t).view.emb j) 0 = (⟨t.val, hN⟩ : Fin 25) := Fin.ext (by
    show win2_3.index t (0 : Fin 3) * 1 + 1 * (j 0).val = t.val; rw [e0]; omega)
  have hq : (((cfg2.win 3).blk t).view.emb j) 2 = (⟨(j 2).val, hj2⟩ : Fin 256) := Fin.ext (by
    show win2_3.index t (2 : Fin 3) * 256 + 1 * (j 2).val = (j 2).val; rw [e2]; omega)
  rw [hb, hq]
  exact pay2_blockSum (iblk2 V c 0 t) (iblk2 V c 1 t) (iblk2 V c 2 t)
    (fun i n => V c main_arg1 (ix2 i n)) (fun n q => V c main_v2 (ix2 n q)) (fun q => V c main_v3 (ix2 (0 : Fin 1) q))
    ((win2 3).xinj (grid2.coords t) j) ⟨t.val, hN⟩ ⟨(j 2).val, hj2⟩
    (fun r n => iblk2_adj V c t r n _ rfl) (fun n q => iblk2_s2 V c t n q) (fun q => iblk2_b2 V c t 0 q) rfl

/-- An index of the output array is in point t's block iff each coordinate is in the block's range on its axis. -/
theorem mem_blk2 (t : Fin cfg2.N) (i : S25x1x256.Idx) :
    i ∈ ((cfg2.win 3).blk t).view.set ↔ ∀ a : Fin 3, win2_3.index t a * S1x1x256.size a ≤ (i a).val
      ∧ (i a).val < win2_3.index t a * S1x1x256.size a + S1x1x256.size a := by
  show i ∈ ((View.whole main_v4).slice (win2_3.rect t)).set ↔ _
  rw [View.set_slice_whole, Rect.mem_set_unit]
  exact Iff.rfl

set_option maxHeartbeats 400000 in
/-- Every index of the output array is in some point's block: (b, 0, q) is in point b's. -/
theorem cover2 (i : S25x1x256.Idx) :
    ∃ t : Fin cfg2.N, (cfg2.win 3).flush t = true ∧ i ∈ ((cfg2.win 3).blk t).view.set := by
  have hi0 : (i 0).val < 25 := (i 0).isLt
  have hi1 : (i 1).val < 1 := (i 1).isLt
  have hi2 : (i 2).val < 256 := (i 2).isLt
  obtain ⟨-, -, -, -, -, -, e0, e1, e2⟩ := idx2_facts ⟨(i 0).val, hi0⟩
  have e0' : win2_3.index ⟨(i 0).val, hi0⟩ (0 : Fin 3) = (i 0).val := e0
  refine ⟨⟨(i 0).val, hi0⟩, flush2_3 _, ?_⟩
  rw [mem_blk2]
  intro a
  match a with
  | ⟨0, _⟩ =>
    show win2_3.index ⟨(i 0).val, hi0⟩ (0 : Fin 3) * 1 ≤ (i 0).val
      ∧ (i 0).val < win2_3.index ⟨(i 0).val, hi0⟩ (0 : Fin 3) * 1 + 1
    rw [e0']; omega
  | ⟨1, _⟩ =>
    show win2_3.index ⟨(i 0).val, hi0⟩ (1 : Fin 3) * 1 ≤ (i 1).val
      ∧ (i 1).val < win2_3.index ⟨(i 0).val, hi0⟩ (1 : Fin 3) * 1 + 1
    rw [e1]; omega
  | ⟨2, _⟩ =>
    show win2_3.index ⟨(i 0).val, hi0⟩ (2 : Fin 3) * 256 ≤ (i 2).val
      ∧ (i 2).val < win2_3.index ⟨(i 0).val, hi0⟩ (2 : Fin 3) * 256 + 256
    rw [e2]; omega

/-- The output array after the region's run is G2. -/
theorem final2 (c : Dev nD) : (dat2 (F := Ideal) V c).arrAt 3 cfg2.N = G2 V c :=
  (dat2 (F := Ideal) V c).arrAt_eq_of_cover 3 (G2 V c) (fun t _ => flushed2_eq V c t) cover2

end Cert.KernelIdeal.Val.Region2

namespace Cert.KernelIdeal.Val

open Idealize.ShloMosaic Idealize.ShloMosaic.ValueIdx Idealize.ShloMosaic.TcCoe Idealize.SL.Sem
open Cert.KernelIdeal Cert.KernelIdeal.Gen

variable (V : (c : Dev nD) → (b : Ref sig .tc) → Buf (Elt Ideal) ((c : Thread nD τ).loc b))

/-- The third launch's output: entry (b, 0, q) is the sum over the 400 rows of block b of column q of the second
    layer's activations. -/
theorem region2_value (c : Dev nD) (b : Fin 25) (q : Fin 256) :
    (dat2 (F := Ideal) V c).arrAt 3 cfg2.N (ix3 b (0 : Fin 1) q)
      = ∑ r : Fin 400, Cert.Gcn.layer (fun i n => V c main_arg1 (ix2 i n)) (fun n q => V c main_v2 (ix2 n q))
          (fun q => V c main_v3 (ix2 (0 : Fin 1) q)) (⟨b.val * 400 + r.val, by have := b.isLt; have := r.isLt; omega⟩ : Fin 10000) q :=
  congrFun (Region2.final2 V c) (ix3 b (0 : Fin 1) q)

end Cert.KernelIdeal.Val

end
-- ==== Proof.Region3Head.lean ====
/-
  The tail of the network on the extended reals, one stage at a time: the 25 partial column sums added up and scaled
  to the pooled mean, the selu activation, the side features appended, the last linear layer, and the log-softmax.
  Each stage is a function of whole vectors; this module names the stages, shows that the body's value is their
  composition, and reads the first three at an entry of their one row.
-/
import proofs.«152444_g91036126806362_cont_sun_c4_717_5_alg».proof.Proof.Gen.KernelIdeal.Skeleton
import proofs.«152444_g91036126806362_cont_sun_c4_717_5_alg».proof.Proof.Spec
import proofs.«152444_g91036126806362_cont_sun_c4_717_5_alg».proof.Proof.Consts
import proofs.«152444_g91036126806362_cont_sun_c4_717_5_alg».proof.Proof.LibVecIx2
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.ValueIdx
open Cert.KernelIdeal Cert.KernelIdeal.Gen

/-- The factor the summed rows are scaled by: the named constant inv_10000, which stands for 1/10000. -/
abbrev inv10000 : EReal := Named.named (F := Ideal) κ "inv_10000" (φ := .f32) 0x38D1B717#32

/-- The pooled row: the 25 rows of partial sums added up column by column, as one row, times the named factor. -/
def pooledRow (v0 : Vec Ideal S25x256 .f32) : FVec Ideal S1x256 .f32 :=
  mulf (shapeCast S1x256 (multiReduction .add [0] S256 (shapeCast S25x256 v0 shapeCasts_S25x256_S25x256) 0x00000000#32
      reduces_S25x256_S256 (.inl rfl) rfl) shapeCasts_S256_S1x256)
    (broadcast S1x256 (Named.named κ "inv_10000" 0x38D1B717#32))

/-- selu applied to every entry of a row: scale · (x where x > 0, α · (eˣ − 1) elsewhere). -/
def seluRow (v5 : FVec Ideal S1x256 .f32) : FVec Ideal S1x256 .f32 :=
  mulf (broadcast S1x256 (Scalar.ofBits .f32 0x3F867D5F#32))
    (select (cmpf .ogt v5 (broadcast S1x256 (Scalar.ofBits .f32 0x00000000#32))) v5
      (mulf (broadcast S1x256 (Scalar.ofBits .f32 0x3FD62D7D#32))
        (subf (exp v5) (broadcast S1x256 (Scalar.ofBits .f32 0x3F800000#32)))))

/-- The activated row followed by the side features. -/
def joinedRow (v15 : FVec Ideal S1x256 .f32) (v16 : Vec Ideal S1x64 .f32) : FVec Ideal S1x320 .f32 :=
  concatenate S1x320 1 [⟨S1x256, v15⟩, ⟨S1x64, v16⟩] concatenates_S1x256_S1x64_S1x320_d1

/-- The last linear layer on a row of 320 features: the row times the transposed weights, plus the bias row. -/
def logitsRow (v17 : FVec Ideal S1x320 .f32) (v18 : Vec Ideal S40x320 .f32) (v20 : Vec Ideal S1x40 .f32) :
    FVec Ideal S1x40 .f32 :=
  addf (matmul (φ₁ := .f32) (φ₂ := .f32) dot_S1x320_S40x320_S1x40_1_1_0_0_n_n none v17 v18 (constant S1x40 .f32 0x00000000#32))
    (shapeCast S1x40 v20 shapeCasts_S1x40_S1x40)

/-- A row of 40 less its greatest entry (taken from −∞), entry by entry. -/
def shiftedRow (v22 : FVec Ideal S1x40 .f32) : FVec Ideal S1x40 .f32 :=
  subf v22 (broadcastTo S1x40 (shapeCast S1x1 (multiReduction .maximumf [1] S1 v22 0xFF800000#32 reduces_S1x40_S1
    (.inl rfl) rfl) shapeCasts_S1_S1x1) broadcasts_S1x1_S1x40)

/-- The log-softmax of a row of 40: shifted by the row's maximum, less the logarithm of the sum of exponentials. -/
def logSoftmaxRow (v22 : FVec Ideal S1x40 .f32) : FVec Ideal S1x40 .f32 :=
  subf (shiftedRow v22)
    (broadcastTo S1x40 (log (shapeCast S1x1 (multiReduction .add [1] S1 (exp (shiftedRow v22))
      0x00000000#32 reduces_S1x40_S1 (.inl rfl) rfl) shapeCasts_S1_S1x1)) broadcasts_S1x1_S1x40)

/-- The value the body stores as log-probabilities is the composition of the five stages. -/
theorem pay2_stages (v0 : Vec Ideal S25x256 .f32) (v16 : Vec Ideal S1x64 .f32) (v18 : Vec Ideal S40x320 .f32)
    (v20 : Vec Ideal S1x40 .f32) :
    k3_pay2 v0 v16 v18 v20 = logSoftmaxRow (logitsRow (joinedRow (seluRow (pooledRow v0)) v16) v18 v20) := rfl

/-- Entry q of the pooled row: the column sum of the 25 partial sums, times the named factor. -/
theorem pooledRow_apply (v0 : Vec Ideal S25x256 .f32) (q : Fin 256) :
    pooledRow v0 (ix2 (0 : Fin 1) q) = Cert.Gcn.colSum (fun b q => v0 (ix2 b q)) q * inv10000 := by
  unfold pooledRow
  rw [mulf_apply, broadcast_apply, shapeCast_a_1a_apply, shapeCast_self]
  exact congrArg (· * inv10000) (Cert.Lib.VecIx2.reduce_rows' v0 _ _ _ q)

/-- Every entry of the activated row is selu of the entry. -/
theorem seluRow_apply (v5 : FVec Ideal S1x256 .f32) (i : S1x256.Idx) : seluRow v5 i = Cert.Gcn.selu (v5 i) := by
  unfold seluRow Cert.Gcn.selu Cert.Gcn.elu
  simp only [mulf_apply, broadcast_apply, select_apply, cmpf_apply, subf_apply]
  show Ideal.ofBits .f32 0x3F867D5F#32 * Scalar.select (Ideal.cmp .ogt (v5 i) (Ideal.ofBits .f32 0x00000000#32)) (v5 i)
      (Ideal.ofBits .f32 0x3FD62D7D#32 * (Ideal.exp (v5 i) - Ideal.ofBits .f32 0x3F800000#32)) = _
  rw [Cert.Words.zero, Cert.Words.one]

end Cert.KernelIdeal.Val

end
-- ==== Proof.LibRowsDot.lean ====
/-
  A product of a matrix with the transpose of another, A · Bᵀ ("bi,hi->bh": both operands contracted on their last
  axis), as a kernel's `tpu.matmul` into the zero accumulator, read at the extended reals at an index given by
  coordinates: entry (p, q) is the sum over k of A(p, k) · B(q, k). Stated for arbitrary extents and operand formats,
  over the library's dimension numbers `DotDims.transposedRhs M K N`.
-/
import Idealize.ShloMosaic.Lib.ValueIdx
import Idealize.ShloMosaic.PureOps.Ideal.Laws

namespace Cert.Lib.RowsDot

open Idealize.ShloMosaic Idealize.ShloMosaic.ValueIdx

variable {M K N : ℕ} {φ₁ φ₂ : FTy}

/-- The left operand's row is the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (p, q) of A · Bᵀ accumulated into zero is the sum over k of A(p, k) · B(q, k). -/
theorem matmul_zero_apply (A : FVec Ideal ⟨2, ![M, K]⟩ φ₁) (B : FVec Ideal ⟨2, ![N, K]⟩ φ₂) (p : Fin M) (q : Fin N) :
    matmul (DotDims.transposedRhs M K N) none A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact rhs_row _ _
    | ⟨1, _⟩ => exact ((DotDims.transposedRhs M K N).rhsIdx_val_of_single rfl _ _).trans hk)
  rw [el, er]

end Cert.Lib.RowsDot
-- ==== Proof.Region3Logits.lean ====
/-
  The middle of the tail: the activated row followed by the side features is the joined feature vector, and the last
  linear layer on it, a product with the transposed weights plus the bias row, gives the 40 logits.
-/
import proofs.«152444_g91036126806362_cont_sun_c4_717_5_alg».proof.Proof.Region3Head
import proofs.«152444_g91036126806362_cont_sun_c4_717_5_alg».proof.Proof.LibRowsDot
import Idealize.ShloMosaic.Lib.ValueIdx
import Idealize.ShloMosaic.Lib.Pipeline.Value

noncomputable section

namespace Cert.KernelIdeal.Val

open Idealize.ShloMosaic Idealize.ShloMosaic.ValueIdx
open Cert.KernelIdeal Cert.KernelIdeal.Gen

/-- Entry k of the joined row: the activated row below 256, the side features from 256 on. -/
theorem joinedRow_apply (v15 : FVec Ideal S1x256 .f32) (v16 : Vec Ideal S1x64 .f32) (k : Fin 320) :
    joinedRow v15 v16 (ix2 (0 : Fin 1) k)
      = Cert.Gcn.joined (fun c => v15 (ix2 (0 : Fin 1) c)) (fun s => v16 (ix2 (0 : Fin 1) s)) k := by
  unfold joinedRow Cert.Gcn.joined
  split
  · next h =>
    refine concatenate_apply_piece (t := S1x320) (1 : Fin 2) [⟨S1x256, v15⟩, ⟨S1x64, v16⟩] concatenates_S1x256_S1x64_S1x320_d1
      (ix2 (0 : Fin 1) k) 0 Nat.zero_lt_two S1x256 v15 rfl rfl 0 rfl (ix2 (0 : Fin 1) (⟨k.val, h⟩ : Fin 256)) (fun b hb => ?_) ?_
    · match b with
      | ⟨0, _⟩ => rfl
      | ⟨1, _⟩ => exact absurd rfl hb
    · exact Nat.zero_add _
  · next h =>
    have hk := k.isLt
    refine concatenate_apply_piece (t := S1x320) (1 : Fin 2) [⟨S1x256, v15⟩, ⟨S1x64, v16⟩] concatenates_S1x256_S1x64_S1x320_d1
      (ix2 (0 : Fin 1) k) 1 Nat.one_lt_two S1x64 v16 rfl rfl 256 rfl
      (ix2 (0 : Fin 1) (⟨k.val - 256, by omega⟩ : Fin 64)) (fun b hb => ?_) ?_
    · match b with
      | ⟨0, _⟩ => rfl
      | ⟨1, _⟩ => exact absurd rfl hb
    · show 256 + (k.val - 256) = k.val
      omega

/-- The product's dimension numbers are those of a product with the transposed right operand: both operands are
    contracted on their last axis. -/
theorem dot_eq : dot_S1x320_S40x320_S1x40_1_1_0_0_n_n = DotDims.transposedRhs 1 320 40 := rfl

/-- Entry n of the logits row: the row against row n of the weights, plus the bias at n. -/
theorem logitsRow_apply (v17 : FVec Ideal S1x320 .f32) (v18 : Vec Ideal S40x320 .f32) (v20 : Vec Ideal S1x40 .f32)
    (n : Fin 40) :
    logitsRow v17 v18 v20 (ix2 (0 : Fin 1) n)
      = Cert.Gcn.logits (fun k => v17 (ix2 (0 : Fin 1) k)) (fun a k => v18 (ix2 a k))
          (fun n => v20 (ix2 (0 : Fin 1) n)) n := by
  unfold logitsRow Cert.Gcn.logits
  rw [addf_apply, shapeCast_self, dot_eq]
  exact congrArg (· + v20 (ix2 (0 : Fin 1) n))
    (Cert.Lib.RowsDot.matmul_zero_apply (M := 1) (K := 320) (N := 40) (φ₁ := .f32) (φ₂ := .f32) v17 v18 (0 : Fin 1) n)

end Cert.KernelIdeal.Val

end
-- ==== Proof.LibRowMax.lean ====
/-
  A maximum along the rows of a matrix, read at an index.  A `vector.multi_reduction <maximumf>` over axis 1 of an
  [a, b] matrix of extended reals, from the accumulator word of −∞, has at p the fold of `max` from that word's value
  over the b columns of row p; stood up as an [a, 1] column (a keepdims maximum) it has that fold at (p, ·).
-/
import Idealize.ShloMosaic.Lib.Pipeline.Value
import Idealize.ShloMosaic.Lib.ValueIdx
import Idealize.ShloMosaic.Lib.ValueLayout
import Idealize.ShloMosaic.PureOps.Ideal.Laws
import proofs.«152444_g91036126806362_cont_sun_c4_717_5_alg».proof.Proof.LibLayout

noncomputable section

namespace Cert.Lib.RowMax

open Idealize.ShloMosaic Idealize.ShloMosaic.ValueIdx

/-- The maximum over axis 1 of an [a, b] matrix, from the accumulator word of −∞: entry p is the fold of `max` over
    row p, started at that word's value. -/
theorem reduce_cols_max {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine Finset.fold_congr fun k _ => congrArg src (funext fun c => Fin.ext ?_)
  rw [h.lift_val]
  match c with
  | ⟨0, _⟩ => rfl
  | ⟨1, _⟩ => rfl

/-- The keepdims row maximum: the column of the maxima over axis 1, at (p, ·), is the fold of `max` over row p. -/
theorem rowmax_column {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ src 0xFF800000#32 h hφ hacc) hc (ix2 p u)
      = (Finset.univ : Finset (Fin b)).fold max (Ideal.ofBits .f32 0xFF800000#32) (fun k => src (ix2 p k)) :=
  (Cert.LibLayout.shapeCast_a_a1_apply _ hc p u).trans (reduce_cols_max src h hφ hacc p)

end Cert.Lib.RowMax

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«152444_g91036126806362_cont_sun_c4_717_5_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.Region3Softmax.lean ====
/-
  The end of the tail: the log-softmax of the row of 40 logits. The row's greatest entry, taken from −∞ and kept as a
  one-entry column, is spread back over the row and subtracted; the exponentials of the shifted row are added up, again
  into a one-entry column; its logarithm is spread back and subtracted.
-/
import proofs.«152444_g91036126806362_cont_sun_c4_717_5_alg».proof.Proof.Region3Head
import proofs.«152444_g91036126806362_cont_sun_c4_717_5_alg».proof.Proof.LibRowMax
import proofs.«152444_g91036126806362_cont_sun_c4_717_5_alg».proof.Proof.LibRowSum
import Idealize.ShloMosaic.Lib.ValueIdx

noncomputable section

namespace Cert.KernelIdeal.Val

open Idealize.ShloMosaic Idealize.ShloMosaic.ValueIdx
open Cert.KernelIdeal Cert.KernelIdeal.Gen

/-- Entry m of the shifted row: the entry less the greatest of the 40. -/
theorem shiftedRow_apply (v22 : FVec Ideal S1x40 .f32) (m : Fin 40) :
    shiftedRow v22 (ix2 (0 : Fin 1) m)
      = v22 (ix2 (0 : Fin 1) m) - Cert.Gcn.rowMax (fun n => v22 (ix2 (0 : Fin 1) n)) := by
  unfold shiftedRow
  rw [subf_apply]
  refine congrArg (v22 (ix2 (0 : Fin 1) m) - ·) ?_
  refine (Cert.Lib.VecIx2.bcast_col _ broadcasts_S1x1_S1x40 (0 : Fin 1) m).trans ?_
  refine (Cert.Lib.RowMax.rowmax_column v22 reduces_S1x40_S1 (.inl rfl) rfl shapeCasts_S1_S1x1 (0 : Fin 1) (0 : Fin 1)).trans ?_
  unfold Cert.Gcn.rowMax
  rw [Cert.Words.negInf]

/-- Entry n of the log-softmax row. -/
theorem logSoftmaxRow_apply (v22 : FVec Ideal S1x40 .f32) (n : Fin 40) :
    logSoftmaxRow v22 (ix2 (0 : Fin 1) n) = Cert.Gcn.logSoftmax (fun n => v22 (ix2 (0 : Fin 1) n)) n := by
  unfold logSoftmaxRow Cert.Gcn.logSoftmax
  rw [subf_apply, shiftedRow_apply]
  refine congrArg (v22 (ix2 (0 : Fin 1) n) - Cert.Gcn.rowMax (fun n => v22 (ix2 (0 : Fin 1) n)) - ·) ?_
  refine (Cert.Lib.VecIx2.bcast_col _ broadcasts_S1x1_S1x40 (0 : Fin 1) n).trans ?_
  show Ideal.log (shapeCast S1x1 (multiReduction .add [1] S1 (exp (shiftedRow v22)) 0x00000000#32 reduces_S1x40_S1
    (.inl rfl) rfl) shapeCasts_S1_S1x1 (ix2 (0 : Fin 1) (0 : Fin 1))) = _
  refine congrArg Ideal.log ?_
  refine (Cert.Lib.RowSum.rowsum_column (exp (shiftedRow v22)) reduces_S1x40_S1 (.inl rfl) rfl shapeCasts_S1_S1x1
    (0 : Fin 1) (0 : Fin 1)).trans ?_
  refine Finset.sum_congr rfl fun k _ => ?_
  show Ideal.exp (shiftedRow v22 (ix2 (0 : Fin 1) k)) = _
  rw [shiftedRow_apply]

end Cert.KernelIdeal.Val

end
-- ==== Proof.Region3L1.lean ====
/-
  The second output of the tail: the mean absolute value of the last layer's weights. The body takes absolute values,
  views the 40 × 320 matrix as one slab, adds up all of its entries, and divides the total by the word of 12800. Read on
  the extended reals this is the double sum of max (w, −w) over the rows and columns, divided by that word.
-/
import proofs.«152444_g91036126806362_cont_sun_c4_717_5_alg».proof.Proof.Gen.KernelIdeal.Skeleton
import proofs.«152444_g91036126806362_cont_sun_c4_717_5_alg».proof.Proof.Spec
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.ValueIdx
open Cert.KernelIdeal Cert.KernelIdeal.Gen

/-- The total of the slab of absolute values is the double sum over rows and columns of max (w, −w). -/
theorem abs_total (v34 : Vec Ideal S40x320 .f32) :
    ∑ i : S1x40x320.Idx, k3_pay3 (F := Ideal) v34 i
      = ∑ a : Fin 40, ∑ b : Fin 320, max (v34 (ix2 a b)) (-(v34 (ix2 a b))) := by
  unfold k3_pay3
  refine (Equiv.sum_comp (Shape.reshapeEquiv shapeCasts_S40x320_S1x40x320) (absf (F := Ideal) (φ := .f32) v34)).trans ?_
  exact sum_idx2 _

/-- The one entry of the second output: the mean absolute weight. -/
theorem pay1_apply (v34 : Vec Ideal S40x320 .f32) :
    k3_pay1 (F := Ideal) (k3_pay3 v34) (ix2 (0 : Fin 1) (0 : Fin 1)) = Cert.Gcn.l1 (fun a k => v34 (ix2 a k)) := by
  unfold k3_pay1 Cert.Gcn.l1
  rw [divf_apply, broadcast_apply, broadcast_apply]
  refine congrArg (Ideal.div · (Ideal.ofBits .f32 0x46480000#32)) ?_
  unfold extractAt shapeCast
  refine (Ideal.multiReduction_add_total (k3_pay3 v34) 0x00000000#32 reduces_S1x40x320_S1
    (fun b => by match b with | ⟨0, _⟩ => rfl) (.inl rfl) rfl _).trans ?_
  exact abs_total v34

end Cert.KernelIdeal.Val

end
-- ==== Proof.Region3.lean ====
/-
  The value of the network's tail. The launch has one grid point, and each of its six windows is a whole array held at
  block index zero: the four input blocks are the arrays as the region finds them, and what the single point writes back
  covers each output array. So the array of log-probabilities ends holding the composition of the tail's stages applied
  to the input arrays, which entry by entry is the head of the network from the pooled mean; and the one-entry array
  ends holding the mean absolute value of the last layer's weights.
-/
import proofs.«152444_g91036126806362_cont_sun_c4_717_5_alg».proof.Proof.Gen.KernelIdeal.Frame
import proofs.«152444_g91036126806362_cont_sun_c4_717_5_alg».proof.Proof.Spec
import proofs.«152444_g91036126806362_cont_sun_c4_717_5_alg».proof.Proof.Region3Head
import proofs.«152444_g91036126806362_cont_sun_c4_717_5_alg».proof.Proof.Region3Logits
import proofs.«152444_g91036126806362_cont_sun_c4_717_5_alg».proof.Proof.Region3Softmax
import proofs.«152444_g91036126806362_cont_sun_c4_717_5_alg».proof.Proof.Region3L1
import Idealize.ShloMosaic.Lib.ValueIdx
import Idealize.ShloMosaic.Lib.Pipeline.Value

noncomputable section

namespace Cert.KernelIdeal.Val

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The offsets of a whole-array access are zero on both axes. -/
theorem zero_offsets : (![0, 0] : Fin 2 → Nat) = fun _ => 0 := funext fun a => by fin_cases a <;> rfl

/-! ## The input blocks are the arrays -/

/-- The block of the partial sums at the one point is the whole 25 × 256 array: coordinate a of the block sits at 0 · size + a. -/
theorem iblk3_0 (c : Dev nD) (t : Fin cfg3.N) : iblk3 (F := Ideal) V c 0 t = V c main_v5 := by
  unfold iblk3
  funext j
  show V c main_v5 (((cfg3.win 0).blk t).view.emb j) = V c main_v5 j
  refine congrArg (V c main_v5) (funext fun a => Fin.ext ?_)
  match a with
  | ⟨0, _⟩ => show 0 * 25 + 1 * (j 0).val = (j 0).val; omega
  | ⟨1, _⟩ => show 0 * 256 + 1 * (j 1).val = (j 1).val; omega

/-- The block of the side features is the whole 1 × 64 array. -/
theorem iblk3_1 (c : Dev nD) (t : Fin cfg3.N) : iblk3 (F := Ideal) V c 1 t = V c main_arg2 := by
  unfold iblk3
  funext j
  show V c main_arg2 (((cfg3.win 1).blk t).view.emb j) = V c main_arg2 j
  refine congrArg (V c main_arg2) (funext fun a => Fin.ext ?_)
  match a with
  | ⟨0, _⟩ => show 0 * 1 + 1 * (j 0).val = (j 0).val; omega
  | ⟨1, _⟩ => show 0 * 64 + 1 * (j 1).val = (j 1).val; omega

/-- The block of the last layer's weights is the whole 40 × 320 array. -/
theorem iblk3_2 (c : Dev nD) (t : Fin cfg3.N) : iblk3 (F := Ideal) V c 2 t = V c main_arg7 := by
  unfold iblk3
  funext j
  show V c main_arg7 (((cfg3.win 2).blk t).view.emb j) = V c main_arg7 j
  refine congrArg (V c main_arg7) (funext fun a => Fin.ext ?_)
  match a with
  | ⟨0, _⟩ => show 0 * 40 + 1 * (j 0).val = (j 0).val; omega
  | ⟨1, _⟩ => show 0 * 320 + 1 * (j 1).val = (j 1).val; omega

/-- The block of the bias row is the whole 1 × 40 array. -/
theorem iblk3_3 (c : Dev nD) (t : Fin cfg3.N) : iblk3 (F := Ideal) V c 3 t = V c main_v6 := by
  unfold iblk3
  funext j
  show V c main_v6 (((cfg3.win 3).blk t).view.emb j) = V c main_v6 j
  refine congrArg (V c main_v6) (funext fun a => Fin.ext ?_)
  match a with
  | ⟨0, _⟩ => show 0 * 1 + 1 * (j 0).val = (j 0).val; omega
  | ⟨1, _⟩ => show 0 * 40 + 1 * (j 1).val = (j 1).val; omega

/-! ## The log-probabilities -/

/-- What the point writes back to the log-probabilities is the whole block of the tail's value on the input arrays. -/
theorem flushed4_eq (c : Dev nD) (t : Fin cfg3.N) :
    (dat3 (F := Ideal) V c).flushed 4 t = ((cfg3.win 4).blk t).view.read (Elt Ideal)
      (k3_pay2 (F := Ideal) (V c main_v5) (V c main_arg2) (V c main_arg7) (V c main_v6)) := by
  show (cfg3.win 4).cut (grid3.coords t) ((dat3 V c).after 4 t) = _
  rw [after3_4]
  unfold out3_4
  rw [View.canon_unit_zero zero_offsets]
  simp only [View.ld_unit_zero (S := S25x256) zero_offsets, View.ld_unit_zero (S := S1x64) zero_offsets,
    View.ld_unit_zero (S := S40x320) zero_offsets, View.ld_unit_zero (S := S1x40) zero_offsets]
  rw [iblk3_0, iblk3_1, iblk3_2, iblk3_3]
  generalize k3_pay2 (F := Ideal) (V c main_v5) (V c main_arg2) (V c main_arg7) (V c main_v6) = X
  funext j
  show X j = X (((cfg3.win 4).blk t).view.emb j)
  refine congrArg X (funext fun a => Fin.ext ?_)
  match a with
  | ⟨0, _⟩ => show (j 0).val = 0 * 1 + 1 * (j 0).val; omega
  | ⟨1, _⟩ => show (j 1).val = 0 * 40 + 1 * (j 1).val; omega

/-- Every entry of the 1 × 40 array lies in the one point's block. -/
theorem cover4 (i : S1x40.Idx) :
    ∃ t : Fin cfg3.N, (cfg3.win 4).flush t = true ∧ i ∈ ((cfg3.win 4).blk t).view.set := by
  refine ⟨t3_0, flush3_4 t3_0, ?_⟩
  show i ∈ ((View.whole main_v7_0).slice (win3_4.rect t3_0)).set
  rw [View.set_slice_whole, Rect.mem_set_unit]
  intro a
  match a with
  | ⟨0, _⟩ =>
    have h : (i 0).val < 1 := (i 0).isLt
    show 0 * 1 ≤ (i 0).val ∧ (i 0).val < 0 * 1 + 1
    omega
  | ⟨1, _⟩ =>
    have h : (i 1).val < 40 := (i 1).isLt
    show 0 * 40 ≤ (i 1).val ∧ (i 1).val < 0 * 40 + 40
    omega

/-- The array of log-probabilities after the launch is the tail's value on the input arrays. -/
theorem final4 (c : Dev nD) : (dat3 (F := Ideal) V c).arrAt 4 cfg3.N
    = k3_pay2 (F := Ideal) (V c main_v5) (V c main_arg2) (V c main_arg7) (V c main_v6) :=
  (dat3 (F := Ideal) V c).arrAt_eq_of_cover 4 _ (fun t _ => flushed4_eq V c t) cover4

/-- The tail's value at entry n of its row, for any input vectors: the head of the network from the pooled mean. -/
theorem pay2_apply (x0 : Vec Ideal S25x256 .f32) (x1 : Vec Ideal S1x64 .f32) (x2 : Vec Ideal S40x320 .f32)
    (x3 : Vec Ideal S1x40 .f32) (n : Fin 40) :
    k3_pay2 (F := Ideal) x0 x1 x2 x3 (ix2 (0 : Fin 1) n)
      = Cert.Gcn.head (fun q => Cert.Gcn.colSum (fun b q => x0 (ix2 b q)) q * inv10000)
          (fun k => x1 (ix2 (0 : Fin 1) k)) (fun a k => x2 (ix2 a k)) (fun n => x3 (ix2 (0 : Fin 1) n)) n := by
  rw [pay2_stages, logSoftmaxRow_apply]
  unfold Cert.Gcn.head
  refine congrArg (fun l => Cert.Gcn.logSoftmax l n) (funext fun m => ?_)
  rw [logitsRow_apply]
  refine congrArg (fun z => Cert.Gcn.logits z _ _ m) (funext fun k => ?_)
  rw [joinedRow_apply]
  refine congrArg (fun g => Cert.Gcn.joined g _ k) (funext fun q => ?_)
  rw [seluRow_apply, pooledRow_apply]

theorem region3_logp (c : Dev nD) (n : Fin 40) :
    (dat3 (F := Ideal) V c).arrAt 4 cfg3.N (ix2 (0 : Fin 1) n)
      = Cert.Gcn.head (fun q => Cert.Gcn.colSum (fun b q => V c main_v5 (ix2 b q)) q * Named.named (F := Ideal) κ "inv_10000" (φ := .f32) 0x38D1B717#32)
          (fun k => V c main_arg2 (ix2 (0 : Fin 1) k)) (fun a k => V c main_arg7 (ix2 a k))
          (fun n => V c main_v6 (ix2 (0 : Fin 1) n)) n :=
  (congrFun (final4 V c) (ix2 (0 : Fin 1) n)).trans
    (pay2_apply (V c main_v5) (V c main_arg2) (V c main_arg7) (V c main_v6) n)

/-! ## The mean absolute weight -/

/-- What the point writes back to the one-entry array is the whole block of the mean absolute weight. -/
theorem flushed5_eq (c : Dev nD) (t : Fin cfg3.N) :
    (dat3 (F := Ideal) V c).flushed 5 t = ((cfg3.win 5).blk t).view.read (Elt Ideal)
      (k3_pay1 (F := Ideal) (k3_pay3 (V c main_arg7))) := by
  show (cfg3.win 5).cut (grid3.coords t) ((dat3 V c).after 5 t) = _
  rw [after3_5]
  unfold out3_5
  rw [View.canon_unit_zero zero_offsets]
  simp only [View.ld_unit_zero (S := S40x320) zero_offsets]
  rw [iblk3_2]
  generalize k3_pay1 (F := Ideal) (k3_pay3 (V c main_arg7)) = X
  funext j
  show X j = X (((cfg3.win 5).blk t).view.emb j)
  refine congrArg X (funext fun a => Fin.ext ?_)
  match a with
  | ⟨0, _⟩ => show (j 0).val = 0 * 1 + 1 * (j 0).val; omega
  | ⟨1, _⟩ => show (j 1).val = 0 * 1 + 1 * (j 1).val; omega

/-- The one entry of the 1 × 1 array lies in the one point's block. -/
theorem cover5 (i : S1x1.Idx) :
    ∃ t : Fin cfg3.N, (cfg3.win 5).flush t = true ∧ i ∈ ((cfg3.win 5).blk t).view.set := by
  refine ⟨t3_0, flush3_5 t3_0, ?_⟩
  show i ∈ ((View.whole main_v7_1).slice (win3_5.rect t3_0)).set
  rw [View.set_slice_whole, Rect.mem_set_unit]
  intro a
  match a with
  | ⟨0, _⟩ =>
    have h : (i 0).val < 1 := (i 0).isLt
    show 0 * 1 ≤ (i 0).val ∧ (i 0).val < 0 * 1 + 1
    omega
  | ⟨1, _⟩ =>
    have h : (i 1).val < 1 := (i 1).isLt
    show 0 * 1 ≤ (i 1).val ∧ (i 1).val < 0 * 1 + 1
    omega

/-- The one-entry array after the launch is the mean absolute weight computed from the weights' array. -/
theorem final5 (c : Dev nD) : (dat3 (F := Ideal) V c).arrAt 5 cfg3.N
    = k3_pay1 (F := Ideal) (k3_pay3 (V c main_arg7)) :=
  (dat3 (F := Ideal) V c).arrAt_eq_of_cover 5 _ (fun t _ => flushed5_eq V c t) cover5

theorem region3_l1 (c : Dev nD) :
    (dat3 (F := Ideal) V c).arrAt 5 cfg3.N (ix2 (0 : Fin 1) (0 : Fin 1))
      = Cert.Gcn.l1 (fun a k => V c main_arg7 (ix2 a k)) :=
  (congrFun (final5 V c) (ix2 (0 : Fin 1) (0 : Fin 1))).trans (pay1_apply (V c main_arg7))

end Cert.KernelIdeal.Val

end
-- ==== Proof.KernelValue.lean ====
/-
  The kernel program's two results as the network's mathematics of the launch arrays.

  The first launch leaves X · W1; the second, in 25 blocks of rows, layer A (X · W1) b1 · W2; the third, per block of
  400 nodes, the column sums of the second layer's activations; the fourth sums the 25 partial sums, multiplies by the
  constant it names 1/10000 — which is the mean over the 10000 nodes, the same number the reference reaches by one sum
  and one division — and applies the network's head; its second output is the mean absolute weight.
-/
import proofs.«152444_g91036126806362_cont_sun_c4_717_5_alg».proof.Proof.Fold
import proofs.«152444_g91036126806362_cont_sun_c4_717_5_alg».proof.Proof.Spec
import proofs.«152444_g91036126806362_cont_sun_c4_717_5_alg».proof.Proof.Algebra
import proofs.«152444_g91036126806362_cont_sun_c4_717_5_alg».proof.Proof.Region0
import proofs.«152444_g91036126806362_cont_sun_c4_717_5_alg».proof.Proof.Region1
import proofs.«152444_g91036126806362_cont_sun_c4_717_5_alg».proof.Proof.Region2
import proofs.«152444_g91036126806362_cont_sun_c4_717_5_alg».proof.Proof.Region3
import Idealize.ShloMosaic.PureOps.IdealRules

set_option maxRecDepth 16384

noncomputable section

open scoped BigOperators

namespace Cert.KernelIdeal.Val

open Idealize.ShloMosaic Idealize.ShloMosaic.ValueIdx Idealize.ShloMosaic.TcCoe Idealize.SL.Sem
open Cert.KernelIdeal Cert.KernelIdeal.Gen

section Composition

variable (m : (ℓ : Loc nD τ sig) → Buf (Elt Ideal) ℓ) (ρ : Dev nD → PrngReg)

/-- The kernel's named constant denotes the real 1/10000. -/
theorem inv_named : Named.named (F := Ideal) Cert.KernelIdeal.κ "inv_10000" (φ := .f32) 0x38D1B717#32 = ((1 / 10000 : ℝ) : EReal) :=
  IdealRules.named_const.ideal_named_scalar _ _ _ _ rfl

/-- What the second launch finds of the first: X · W1. -/
theorem s1_eq (c : Dev nD) :
    (fun (n : Fin 10000) (j : Fin 128) => V2 m ρ c main_v0 (ix2 n j))
      = Cert.Gcn.mm (fun i k => m ((c : Thread nD τ).loc main_arg0) (ix2 i k)) (fun k j => m ((c : Thread nD τ).loc main_arg3) (ix2 k j)) := by
  funext n j
  show W2 m ρ c (Proc.devRef .tc main_v0) (ix2 n j) = _
  rw [W2_v0]
  exact region0_value (V0 m ρ) c n j

/-- What the third launch finds of the second: layer A (X · W1) b1 · W2. -/
theorem s2_eq (c : Dev nD) :
    (fun (n : Fin 10000) (q : Fin 256) => V4 m ρ c main_v2 (ix2 n q))
      = Cert.Gcn.mm (Cert.Gcn.layer (fun i n => m ((c : Thread nD τ).loc main_arg1) (ix2 i n))
          (Cert.Gcn.mm (fun i k => m ((c : Thread nD τ).loc main_arg0) (ix2 i k)) (fun k j => m ((c : Thread nD τ).loc main_arg3) (ix2 k j)))
          (fun j => m ((c : Thread nD τ).loc main_arg4) (ix1 j))) (fun j q => m ((c : Thread nD τ).loc main_arg5) (ix2 j q)) := by
  funext n q
  show W4 m ρ c (Proc.devRef .tc main_v2) (ix2 n q) = _
  rw [W4_v2]
  refine (region1_value (V2 m ρ) c n q).trans ?_
  have e1 : (fun (i : Fin 10000) (n : Fin 10000) => V2 m ρ c main_arg1 (ix2 i n)) = fun i n => m ((c : Thread nD τ).loc main_arg1) (ix2 i n) :=
    funext fun i => funext fun n => congrFun (W2_arg1 m ρ c) (ix2 i n)
  have e2 : (fun (j : Fin 128) => V2 m ρ c main_v1 (ix2 (0 : Fin 1) j)) = fun j => m ((c : Thread nD τ).loc main_arg4) (ix1 j) :=
    funext fun j => W2_bias m ρ c j
  have e3 : (fun (j : Fin 128) (q : Fin 256) => V2 m ρ c main_arg5 (ix2 j q)) = fun j q => m ((c : Thread nD τ).loc main_arg5) (ix2 j q) :=
    funext fun j => funext fun q => congrFun (W2_arg5 m ρ c) (ix2 j q)
  rw [e1, e2, e3, s1_eq m ρ c]

/-- What the fourth launch finds of the third: for each block of 400 nodes, the column sums of the second layer's
    activations over the block. -/
theorem partials_eq (c : Dev nD) :
    (fun (b : Fin 25) (q : Fin 256) => V6 m ρ c main_v5 (ix2 b q))
      = fun b q => ∑ r : Fin 400, Cert.Gcn.hidden2 (fun i k => m ((c : Thread nD τ).loc main_arg0) (ix2 i k))
          (fun i n => m ((c : Thread nD τ).loc main_arg1) (ix2 i n)) (fun k j => m ((c : Thread nD τ).loc main_arg3) (ix2 k j))
          (fun j => m ((c : Thread nD τ).loc main_arg4) (ix1 j)) (fun j q => m ((c : Thread nD τ).loc main_arg5) (ix2 j q))
          (fun q => m ((c : Thread nD τ).loc main_arg6) (ix1 q)) (Cert.Gcn.node b r) q := by
  funext b q
  show W6 m ρ c (Proc.devRef .tc main_v5) (ix2 b q) = _
  rw [W6_partials]
  refine (region2_value (V4 m ρ) c b q).trans ?_
  have e1 : (fun (i : Fin 10000) (n : Fin 10000) => V4 m ρ c main_arg1 (ix2 i n)) = fun i n => m ((c : Thread nD τ).loc main_arg1) (ix2 i n) :=
    funext fun i => funext fun n => congrFun (W4_arg1 m ρ c) (ix2 i n)
  have e2 : (fun (q : Fin 256) => V4 m ρ c main_v3 (ix2 (0 : Fin 1) q)) = fun q => m ((c : Thread nD τ).loc main_arg6) (ix1 q) :=
    funext fun q => W4_bias m ρ c q
  rw [e1, e2, s2_eq m ρ c]
  rfl

/-- The program's first result, entry by entry: the network's head on the mean of the second layer's activations. -/
theorem logp_value (c : Dev nD) (n : Fin 40) :
    W8 m ρ c (Proc.devRef .tc main_v7_0) (ix2 (0 : Fin 1) n)
      = Cert.Gcn.head
          (fun q => Ideal.div
            (Cert.Gcn.colSum (Cert.Gcn.hidden2 (fun i k => m ((c : Thread nD τ).loc main_arg0) (ix2 i k))
              (fun i n => m ((c : Thread nD τ).loc main_arg1) (ix2 i n)) (fun k j => m ((c : Thread nD τ).loc main_arg3) (ix2 k j))
              (fun j => m ((c : Thread nD τ).loc main_arg4) (ix1 j)) (fun j q => m ((c : Thread nD τ).loc main_arg5) (ix2 j q))
              (fun q => m ((c : Thread nD τ).loc main_arg6) (ix1 q))) q)
            (Ideal.ofBits .f32 0x461C4000#32))
          (fun k => m ((c : Thread nD τ).loc main_arg2) (ix2 (0 : Fin 1) k)) (fun a k => m ((c : Thread nD τ).loc main_arg7) (ix2 a k))
          (fun n => m ((c : Thread nD τ).loc main_arg8) (ix1 n)) n := by
  rw [W8_logp]
  refine (region3_logp (V6 m ρ) c n).trans ?_
  have e1 : (fun (k : Fin 64) => V6 m ρ c main_arg2 (ix2 (0 : Fin 1) k)) = fun k => m ((c : Thread nD τ).loc main_arg2) (ix2 (0 : Fin 1) k) :=
    funext fun k => congrFun (W6_arg2 m ρ c) (ix2 (0 : Fin 1) k)
  have e2 : (fun (a : Fin 40) (k : Fin 320) => V6 m ρ c main_arg7 (ix2 a k)) = fun a k => m ((c : Thread nD τ).loc main_arg7) (ix2 a k) :=
    funext fun a => funext fun k => congrFun (W6_arg7 m ρ c) (ix2 a k)
  have e3 : (fun (n : Fin 40) => V6 m ρ c main_v6 (ix2 (0 : Fin 1) n)) = fun n => m ((c : Thread nD τ).loc main_arg8) (ix1 n) :=
    funext fun n => W6_bias m ρ c n
  rw [e1, e2, e3, partials_eq m ρ c]
  refine congrArg (fun μ => Cert.Gcn.head μ _ _ _ n) (funext fun q => ?_)
  rw [Cert.Gcn.colSum_blocks]
  exact Cert.Gcn.times_inv_eq_div _ _ inv_named

/-- The program's second result: the mean absolute weight. -/
theorem l1_value (c : Dev nD) :
    W8 m ρ c (Proc.devRef .tc main_v8) ix0 = Cert.Gcn.l1 (fun a k => m ((c : Thread nD τ).loc main_arg7) (ix2 a k)) := by
  rw [W8_scalar]
  refine (region3_l1 (V6 m ρ) c).trans ?_
  have e2 : (fun (a : Fin 40) (k : Fin 320) => V6 m ρ c main_arg7 (ix2 a k)) = fun a k => m ((c : Thread nD τ).loc main_arg7) (ix2 a k) :=
    funext fun a => funext fun k => congrFun (W6_arg7 m ρ c) (ix2 a k)
  rw [e2]

end Composition

end Cert.KernelIdeal.Val

end
-- ==== Proof.RefRunOps.lean ====
/-
  The reference program as a straight line of its 66 host operations: the bodies of the functions it calls
  (max(·, 0) twice, selu through elu and its two selections, log-softmax) are written out at their call sites over the
  buffers each call names.  The line is given as three stretches: up to the second layer's activations (16 operations),
  from there to the pooled features after selu (25 operations), and from there to the two results (25 operations).
  Every weakly fair execution of the program terminates with each buffer at the fold of the operations' results over
  the launch contents.
-/
import proofs.«152444_g91036126806362_cont_sun_c4_717_5_alg».proof.ReferenceIdeal
import Idealize.ShloMosaic.Lib.StableHlo.Run

noncomputable section

namespace Cert.ReferenceIdeal.Hand

open Idealize.ShloMosaic Idealize.ShloMosaic.TcCoe Idealize.SL.Sem Idealize.ShloMosaic.StableHlo
open Cert.ReferenceIdeal Cert.ReferenceIdeal.Facts₀ Cert.ReferenceIdeal.Facts

variable [Facts]
variable {F : FTy → Type} [FloatOps F]

/-- The first stretch: both graph-convolution layers, ending at the second layer's activations. -/
abbrev opsHead : List (HloOp τ sig (Elt F)) :=
  [ StableHlo.binary main_arg0 main_arg3 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.unary main_arg4 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S10000x128 ![0, 1] bcast_S1x128_S10000x128_0_1 : (⟨S1x128, .f32⟩ : BufTy).Contents (Elt F) → (⟨S10000x128, .f32⟩ : BufTy).Contents (Elt F)),
    StableHlo.binary main_v1 main_v3 main_v4 (addf : (⟨S10000x128, .f32⟩ : BufTy).Contents (Elt F) → (⟨S10000x128, .f32⟩ : BufTy).Contents (Elt F) → (⟨S10000x128, .f32⟩ : BufTy).Contents (Elt F)),
    StableHlo.TRef.nullary main_call0.cst (constant S_ .f32 0x00000000#32),
    StableHlo.TRef.unary main_call0.cst main_call0.v0 (broadcastInDim S10000x128 ![] bcast_S_S10000x128),
    StableHlo.TRef.binary (.of main_v4 : StableHlo.TRef sig ⟨S10000x128, .f32⟩) main_call0.v0 main_call0.v1 maximumf,
    StableHlo.binary main_v5 main_arg5 main_v6 ((fun l r => Host.dotGeneral dot_S10000x128_S128x256_S10000x256_1_0_0_1_n_n none l r) : (⟨S10000x128, .f32⟩ : BufTy).Contents (Elt F) → (⟨S128x256, .f32⟩ : BufTy).Contents (Elt F) → (⟨S10000x256, .f32⟩ : BufTy).Contents (Elt F)),
    StableHlo.binary main_arg1 main_v6 main_v7 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    StableHlo.unary main_arg6 main_v8 (broadcastInDim S1x256 ![1] bcast_S256_S1x256_1 : (⟨S256, .f32⟩ : BufTy).Contents (Elt F) → (⟨S1x256, .f32⟩ : BufTy).Contents (Elt F)),
    StableHlo.unary main_v8 main_v9 (broadcastInDim S10000x256 ![0, 1] bcast_S1x256_S10000x256_0_1 : (⟨S1x256, .f32⟩ : BufTy).Contents (Elt F) → (⟨S10000x256, .f32⟩ : BufTy).Contents (Elt F)),
    StableHlo.binary main_v7 main_v9 main_v10 (addf : (⟨S10000x256, .f32⟩ : BufTy).Contents (Elt F) → (⟨S10000x256, .f32⟩ : BufTy).Contents (Elt F) → (⟨S10000x256, .f32⟩ : BufTy).Contents (Elt F)),
    StableHlo.TRef.nullary main_call1.cst (constant S_ .f32 0x00000000#32),
    StableHlo.TRef.unary main_call1.cst main_call1.v0 (broadcastInDim S10000x256 ![] bcast_S_S10000x256),
    StableHlo.TRef.binary (.of main_v10 : StableHlo.TRef sig ⟨S10000x256, .f32⟩) main_call1.v0 main_call1.v1 maximumf ]

/-- The second stretch: the mean over the nodes and selu, ending at the pooled features. -/
abbrev opsMid : List (HloOp τ sig (Elt F)) :=
  [ StableHlo.nullary main_cst (constant S_ .f32 0x00000000#32),
    StableHlo.binary main_v11 main_cst main_v12 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.unary main_v12 main_v13 (broadcastInDim S1x256 ![1] bcast_S256_S1x256_1 : (⟨S256, .f32⟩ : BufTy).Contents (Elt F) → (⟨S1x256, .f32⟩ : BufTy).Contents (Elt F)),
    StableHlo.nullary main_cst_0 (constant S_ .f32 0x461C4000#32),
    StableHlo.unary main_cst_0 main_v14 (broadcastInDim S1x256 ![] bcast_S_S1x256 : (⟨S_, .f32⟩ : BufTy).Contents (Elt F) → (⟨S1x256, .f32⟩ : BufTy).Contents (Elt F)),
    StableHlo.binary main_v13 main_v14 main_v15 (Host.divf : (⟨S1x256, .f32⟩ : BufTy).Contents (Elt F) → (⟨S1x256, .f32⟩ : BufTy).Contents (Elt F) → (⟨S1x256, .f32⟩ : BufTy).Contents (Elt F)),
    StableHlo.TRef.nullary main_call2.cst (constant S_ .f32 0x3FD62D7D#32),
    StableHlo.TRef.nullary main_call2.call0.cst (constant S_ .f32 0x00000000#32),
    StableHlo.TRef.unary main_call2.call0.cst main_call2.call0.v0 (broadcastInDim S1x256 ![] bcast_S_S1x256),
    StableHlo.TRef.binary (.of main_v15 : StableHlo.TRef sig ⟨S1x256, .f32⟩) main_call2.call0.v0 main_call2.call0.v1 (cmpf .ogt),
    StableHlo.TRef.nullary main_call2.call0.cst_0 (constant S_ .f32 0x00000000#32),
    StableHlo.TRef.unary main_call2.call0.cst_0 main_call2.call0.v2 (broadcastInDim S1x256 ![] bcast_S_S1x256),
    StableHlo.TRef.binary (.of main_v15 : StableHlo.TRef sig ⟨S1x256, .f32⟩) main_call2.call0.v2 main_call2.call0.v3 (cmpf .ogt),
    StableHlo.TRef.nullary main_call2.call0.cst_1 (constant S_ .f32 0x00000000#32),
    StableHlo.TRef.unary main_call2.call0.cst_1 main_call2.call0.call0.v0 id,
    StableHlo.TRef.unary main_call2.call0.call0.v0 main_call2.call0.call0.v1 (broadcastInDim S1x256 ![] bcast_S_S1x256),
    StableHlo.TRef.ternary main_call2.call0.v3 main_call2.call0.call0.v1 (.of main_v15 : StableHlo.TRef sig ⟨S1x256, .f32⟩) main_call2.call0.call0.v2 select,
    StableHlo.TRef.unary main_call2.call0.call0.v2 main_call2.call0.v5 Host.expm1,
    StableHlo.TRef.unary main_call2.cst main_call2.call0.v6 id,
    StableHlo.TRef.unary main_call2.call0.v6 main_call2.call0.v7 (broadcastInDim S1x256 ![] bcast_S_S1x256),
    StableHlo.TRef.binary main_call2.call0.v7 main_call2.call0.v5 main_call2.call0.v8 mulf,
    StableHlo.TRef.ternary main_call2.call0.v1 (.of main_v15 : StableHlo.TRef sig ⟨S1x256, .f32⟩) main_call2.call0.v8 main_call2.call0.call1.v0 select,
    StableHlo.TRef.nullary main_call2.cst_0 (constant S_ .f32 0x3F867D5F#32),
    StableHlo.TRef.unary main_call2.cst_0 main_call2.v1 (broadcastInDim S1x256 ![] bcast_S_S1x256),
    StableHlo.TRef.binary main_call2.v1 main_call2.call0.call1.v0 main_call2.v2 mulf ]

/-- The third stretch: the last linear layer on the joined features, log-softmax, and the mean absolute weight. -/
abbrev opsTail : List (HloOp τ sig (Elt F)) :=
  [ StableHlo.binary main_v16 main_arg2 main_v17 ((fun a b => concatenate S1x320 1 [⟨S1x256, a⟩, ⟨S1x64, b⟩] concatenates_S1x256_S1x64_S1x320_d1) : (⟨S1x256, .f32⟩ : BufTy).Contents (Elt F) → (⟨S1x64, .f32⟩ : BufTy).Contents (Elt F) → (⟨S1x320, .f32⟩ : BufTy).Contents (Elt F)),
    StableHlo.unary main_arg7 main_v18 ((transpose S320x40 [1, 0] · transposes_S40x320_S320x40_1_0) : (⟨S40x320, .f32⟩ : BufTy).Contents (Elt F) → (⟨S320x40, .f32⟩ : BufTy).Contents (Elt F)),
    StableHlo.binary main_v17 main_v18 main_v19 ((fun l r => Host.dotGeneral dot_S1x320_S320x40_S1x40_1_0_0_1_n_n none l r) : (⟨S1x320, .f32⟩ : BufTy).Contents (Elt F) → (⟨S320x40, .f32⟩ : BufTy).Contents (Elt F) → (⟨S1x40, .f32⟩ : BufTy).Contents (Elt F)),
    StableHlo.unary main_arg8 main_v20 (broadcastInDim S1x40 ![1] bcast_S40_S1x40_1 : (⟨S40, .f32⟩ : BufTy).Contents (Elt F) → (⟨S1x40, .f32⟩ : BufTy).Contents (Elt F)),
    StableHlo.binary main_v19 main_v20 main_v21 (addf : (⟨S1x40, .f32⟩ : BufTy).Contents (Elt F) → (⟨S1x40, .f32⟩ : BufTy).Contents (Elt F) → (⟨S1x40, .f32⟩ : BufTy).Contents (Elt F)),
    StableHlo.TRef.nullary main_call3.cst (constant S_ .f32 0xFF800000#32),
    StableHlo.TRef.binary (.of main_v21 : StableHlo.TRef sig ⟨S1x40, .f32⟩) main_call3.cst main_call3.v0 (fun x v => Host.reduce FloatOps.maximumf x v reducesTo_S1x40_S1_d1 h_S_),
    StableHlo.TRef.nullary main_call3.cst_0 (constant S_ .f32 0xFF800000#32),
    StableHlo.TRef.unary main_call3.cst_0 main_call3.v1 (broadcastInDim S1 ![] bcast_S_S1),
    StableHlo.TRef.binary main_call3.v1 main_call3.v0 main_call3.v2 maximumf,
    StableHlo.TRef.unary main_call3.v2 main_call3.v3 (broadcastInDim S1x1 ![0] bcast_S1_S1x1_0),
    StableHlo.TRef.unary main_call3.v3 main_call3.v4 (broadcastInDim S1x40 ![0, 1] bcast_S1x1_S1x40_0_1),
    StableHlo.TRef.binary (.of main_v21 : StableHlo.TRef sig ⟨S1x40, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S1x40_S1_d1 h_S_),
    StableHlo.TRef.unary main_call3.v7 main_call3.v8 (broadcastInDim S1x1 ![0] bcast_S1_S1x1_0),
    StableHlo.TRef.unary main_call3.v8 main_call3.v9 Host.log,
    StableHlo.TRef.unary main_call3.v9 main_call3.v10 (broadcastInDim S1x40 ![0, 1] bcast_S1x1_S1x40_0_1),
    StableHlo.TRef.binary main_call3.v5 main_call3.v10 main_call3.v11 subf,
    StableHlo.unary main_arg7 main_v23 (Host.absf : (⟨S40x320, .f32⟩ : BufTy).Contents (Elt F) → (⟨S40x320, .f32⟩ : BufTy).Contents (Elt F)),
    StableHlo.nullary main_cst_1 (constant S_ .f32 0x00000000#32),
    StableHlo.binary main_v23 main_cst_1 main_v24 ((fun x v => Host.reduceAdd x v reducesTo_S40x320_S_d0_1 h_S_) : (⟨S40x320, .f32⟩ : BufTy).Contents (Elt F) → (⟨S_, .f32⟩ : BufTy).Contents (Elt F) → (⟨S_, .f32⟩ : BufTy).Contents (Elt F)),
    StableHlo.nullary main_cst_2 (constant S_ .f32 0x46480000#32),
    StableHlo.binary main_v24 main_cst_2 main_v25 (Host.divf : (⟨S_, .f32⟩ : BufTy).Contents (Elt F) → (⟨S_, .f32⟩ : BufTy).Contents (Elt F) → (⟨S_, .f32⟩ : BufTy).Contents (Elt F)) ]

/-- The whole line. -/
abbrev ops : List (HloOp τ sig (Elt F)) := opsHead ++ (opsMid ++ opsTail)

-- sixty-six operations, each two effect requests deep
set_option maxRecDepth 8192 in
/-- The program is that line.  Sequencing in the free monad grafts the continuation onto the leaves by structural
    recursion, so the called functions' bodies, unfolded at their calls, and the line are the same tree of requests by
    computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., binary_bufs_sub .., nullary_bufs_sub .., binary_bufs_sub ..⟩

/-- Every weakly fair execution of the program terminates, and leaves each buffer at the fold of the operations'
    results over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefStages.lean ====
/-
  The reference program's host operations, grouped into the network's stages and named: the dense products, the two
  graph-convolution layers, the mean over the nodes, selu, the last linear layer on the joined features, the
  log-softmax, and the mean absolute weight.  Each is the composition of the program's own operations, in the program's
  order and with its own side-condition witnesses; nothing is simplified here.
-/
import proofs.«152444_g91036126806362_cont_sun_c4_717_5_alg».proof.ReferenceIdeal
import Idealize.ShloMosaic.PureOps.Ideal

noncomputable section

namespace Cert.ReferenceIdeal.Stage

open Idealize.ShloMosaic Cert.ReferenceIdeal Cert.ReferenceIdeal.Facts₀

variable [Facts]

/-- X · W1. -/
def dense1 (x : FVec Ideal S10000x128 .f32) (w1 : FVec Ideal S128x128 .f32) : FVec Ideal S10000x128 .f32 :=
  Host.dotGeneral (F := Ideal) dot_S10000x128_S128x128_S10000x128_1_0_0_1_n_n none x w1

/-- The first layer: max (A · S + b1) 0. -/
def conv1 (adj : FVec Ideal S10000x10000 .f32) (s : FVec Ideal S10000x128 .f32) (b : FVec Ideal S128 .f32) :
    FVec Ideal S10000x128 .f32 :=
  maximumf
    (addf (Host.dotGeneral (F := Ideal) dot_S10000x10000_S10000x128_S10000x128_1_0_0_1_n_n none adj s)
      (broadcastInDim S10000x128 ![0, 1] bcast_S1x128_S10000x128_0_1 (broadcastInDim S1x128 ![1] bcast_S128_S1x128_1 b)))
    (broadcastInDim S10000x128 ![] bcast_S_S10000x128 (constant (F := Ideal) S_ .f32 0x00000000#32))

/-- H1 · W2. -/
def dense2 (h : FVec Ideal S10000x128 .f32) (w2 : FVec Ideal S128x256 .f32) : FVec Ideal S10000x256 .f32 :=
  Host.dotGeneral (F := Ideal) dot_S10000x128_S128x256_S10000x256_1_0_0_1_n_n none h w2

/-- The second layer: max (A · S + b2) 0. -/
def conv2 (adj : FVec Ideal S10000x10000 .f32) (s : FVec Ideal S10000x256 .f32) (b : FVec Ideal S256 .f32) :
    FVec Ideal S10000x256 .f32 :=
  maximumf
    (addf (Host.dotGeneral (F := Ideal) dot_S10000x10000_S10000x256_S10000x256_1_0_0_1_n_n none adj s)
      (broadcastInDim S10000x256 ![0, 1] bcast_S1x256_S10000x256_0_1 (broadcastInDim S1x256 ![1] bcast_S256_S1x256_1 b)))
    (broadcastInDim S10000x256 ![] bcast_S_S10000x256 (constant (F := Ideal) S_ .f32 0x00000000#32))

/-- The mean over the 10000 nodes, as a row [1, 256]: the column sums from zero, divided by the word of 10000. -/
def pooled (h : FVec Ideal S10000x256 .f32) : FVec Ideal S1x256 .f32 :=
  Host.divf (F := Ideal)
    (broadcastInDim S1x256 ![1] bcast_S256_S1x256_1
      (Host.reduceAdd (F := Ideal) h (constant (F := Ideal) S_ .f32 0x00000000#32) reducesTo_S10000x256_S256_d0 h_S_))
    (broadcastInDim S1x256 ![] bcast_S_S1x256 (constant (F := Ideal) S_ .f32 0x461C4000#32))

/-- The zero row [1, 256] that selu compares against and substitutes. -/
def zeroRow : FVec Ideal S1x256 .f32 :=
  broadcastInDim S1x256 ![] bcast_S_S1x256 (constant (F := Ideal) S_ .f32 0x00000000#32)

/-- selu on the row: scale · (m where m > 0, α · expm1 (0 where m > 0, m elsewhere) elsewhere). -/
def seluRow (m : FVec Ideal S1x256 .f32) : FVec Ideal S1x256 .f32 :=
  mulf (broadcastInDim S1x256 ![] bcast_S_S1x256 (constant (F := Ideal) S_ .f32 0x3F867D5F#32))
    (select (cmpf .ogt m zeroRow) m
      (mulf (broadcastInDim S1x256 ![] bcast_S_S1x256 (constant (F := Ideal) S_ .f32 0x3FD62D7D#32))
        (Host.expm1 (F := Ideal) (select (cmpf .ogt m zeroRow) zeroRow m))))

/-- The last linear layer on the pooled features joined with the side features: z · Wfᵀ + bf. -/
def logitsRow (g : FVec Ideal S1x256 .f32) (sub : FVec Ideal S1x64 .f32) (wf : FVec Ideal S40x320 .f32)
    (bf : FVec Ideal S40 .f32) : FVec Ideal S1x40 .f32 :=
  addf
    (Host.dotGeneral (F := Ideal) dot_S1x320_S320x40_S1x40_1_0_0_1_n_n none
      (concatenate S1x320 1 [⟨S1x256, g⟩, ⟨S1x64, sub⟩] concatenates_S1x256_S1x64_S1x320_d1)
      (transpose S320x40 [1, 0] wf transposes_S40x320_S320x40_1_0))
    (broadcastInDim S1x40 ![1] bcast_S40_S1x40_1 bf)

/-- The logits shifted by their maximum (the maximum taken from −∞, and once more against −∞). -/
def shifted (l : FVec Ideal S1x40 .f32) : FVec Ideal S1x40 .f32 :=
  subf l
    (broadcastInDim S1x40 ![0, 1] bcast_S1x1_S1x40_0_1
      (broadcastInDim S1x1 ![0] bcast_S1_S1x1_0
        (maximumf (broadcastInDim S1 ![] bcast_S_S1 (constant (F := Ideal) S_ .f32 0xFF800000#32))
          (Host.reduce (α := Ideal .f32) FloatOps.maximumf l (constant (F := Ideal) S_ .f32 0xFF800000#32) reducesTo_S1x40_S1_d1 h_S_))))

/-- log-softmax of the row. -/
def logSoftmaxRow (l : FVec Ideal S1x40 .f32) : FVec Ideal S1x40 .f32 :=
  subf (shifted l)
    (broadcastInDim S1x40 ![0, 1] bcast_S1x1_S1x40_0_1
      (Host.log (F := Ideal)
        (broadcastInDim S1x1 ![0] bcast_S1_S1x1_0
          (Host.reduceAdd (F := Ideal) (Host.exp (F := Ideal) (shifted l)) (constant (F := Ideal) S_ .f32 0x00000000#32)
            reducesTo_S1x40_S1_d1 h_S_))))

/-- The first result: the log-probabilities. -/
def logp (x : FVec Ideal S10000x128 .f32) (adj : FVec Ideal S10000x10000 .f32) (sub : FVec Ideal S1x64 .f32)
    (w1 : FVec Ideal S128x128 .f32) (b1 : FVec Ideal S128 .f32) (w2 : FVec Ideal S128x256 .f32)
    (b2 : FVec Ideal S256 .f32) (wf : FVec Ideal S40x320 .f32) (bf : FVec Ideal S40 .f32) : FVec Ideal S1x40 .f32 :=
  logSoftmaxRow (logitsRow (seluRow (pooled (conv2 adj (dense2 (conv1 adj (dense1 x w1) b1) w2) b2))) sub wf bf)

/-- The second result: the mean absolute weight, the total from zero divided by the word of 12800. -/
def l1 (wf : FVec Ideal S40x320 .f32) : FVec Ideal S_ .f32 :=
  Host.divf (F := Ideal)
    (Host.reduceAdd (F := Ideal) (Host.absf (F := Ideal) wf) (constant (F := Ideal) S_ .f32 0x00000000#32)
      reducesTo_S40x320_S_d0_1 h_S_)
    (constant (F := Ideal) S_ .f32 0x46480000#32)

end Cert.ReferenceIdeal.Stage

end
-- ==== Proof.LibRunPieces.lean ====
/-
  Two facts for reading a long host program's run in pieces.

  The buffer contents after a list of host operations are a fold of the operations' results.  Over a concatenation the
  fold runs the first part and then the second from what the first left: a long program can be read up to an intermediate
  buffer and then from it, instead of as one term.

  An operation of a called function is stated at the tensor value's type and carried to the buffer's own type and back
  along the reference's type equation.  Carrying there and back is the identity, whatever the equation's proof: where one
  operation's output feeds the next, the two carryings cancel by rewriting, and nothing has to be unfolded.  (Left to
  definitional unfolding, a reduction over a large shape on one side and its carried form on the other can make the
  unifier evaluate the reduction.)
-/
import Idealize.ShloMosaic.Lib.StableHlo.Run

noncomputable section

namespace Cert.Lib.RunPieces

open Idealize.ShloMosaic Idealize.ShloMosaic.StableHlo

variable {τ : Topo} {sig : RefSig} {Val : EltTy → Type}

/-- Running a concatenation of operations is running its halves in turn. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's own buffer type and back are the contents. -/
theorem ofBuf_toBuf {T : BufTy} (x : TRef sig T) (v : T.Contents Val) : x.ofBuf (x.toBuf v) = v := by
  unfold TRef.ofBuf TRef.toBuf
  rw [cast_cast, cast_eq]

/-- Contents of the buffer's own type carried to the value's type and back are the contents. -/
theorem toBuf_ofBuf {T : BufTy} (x : TRef sig T) (w : x.ref.ty.Contents Val) : x.toBuf (x.ofBuf w) = w := by
  unfold TRef.ofBuf TRef.toBuf
  rw [cast_cast, cast_eq]

end Cert.Lib.RunPieces

end
-- ==== Proof.RefRunHead.lean ====
/-
  The first stretch of the reference program read back: after its 16 operations the second layer's buffer holds
  max (A · (max (A · (X · W1) + b1) 0 · W2) + b2) 0 of the launch arrays, as the composition of the program's own
  operations, and the nine argument buffers hold what they held.

  The fold is unrolled operation by operation: each operation's result at its own buffer is its function's value and at
  any other buffer what was there.  The two max(·, 0) are bodies of a called function, stated at the tensor's type and
  carried to the buffer's type and back; a value carried there and back is itself, and a carrying along an equation
  between one and the same type is the identity, so no carrying is left and the composed term is, symbol for symbol,
  the stages' term.
-/
import proofs.«152444_g91036126806362_cont_sun_c4_717_5_alg».proof.Proof.RefRunOps
import proofs.«152444_g91036126806362_cont_sun_c4_717_5_alg».proof.Proof.RefStages
import proofs.«152444_g91036126806362_cont_sun_c4_717_5_alg».proof.Proof.LibRunPieces

noncomputable section

namespace Cert.ReferenceIdeal.Hand

open Idealize.ShloMosaic Idealize.ShloMosaic.TcCoe Idealize.SL.Sem Idealize.ShloMosaic.StableHlo
open Cert.ReferenceIdeal Cert.ReferenceIdeal.Facts₀ Cert.ReferenceIdeal.Facts

variable [Facts]

/-- After the first stretch the second layer's buffer holds the second layer's activations of the launch arrays. -/
theorem head_v11 (V : Valuation τ sig (Elt Ideal)) :
    after opsHead V (main_v11 : DevRef τ sig)
      = Stage.conv2 (V (main_arg1 : DevRef τ sig))
          (Stage.dense2 (Stage.conv1 (V (main_arg1 : DevRef τ sig)) (Stage.dense1 (V (main_arg0 : DevRef τ sig)) (V (main_arg3 : DevRef τ sig))) (V (main_arg4 : DevRef τ sig))) (V (main_arg5 : DevRef τ sig)))
          (V (main_arg6 : DevRef τ sig)) := by
  after_results_simp
  simp only [Cert.Lib.RunPieces.ofBuf_toBuf, Cert.Lib.RunPieces.toBuf_ofBuf, cast_eq]
  delta Stage.conv2 Stage.dense2 Stage.conv1 Stage.dense1
  rfl

/-! The first stretch writes none of the argument buffers. -/
theorem head_arg0 (V : Valuation τ sig (Elt Ideal)) :
    after opsHead V (main_arg0 : DevRef τ sig) = V (main_arg0 : DevRef τ sig) := by after_results_simp
theorem head_arg1 (V : Valuation τ sig (Elt Ideal)) :
    after opsHead V (main_arg1 : DevRef τ sig) = V (main_arg1 : DevRef τ sig) := by after_results_simp
theorem head_arg2 (V : Valuation τ sig (Elt Ideal)) :
    after opsHead V (main_arg2 : DevRef τ sig) = V (main_arg2 : DevRef τ sig) := by after_results_simp
theorem head_arg3 (V : Valuation τ sig (Elt Ideal)) :
    after opsHead V (main_arg3 : DevRef τ sig) = V (main_arg3 : DevRef τ sig) := by after_results_simp
theorem head_arg4 (V : Valuation τ sig (Elt Ideal)) :
    after opsHead V (main_arg4 : DevRef τ sig) = V (main_arg4 : DevRef τ sig) := by after_results_simp
theorem head_arg5 (V : Valuation τ sig (Elt Ideal)) :
    after opsHead V (main_arg5 : DevRef τ sig) = V (main_arg5 : DevRef τ sig) := by after_results_simp
theorem head_arg6 (V : Valuation τ sig (Elt Ideal)) :
    after opsHead V (main_arg6 : DevRef τ sig) = V (main_arg6 : DevRef τ sig) := by after_results_simp
theorem head_arg7 (V : Valuation τ sig (Elt Ideal)) :
    after opsHead V (main_arg7 : DevRef τ sig) = V (main_arg7 : DevRef τ sig) := by after_results_simp
theorem head_arg8 (V : Valuation τ sig (Elt Ideal)) :
    after opsHead V (main_arg8 : DevRef τ sig) = V (main_arg8 : DevRef τ sig) := by after_results_simp

end Cert.ReferenceIdeal.Hand

end
-- ==== Proof.RefRunMid.lean ====
/-
  The second stretch of the reference program read back: from the second layer's activations h, after its 25
  operations the selu buffer holds selu of the mean of h over the nodes, as the composition of the program's own
  operations (the column sums from zero, divided by the word of 10000; then scale · (m where m > 0, α · expm1 of
  (0 where m > 0, m elsewhere) elsewhere), the two comparisons against a broadcast zero).  The argument buffers hold
  what they held.

  selu, elu and the two selections are bodies of called functions, stated at the tensor's type and carried to the
  buffer's type and back: a value carried there and back is itself, a carrying along an equation between one and the
  same type is the identity, and a change of format printed as the identity function is the identity.
-/
import proofs.«152444_g91036126806362_cont_sun_c4_717_5_alg».proof.Proof.RefRunOps
import proofs.«152444_g91036126806362_cont_sun_c4_717_5_alg».proof.Proof.RefStages
import proofs.«152444_g91036126806362_cont_sun_c4_717_5_alg».proof.Proof.LibRunPieces

noncomputable section

namespace Cert.ReferenceIdeal.Hand

open Idealize.ShloMosaic Idealize.ShloMosaic.TcCoe Idealize.SL.Sem Idealize.ShloMosaic.StableHlo
open Cert.ReferenceIdeal Cert.ReferenceIdeal.Facts₀ Cert.ReferenceIdeal.Facts

variable [Facts]

/-- After the second stretch the selu buffer holds selu of the mean over the nodes of what the second layer's
    buffer held. -/
theorem mid_v16 (W : Valuation τ sig (Elt Ideal)) (h : FVec Ideal S10000x256 .f32)
    (h11 : W (main_v11 : DevRef τ sig) = h) :
    after opsMid W (main_v16 : DevRef τ sig) = Stage.seluRow (Stage.pooled h) := by
  subst h11
  after_results_simp
  simp only [Cert.Lib.RunPieces.ofBuf_toBuf, Cert.Lib.RunPieces.toBuf_ofBuf, cast_eq, id_eq]
  delta Stage.seluRow Stage.zeroRow Stage.pooled
  rfl

/-! The second stretch writes none of the argument buffers. -/
theorem mid_arg0 (W : Valuation τ sig (Elt Ideal)) :
    after opsMid W (main_arg0 : DevRef τ sig) = W (main_arg0 : DevRef τ sig) := by after_results_simp
theorem mid_arg1 (W : Valuation τ sig (Elt Ideal)) :
    after opsMid W (main_arg1 : DevRef τ sig) = W (main_arg1 : DevRef τ sig) := by after_results_simp
theorem mid_arg2 (W : Valuation τ sig (Elt Ideal)) :
    after opsMid W (main_arg2 : DevRef τ sig) = W (main_arg2 : DevRef τ sig) := by after_results_simp
theorem mid_arg3 (W : Valuation τ sig (Elt Ideal)) :
    after opsMid W (main_arg3 : DevRef τ sig) = W (main_arg3 : DevRef τ sig) := by after_results_simp
theorem mid_arg4 (W : Valuation τ sig (Elt Ideal)) :
    after opsMid W (main_arg4 : DevRef τ sig) = W (main_arg4 : DevRef τ sig) := by after_results_simp
theorem mid_arg5 (W : Valuation τ sig (Elt Ideal)) :
    after opsMid W (main_arg5 : DevRef τ sig) = W (main_arg5 : DevRef τ sig) := by after_results_simp
theorem mid_arg6 (W : Valuation τ sig (Elt Ideal)) :
    after opsMid W (main_arg6 : DevRef τ sig) = W (main_arg6 : DevRef τ sig) := by after_results_simp
theorem mid_arg7 (W : Valuation τ sig (Elt Ideal)) :
    after opsMid W (main_arg7 : DevRef τ sig) = W (main_arg7 : DevRef τ sig) := by after_results_simp
theorem mid_arg8 (W : Valuation τ sig (Elt Ideal)) :
    after opsMid W (main_arg8 : DevRef τ sig) = W (main_arg8 : DevRef τ sig) := by after_results_simp

end Cert.ReferenceIdeal.Hand

end
-- ==== Proof.RefRunTail.lean ====
/-
  The third stretch of the reference program read back: from the pooled features g, after its 25 operations the first
  result holds log-softmax of (g joined with the side features) · Wfᵀ + bf and the second the mean absolute entry of Wf,
  each as the composition of the program's own operations.  The argument buffers hold what they held.

  log-softmax is the body of a called function, stated at the tensor's type and carried to the buffer's type and back:
  a value carried there and back is itself, and a carrying along an equation between one and the same type is the
  identity.
-/
import proofs.«152444_g91036126806362_cont_sun_c4_717_5_alg».proof.Proof.RefRunOps
import proofs.«152444_g91036126806362_cont_sun_c4_717_5_alg».proof.Proof.RefStages
import proofs.«152444_g91036126806362_cont_sun_c4_717_5_alg».proof.Proof.LibRunPieces

noncomputable section

namespace Cert.ReferenceIdeal.Hand

open Idealize.ShloMosaic Idealize.ShloMosaic.TcCoe Idealize.SL.Sem Idealize.ShloMosaic.StableHlo
open Cert.ReferenceIdeal Cert.ReferenceIdeal.Facts₀ Cert.ReferenceIdeal.Facts

variable [Facts]

/-- After the third stretch the first result holds the log-probabilities of the pooled features, the side features,
    the last layer's weights and its bias. -/
theorem tail_logp (W : Valuation τ sig (Elt Ideal)) (g : FVec Ideal S1x256 .f32) (sub : FVec Ideal S1x64 .f32)
    (wf : FVec Ideal S40x320 .f32) (bf : FVec Ideal S40 .f32)
    (h16 : W (main_v16 : DevRef τ sig) = g) (h2 : W (main_arg2 : DevRef τ sig) = sub)
    (h7 : W (main_arg7 : DevRef τ sig) = wf) (h8 : W (main_arg8 : DevRef τ sig) = bf) :
    after opsTail W (main_v22 : DevRef τ sig) = Stage.logSoftmaxRow (Stage.logitsRow g sub wf bf) := by
  subst h16 h2 h7 h8
  after_results_simp
  simp only [Cert.Lib.RunPieces.ofBuf_toBuf, Cert.Lib.RunPieces.toBuf_ofBuf, cast_eq, id_eq]
  delta Stage.logSoftmaxRow Stage.shifted Stage.logitsRow
  rfl

/-- After the third stretch the second result holds the mean absolute entry of the last layer's weights. -/
theorem tail_l1 (W : Valuation τ sig (Elt Ideal)) (wf : FVec Ideal S40x320 .f32)
    (h7 : W (main_arg7 : DevRef τ sig) = wf) :
    after opsTail W (main_v25 : DevRef τ sig) = Stage.l1 wf := by
  subst h7
  after_results_simp
  delta Stage.l1
  rfl

/-! The third stretch writes none of the argument buffers. -/
theorem tail_arg0 (W : Valuation τ sig (Elt Ideal)) :
    after opsTail W (main_arg0 : DevRef τ sig) = W (main_arg0 : DevRef τ sig) := by after_results_simp
theorem tail_arg1 (W : Valuation τ sig (Elt Ideal)) :
    after opsTail W (main_arg1 : DevRef τ sig) = W (main_arg1 : DevRef τ sig) := by after_results_simp
theorem tail_arg2 (W : Valuation τ sig (Elt Ideal)) :
    after opsTail W (main_arg2 : DevRef τ sig) = W (main_arg2 : DevRef τ sig) := by after_results_simp
theorem tail_arg3 (W : Valuation τ sig (Elt Ideal)) :
    after opsTail W (main_arg3 : DevRef τ sig) = W (main_arg3 : DevRef τ sig) := by after_results_simp
theorem tail_arg4 (W : Valuation τ sig (Elt Ideal)) :
    after opsTail W (main_arg4 : DevRef τ sig) = W (main_arg4 : DevRef τ sig) := by after_results_simp
theorem tail_arg5 (W : Valuation τ sig (Elt Ideal)) :
    after opsTail W (main_arg5 : DevRef τ sig) = W (main_arg5 : DevRef τ sig) := by after_results_simp
theorem tail_arg6 (W : Valuation τ sig (Elt Ideal)) :
    after opsTail W (main_arg6 : DevRef τ sig) = W (main_arg6 : DevRef τ sig) := by after_results_simp
theorem tail_arg7 (W : Valuation τ sig (Elt Ideal)) :
    after opsTail W (main_arg7 : DevRef τ sig) = W (main_arg7 : DevRef τ sig) := by after_results_simp
theorem tail_arg8 (W : Valuation τ sig (Elt Ideal)) :
    after opsTail W (main_arg8 : DevRef τ sig) = W (main_arg8 : DevRef τ sig) := by after_results_simp

end Cert.ReferenceIdeal.Hand

end
-- ==== Proof.RefRun.lean ====
/-
  The reference program's run: every weakly fair execution terminates with the first result at the log-probabilities'
  stage term of the nine launch arrays, the second at the mean absolute weight's stage term of the launch weights, and
  the nine arguments unchanged.

  The program is a straight line of 66 host operations, and its run leaves each buffer at the fold of the operations'
  results over the launch contents.  The fold over the whole line is the fold over its three stretches in turn; each
  stretch was read back from arbitrary contents, so the three readings chain: the second layer's activations of the
  launch arrays, then selu of their mean, then the log-probabilities.  No stretch writes an argument buffer, so the
  readings are all of the launch arrays.
-/
import proofs.«152444_g91036126806362_cont_sun_c4_717_5_alg».proof.Proof.RefRunHead
import proofs.«152444_g91036126806362_cont_sun_c4_717_5_alg».proof.Proof.RefRunMid
import proofs.«152444_g91036126806362_cont_sun_c4_717_5_alg».proof.Proof.RefRunTail
import proofs.«152444_g91036126806362_cont_sun_c4_717_5_alg».proof.Proof.RefStages
import proofs.«152444_g91036126806362_cont_sun_c4_717_5_alg».proof.Proof.LibRunPieces
import Idealize.ShloMosaic.Lib.ValueIdx
import Idealize.ShloMosaic.Lib.StableHlo.Run

noncomputable section

namespace Cert.ReferenceIdeal.Hand

open Idealize.ShloMosaic Idealize.ShloMosaic.ValueIdx Idealize.ShloMosaic.TcCoe Idealize.SL.Sem
open Idealize.ShloMosaic.StableHlo
open Cert.ReferenceIdeal

variable [Facts]

/-- The fold over the whole line is the fold over the three stretches in turn. -/
theorem after_ops (V : Valuation τ sig (Elt Ideal)) :
    after ops V = after opsTail (after opsMid (after opsHead V)) :=
  (Cert.Lib.RunPieces.after_append opsHead (opsMid ++ opsTail) V).trans
    (Cert.Lib.RunPieces.after_append opsMid opsTail (after opsHead V))

/-- The log-probabilities' stage term is the composition of the stages, by definition. -/
theorem logp_unfold (x : FVec Ideal S10000x128 .f32) (adj : FVec Ideal S10000x10000 .f32) (sub : FVec Ideal S1x64 .f32)
    (w1 : FVec Ideal S128x128 .f32) (b1 : FVec Ideal S128 .f32) (w2 : FVec Ideal S128x256 .f32)
    (b2 : FVec Ideal S256 .f32) (wf : FVec Ideal S40x320 .f32) (bf : FVec Ideal S40 .f32) :
    Stage.logp x adj sub w1 b1 w2 b2 wf bf
      = Stage.logSoftmaxRow (Stage.logitsRow (Stage.seluRow (Stage.pooled
          (Stage.conv2 adj (Stage.dense2 (Stage.conv1 adj (Stage.dense1 x w1) b1) w2) b2))) sub wf bf) := rfl

/-- After the whole line the first result holds the log-probabilities of the launch arrays. -/
theorem logp_eq (V : Valuation τ sig (Elt Ideal)) :
    after ops V (main_v22 : DevRef τ sig)
      = Stage.logp (V (main_arg0 : DevRef τ sig))
          (V (main_arg1 : DevRef τ sig))
          (V (main_arg2 : DevRef τ sig))
          (V (main_arg3 : DevRef τ sig))
          (V (main_arg4 : DevRef τ sig))
          (V (main_arg5 : DevRef τ sig))
          (V (main_arg6 : DevRef τ sig))
          (V (main_arg7 : DevRef τ sig))
          (V (main_arg8 : DevRef τ sig)) :=
  ((congrFun (after_ops V) (main_v22 : DevRef τ sig)).trans
    (tail_logp (after opsMid (after opsHead V)) _ _ _ _
      (mid_v16 (after opsHead V) _ (head_v11 V))
      ((mid_arg2 _).trans (head_arg2 V)) ((mid_arg7 _).trans (head_arg7 V)) ((mid_arg8 _).trans (head_arg8 V)))).trans
    (logp_unfold _ _ _ _ _ _ _ _ _).symm

/-- After the whole line the second result holds the mean absolute entry of the launch weights. -/
theorem l1_eq (V : Valuation τ sig (Elt Ideal)) :
    after ops V (main_v25 : DevRef τ sig) = Stage.l1 (V (main_arg7 : DevRef τ sig)) :=
  (congrFun (after_ops V) (main_v25 : DevRef τ sig)).trans
    (tail_l1 (after opsMid (after opsHead V)) _ ((mid_arg7 _).trans (head_arg7 V)))

/-! No operation of the line writes an argument buffer. -/
theorem arg0_eq (V : Valuation τ sig (Elt Ideal)) :
    after ops V (main_arg0 : DevRef τ sig) = V (main_arg0 : DevRef τ sig) :=
  (congrFun (after_ops V) (main_arg0 : DevRef τ sig)).trans ((tail_arg0 _).trans ((mid_arg0 _).trans (head_arg0 V)))
theorem arg1_eq (V : Valuation τ sig (Elt Ideal)) :
    after ops V (main_arg1 : DevRef τ sig) = V (main_arg1 : DevRef τ sig) :=
  (congrFun (after_ops V) (main_arg1 : DevRef τ sig)).trans ((tail_arg1 _).trans ((mid_arg1 _).trans (head_arg1 V)))
theorem arg2_eq (V : Valuation τ sig (Elt Ideal)) :
    after ops V (main_arg2 : DevRef τ sig) = V (main_arg2 : DevRef τ sig) :=
  (congrFun (after_ops V) (main_arg2 : DevRef τ sig)).trans ((tail_arg2 _).trans ((mid_arg2 _).trans (head_arg2 V)))
theorem arg3_eq (V : Valuation τ sig (Elt Ideal)) :
    after ops V (main_arg3 : DevRef τ sig) = V (main_arg3 : DevRef τ sig) :=
  (congrFun (after_ops V) (main_arg3 : DevRef τ sig)).trans ((tail_arg3 _).trans ((mid_arg3 _).trans (head_arg3 V)))
theorem arg4_eq (V : Valuation τ sig (Elt Ideal)) :
    after ops V (main_arg4 : DevRef τ sig) = V (main_arg4 : DevRef τ sig) :=
  (congrFun (after_ops V) (main_arg4 : DevRef τ sig)).trans ((tail_arg4 _).trans ((mid_arg4 _).trans (head_arg4 V)))
theorem arg5_eq (V : Valuation τ sig (Elt Ideal)) :
    after ops V (main_arg5 : DevRef τ sig) = V (main_arg5 : DevRef τ sig) :=
  (congrFun (after_ops V) (main_arg5 : DevRef τ sig)).trans ((tail_arg5 _).trans ((mid_arg5 _).trans (head_arg5 V)))
theorem arg6_eq (V : Valuation τ sig (Elt Ideal)) :
    after ops V (main_arg6 : DevRef τ sig) = V (main_arg6 : DevRef τ sig) :=
  (congrFun (after_ops V) (main_arg6 : DevRef τ sig)).trans ((tail_arg6 _).trans ((mid_arg6 _).trans (head_arg6 V)))
theorem arg7_eq (V : Valuation τ sig (Elt Ideal)) :
    after ops V (main_arg7 : DevRef τ sig) = V (main_arg7 : DevRef τ sig) :=
  (congrFun (after_ops V) (main_arg7 : DevRef τ sig)).trans ((tail_arg7 _).trans ((mid_arg7 _).trans (head_arg7 V)))
theorem arg8_eq (V : Valuation τ sig (Elt Ideal)) :
    after ops V (main_arg8 : DevRef τ sig) = V (main_arg8 : DevRef τ sig) :=
  (congrFun (after_ops V) (main_arg8 : DevRef τ sig)).trans ((tail_arg8 _).trans ((mid_arg8 _).trans (head_arg8 V)))

/-- Every weakly fair execution of the reference program terminates with the first result at the log-probabilities'
    stage term of the nine launch arrays, the second at the mean absolute weight's stage term of the launch weights,
    and the nine arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22)
        = Stage.logp (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_v25) = Stage.l1 (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono
    (fun _ h c => ⟨(h c main_v22).trans (logp_eq _), (h c main_v25).trans (l1_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_fold m ρ)

end Cert.ReferenceIdeal.Hand

end
-- ==== Proof.RefReadLayers.lean ====
/-
  The reference's dense products and graph-convolution layers read at an entry.

  A host product of an M×K by a K×N matrix has at (i, j) the sum over k of A(i, k) · B(k, j).  A layer adds to such a
  product the bias vector, laid first as a one-row matrix and then repeated down the rows, and takes the maximum with the
  zero matrix: at (i, j) it is max (∑ n, A(i, n) · S(n, j) + b(j)) 0.
-/
import proofs.«152444_g91036126806362_cont_sun_c4_717_5_alg».proof.Proof.Spec
import proofs.«152444_g91036126806362_cont_sun_c4_717_5_alg».proof.Proof.Consts
import proofs.«152444_g91036126806362_cont_sun_c4_717_5_alg».proof.Proof.RefStages
import proofs.«152444_g91036126806362_cont_sun_c4_717_5_alg».proof.Proof.LibHostDot
import proofs.«152444_g91036126806362_cont_sun_c4_717_5_alg».proof.Proof.LibDenseBias

noncomputable section

namespace Cert.ReferenceIdeal.Hand

open Idealize.ShloMosaic Idealize.ShloMosaic.ValueIdx
open Cert.ReferenceIdeal

/-- A vector [b] laid as the one-row matrix [1, b] along the last axis: entry (·, q) is the vector's entry q. -/
theorem row_of_vec_apply {α : Type} {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- One layer over any extents: the product with the plain dimension numbers, plus the bias row repeated down the rows,
    clipped at the zero matrix, is at (i, j) the layer of the specification. -/
theorem layer_entry {M K N : ℕ} (A : FVec Ideal ⟨2, ![M, K]⟩ .f32) (S : FVec Ideal ⟨2, ![K, N]⟩ .f32)
    (b : FVec Ideal ⟨1, ![N]⟩ .f32) (D : DotDims ⟨2, ![M, K]⟩ ⟨2, ![K, N]⟩ ⟨2, ![M, N]⟩) (hD : D = DotDims.plain M K N)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hz : (⟨0, ![]⟩ : Shape).BroadcastsInDim ⟨2, ![M, N]⟩ (![] : Fin 0 → Fin 2)) (i : Fin M) (j : Fin N) :
    maximumf
        (addf (Host.dotGeneral (F := Ideal) D none A S)
          (broadcastInDim ⟨2, ![M, N]⟩ (![0, 1] : Fin 2 → Fin 2) h2
            (broadcastInDim ⟨2, ![1, N]⟩ (![1] : Fin 1 → Fin 2) h1 b)))
        (broadcastInDim ⟨2, ![M, N]⟩ (![] : Fin 0 → Fin 2) hz (constant (F := Ideal) ⟨0, ![]⟩ .f32 0x00000000#32)) (ix2 i j)
      = Cert.Gcn.layer (fun i n => A (ix2 i n)) (fun n j => S (ix2 n j)) (fun j => b (ix1 j)) i j := by
  subst hD
  refine (Cert.Lib.DenseBias.bias_relu_host_entry _ _ h2 hz i j).trans ?_
  rw [Cert.Lib.DenseBias.dense_host_entry, row_of_vec_apply, Cert.Words.zero]
  rfl

variable [Facts]

/-- X · W1 at (i, j). -/
theorem dense1_at (x : FVec Ideal S10000x128 .f32) (w1 : FVec Ideal S128x128 .f32) (i : Fin 10000) (j : Fin 128) :
    Stage.dense1 x w1 (ix2 i j) = Cert.Gcn.mm (fun i k => x (ix2 i k)) (fun k j => w1 (ix2 k j)) i j := by
  unfold Stage.dense1
  have e : dot_S10000x128_S128x128_S10000x128_1_0_0_1_n_n = DotDims.plain 10000 128 128 := rfl
  rw [e]
  exact Cert.HostDot.dotGeneral_plain_apply none x w1 i j

/-- H1 · W2 at (i, q). -/
theorem dense2_at (h : FVec Ideal S10000x128 .f32) (w2 : FVec Ideal S128x256 .f32) (i : Fin 10000) (q : Fin 256) :
    Stage.dense2 h w2 (ix2 i q) = Cert.Gcn.mm (fun i k => h (ix2 i k)) (fun k q => w2 (ix2 k q)) i q := by
  unfold Stage.dense2
  have e : dot_S10000x128_S128x256_S10000x256_1_0_0_1_n_n = DotDims.plain 10000 128 256 := rfl
  rw [e]
  exact Cert.HostDot.dotGeneral_plain_apply none h w2 i q

/-- The first layer at (i, j). -/
theorem conv1_at (adj : FVec Ideal S10000x10000 .f32) (s : FVec Ideal S10000x128 .f32) (b : FVec Ideal S128 .f32)
    (i : Fin 10000) (j : Fin 128) :
    Stage.conv1 adj s b (ix2 i j)
      = Cert.Gcn.layer (fun i n => adj (ix2 i n)) (fun n j => s (ix2 n j)) (fun j => b (ix1 j)) i j := by
  unfold Stage.conv1
  exact layer_entry adj s b _ rfl _ _ _ i j

/-- The second layer at (i, q). -/
theorem conv2_at (adj : FVec Ideal S10000x10000 .f32) (s : FVec Ideal S10000x256 .f32) (b : FVec Ideal S256 .f32)
    (i : Fin 10000) (q : Fin 256) :
    Stage.conv2 adj s b (ix2 i q)
      = Cert.Gcn.layer (fun i n => adj (ix2 i n)) (fun n q => s (ix2 n q)) (fun q => b (ix1 q)) i q := by
  unfold Stage.conv2
  exact layer_entry adj s b _ rfl _ _ _ i q

end Cert.ReferenceIdeal.Hand

end
-- ==== Proof.RefReadPool.lean ====
/-
  The reference's mean over the nodes and its selu read at an entry.

  The host sum over axis 0 of an [a, b] matrix from the zero word is, at q, the sum of column q; laid as a row and divided
  by a broadcast word it is that sum divided by the word's value.  The selu the program spells evaluates the exponential
  on a guarded operand (0 where the operand is positive): the guard only matters on the branch the outer choice discards,
  so at every entry it is scale · (x where x > 0, α · (eˣ − 1) elsewhere).
-/
import proofs.«152444_g91036126806362_cont_sun_c4_717_5_alg».proof.Proof.Spec
import proofs.«152444_g91036126806362_cont_sun_c4_717_5_alg».proof.Proof.Consts
import proofs.«152444_g91036126806362_cont_sun_c4_717_5_alg».proof.Proof.RefStages
import proofs.«152444_g91036126806362_cont_sun_c4_717_5_alg».proof.Proof.RefReadLayers
import Idealize.ShloMosaic.Lib.IdealHost

noncomputable section

namespace Cert.ReferenceIdeal.Hand

open Idealize.ShloMosaic Idealize.ShloMosaic.ValueIdx
open Cert.ReferenceIdeal

/-- The host sum over the rows of an [a, b] matrix: entry q is the initial value plus the sum of column q. -/
theorem host_colsum_entry {a b : ℕ} (src : FVec Ideal ⟨2, ![a, b]⟩ .f32) (init : (⟨0, ![]⟩ : Shape).Idx → Ideal .f32)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (q : Fin b) :
    Host.reduceAdd (F := Ideal) src init h' hu (ix1 q) = init (Shape.Idx.first hu) + ∑ k : Fin a, src (ix2 k q) := by
  refine (Ideal.hostReduceAdd_single h' h src _ (ix1 q)).trans ?_
  congr 1
  refine Finset.sum_congr rfl fun k _ => congrArg src (funext fun c => Fin.ext ?_)
  rw [h.lift_val]
  match c with
  | ⟨0, _⟩ => rfl
  | ⟨1, _⟩ => rfl

/-- The mean row over any extents: the column sums from the zero word, laid as a row, divided by the broadcast word w. -/
theorem mean_row_entry {a b : ℕ} (src : FVec Ideal ⟨2, ![a, b]⟩ .f32) (w : BitVec 32)
    (h' : (⟨2, ![a, b]⟩ : Shape).ReducesTo [0] ⟨1, ![b]⟩) (hR : (⟨2, ![a, b]⟩ : Shape).Reduces [0] ⟨1, ![b]⟩)
    (hu : 0 < (⟨0, ![]⟩ : Shape).numel)
    (h1 : (⟨1, ![b]⟩ : Shape).BroadcastsInDim ⟨2, ![1, b]⟩ (![1] : Fin 1 → Fin 2))
    (hz : (⟨0, ![]⟩ : Shape).BroadcastsInDim ⟨2, ![1, b]⟩ (![] : Fin 0 → Fin 2)) (q : Fin b) :
    Host.divf (F := Ideal)
        (broadcastInDim ⟨2, ![1, b]⟩ (![1] : Fin 1 → Fin 2) h1
          (Host.reduceAdd (F := Ideal) src (constant (F := Ideal) ⟨0, ![]⟩ .f32 0x00000000#32) h' hu))
        (broadcastInDim ⟨2, ![1, b]⟩ (![] : Fin 0 → Fin 2) hz (constant (F := Ideal) ⟨0, ![]⟩ .f32 w)) (ix2 (0 : Fin 1) q)
      = Ideal.div (Cert.Gcn.colSum (fun i q => src (ix2 i q)) q) (Ideal.ofBits .f32 w) := by
  rw [hostDivf_apply, row_of_vec_apply, broadcastInDim_scalar_apply, constant_apply, host_colsum_entry src _ h' hR hu q,
    constant_apply, Cert.Words.zero, zero_add]
  rfl

/-- selu on one extended real, as the program spells it with the guarded exponential. -/
theorem selu_word (A B x : EReal) :
    A * Scalar.select (Ideal.cmp .ogt x 0) x (B * (Ideal.exp (Scalar.select (Ideal.cmp .ogt x 0) 0 x) - 1))
      = A * Scalar.select (Ideal.cmp .ogt x 0) x (B * (Ideal.exp x - 1)) := by
  rcases BitVec.eq_zero_or_eq_one (Ideal.cmp .ogt x 0) with h | h
  · simp only [h, select_zero]
  · simp only [h, select_one]

/-- selu on an array of any shape, read at an index. -/
theorem selu_entry {T : Shape} (m : FVec Ideal T .f32) (hz : (⟨0, ![]⟩ : Shape).BroadcastsInDim T ![]) (j : T.Idx) :
    mulf (broadcastInDim T ![] hz (constant (F := Ideal) ⟨0, ![]⟩ .f32 0x3F867D5F#32))
        (select (cmpf .ogt m (broadcastInDim T ![] hz (constant (F := Ideal) ⟨0, ![]⟩ .f32 0x00000000#32))) m
          (mulf (broadcastInDim T ![] hz (constant (F := Ideal) ⟨0, ![]⟩ .f32 0x3FD62D7D#32))
            (Host.expm1 (F := Ideal)
              (select (cmpf .ogt m (broadcastInDim T ![] hz (constant (F := Ideal) ⟨0, ![]⟩ .f32 0x00000000#32)))
                (broadcastInDim T ![] hz (constant (F := Ideal) ⟨0, ![]⟩ .f32 0x00000000#32)) m)))) j
      = Cert.Gcn.selu (m j) := by
  simp only [mulf_apply, select_apply, cmpf_apply, Host.expm1, broadcastInDim_scalar_apply, constant_apply,
    Ideal.hostUnary_expm1_def, Ideal.cmpf_def, Cert.Words.zero]
  exact selu_word _ _ _

variable [Facts]

/-- The mean over the nodes at (0, q). -/
theorem pooled_at (h : FVec Ideal S10000x256 .f32) (q : Fin 256) :
    Stage.pooled h (ix2 (0 : Fin 1) q)
      = Ideal.div (Cert.Gcn.colSum (fun i q => h (ix2 i q)) q) (Ideal.ofBits .f32 0x461C4000#32) := by
  unfold Stage.pooled
  exact mean_row_entry h _ _ (by decide) _ _ _ q

/-- selu of the row at any index. -/
theorem seluRow_at (m : FVec Ideal S1x256 .f32) (j : S1x256.Idx) : Stage.seluRow m j = Cert.Gcn.selu (m j) := by
  unfold Stage.seluRow Stage.zeroRow
  exact selu_entry m _ j

end Cert.ReferenceIdeal.Hand

end
-- ==== Proof.LibJoinColumns.lean ====
/-
  Two matrices with the same number of rows laid side by side, read at an entry.

  Joining an [r, a] matrix and an [r, b] matrix along axis 1 gives an [r, n] matrix whose column c is column c of the
  first for c < a and column c − a of the second from column a on; the row is unchanged.  Stated for any extents and
  any element type, over a concatenate of exactly two pieces along axis 1 (a stablehlo.concatenate or a
  tpu.concatenate: both print the same operation), at an index built from its two coordinates.
-/
import Idealize.ShloMosaic.Lib.ValueIdx
import Idealize.ShloMosaic.Lib.Pipeline.Value

noncomputable section

namespace Cert.Lib.JoinColumns

open Idealize.ShloMosaic Idealize.ShloMosaic.ValueIdx

/-- Two matrices [r, a] and [r, b] side by side along axis 1, read left of column a: the first one. -/
theorem concat_cols_left {α : Type} {r a b n : ℕ} (x₁ : (⟨2, ![r, a]⟩ : Shape).Idx → α) (x₂ : (⟨2, ![r, b]⟩ : Shape).Idx → α)
    (h : Shape.Concatenates [⟨2, ![r, a]⟩, ⟨2, ![r, b]⟩] ⟨2, ![r, n]⟩ (1 : Fin 2)) (p : Fin r) (c : Fin n) (hc : c.val < a) :
    concatenate ⟨2, ![r, n]⟩ (1 : Fin 2) [⟨⟨2, ![r, a]⟩, x₁⟩, ⟨⟨2, ![r, b]⟩, x₂⟩] h (ix2 p c) = x₁ (ix2 p ⟨c.val, hc⟩) :=
  concatenate_pair_apply_left (1 : Fin 2) x₁ x₂ h (ix2 p c) rfl (ix2 p ⟨c.val, hc⟩) fun bb => by
    match bb with
    | ⟨0, _⟩ => rfl
    | ⟨1, _⟩ => rfl

/-- The same, read from column a on: the second one, a columns to the left. -/
theorem concat_cols_right {α : Type} {r a b n : ℕ} (x₁ : (⟨2, ![r, a]⟩ : Shape).Idx → α) (x₂ : (⟨2, ![r, b]⟩ : Shape).Idx → α)
    (h : Shape.Concatenates [⟨2, ![r, a]⟩, ⟨2, ![r, b]⟩] ⟨2, ![r, n]⟩ (1 : Fin 2)) (p : Fin r) (c : Fin n) (hc : a ≤ c.val)
    (hb : c.val - a < b) :
    concatenate ⟨2, ![r, n]⟩ (1 : Fin 2) [⟨⟨2, ![r, a]⟩, x₁⟩, ⟨⟨2, ![r, b]⟩, x₂⟩] h (ix2 p c) = x₂ (ix2 p ⟨c.val - a, hb⟩) :=
  concatenate_pair_apply_right (1 : Fin 2) x₁ x₂ h (ix2 p c) rfl rfl (ix2 p ⟨c.val - a, hb⟩)
    (fun bb hbb => by
      match bb with
      | ⟨0, _⟩ => rfl
      | ⟨1, _⟩ => exact absurd (Fin.ext rfl) hbb)
    (by show c.val - a + a = c.val; omega)

end Cert.Lib.JoinColumns

end
-- ==== Proof.RefReadLogits.lean ====
/-
  The reference's last linear layer read at an entry.

  The pooled features [1, 256] and the side features [1, 64] are laid side by side along axis 1: column c of the joined
  row is the pooled feature c below 256 and the side feature c − 256 from there on.  The weights are transposed and the
  joined row multiplied into them, so that entry (0, n) is ∑ k, z(k) · Wf(n, k); the bias vector is added as a row.
-/
import proofs.«152444_g91036126806362_cont_sun_c4_717_5_alg».proof.Proof.Spec
import proofs.«152444_g91036126806362_cont_sun_c4_717_5_alg».proof.Proof.RefStages
import proofs.«152444_g91036126806362_cont_sun_c4_717_5_alg».proof.Proof.LibHostDot
import proofs.«152444_g91036126806362_cont_sun_c4_717_5_alg».proof.Proof.LibJoinColumns
import proofs.«152444_g91036126806362_cont_sun_c4_717_5_alg».proof.Proof.RefReadLayers
import Idealize.ShloMosaic.Lib.ValueLayout

noncomputable section

namespace Cert.ReferenceIdeal.Hand

open Idealize.ShloMosaic Idealize.ShloMosaic.ValueIdx
open Cert.ReferenceIdeal Cert.Lib.JoinColumns

/-- The joined row: the 256 pooled features followed by the 64 side features. -/
theorem joined_entry (g : FVec Ideal ⟨2, ![1, 256]⟩ .f32) (s : FVec Ideal ⟨2, ![1, 64]⟩ .f32)
    (h : Shape.Concatenates [⟨2, ![1, 256]⟩, ⟨2, ![1, 64]⟩] ⟨2, ![1, 320]⟩ (1 : Fin 2)) (c : Fin 320) :
    concatenate ⟨2, ![1, 320]⟩ (1 : Fin 2) [⟨⟨2, ![1, 256]⟩, g⟩, ⟨⟨2, ![1, 64]⟩, s⟩] h (ix2 (0 : Fin 1) c)
      = Cert.Gcn.joined (fun c => g (ix2 (0 : Fin 1) c)) (fun c => s (ix2 (0 : Fin 1) c)) c := by
  unfold Cert.Gcn.joined
  split
  · next hc => exact concat_cols_left g s h 0 c hc
  · next hc => exact concat_cols_right g s h 0 c (by omega) (by have := c.isLt; omega)

/-- The last linear layer at (0, n), the dimension numbers being the plain ones. -/
theorem logits_entry (g : FVec Ideal ⟨2, ![1, 256]⟩ .f32) (s : FVec Ideal ⟨2, ![1, 64]⟩ .f32)
    (wf : FVec Ideal ⟨2, ![40, 320]⟩ .f32) (bf : FVec Ideal ⟨1, ![40]⟩ .f32)
    (D : DotDims ⟨2, ![1, 320]⟩ ⟨2, ![320, 40]⟩ ⟨2, ![1, 40]⟩) (hD : D = DotDims.plain 1 320 40)
    (hc : Shape.Concatenates [⟨2, ![1, 256]⟩, ⟨2, ![1, 64]⟩] ⟨2, ![1, 320]⟩ (1 : Fin 2))
    (ht : (⟨2, ![40, 320]⟩ : Shape).Transposes [1, 0] ⟨2, ![320, 40]⟩)
    (hb : (⟨1, ![40]⟩ : Shape).BroadcastsInDim ⟨2, ![1, 40]⟩ (![1] : Fin 1 → Fin 2)) (n : Fin 40) :
    addf
        (Host.dotGeneral (F := Ideal) D none
          (concatenate ⟨2, ![1, 320]⟩ (1 : Fin 2) [⟨⟨2, ![1, 256]⟩, g⟩, ⟨⟨2, ![1, 64]⟩, s⟩] hc)
          (transpose ⟨2, ![320, 40]⟩ [1, 0] wf ht))
        (broadcastInDim ⟨2, ![1, 40]⟩ (![1] : Fin 1 → Fin 2) hb bf) (ix2 (0 : Fin 1) n)
      = Cert.Gcn.logits (Cert.Gcn.joined (fun c => g (ix2 (0 : Fin 1) c)) (fun c => s (ix2 (0 : Fin 1) c)))
          (fun a k => wf (ix2 a k)) (fun n => bf (ix1 n)) n := by
  subst hD
  rw [addf_apply, Cert.HostDot.dotGeneral_plain_apply, row_of_vec_apply]
  unfold Cert.Gcn.logits
  congr 1
  refine Finset.sum_congr rfl fun k _ => ?_
  rw [joined_entry, transpose_ix2_apply]

variable [Facts]

/-- The logits at (0, n). -/
theorem logitsRow_at (g : FVec Ideal S1x256 .f32) (sub : FVec Ideal S1x64 .f32) (wf : FVec Ideal S40x320 .f32)
    (bf : FVec Ideal S40 .f32) (n : Fin 40) :
    Stage.logitsRow g sub wf bf (ix2 (0 : Fin 1) n)
      = Cert.Gcn.logits (Cert.Gcn.joined (fun c => g (ix2 (0 : Fin 1) c)) (fun c => sub (ix2 (0 : Fin 1) c)))
          (fun a k => wf (ix2 a k)) (fun n => bf (ix1 n)) n := by
  unfold Stage.logitsRow
  exact logits_entry g sub wf bf _ rfl _ _ _ n

end Cert.ReferenceIdeal.Hand

end
-- ==== Proof.RefReadSoftmax.lean ====
/-
  The reference's log-softmax read at an entry.

  The host maximum over axis 1 of an [a, b] matrix from an initial value is, at p, the fold of max from that value over
  row p; the host sum over axis 1 is the initial value plus the sum of row p.  A vector [a] stood up as a column [a, 1]
  and the column repeated along the rows to [a, b] read the vector's entry p at (p, q).  The program takes the row
  maximum from −∞, once more the maximum against −∞ (which changes nothing), subtracts it, and subtracts the logarithm of
  the sum of the exponentials of the shifted row.
-/
import proofs.«152444_g91036126806362_cont_sun_c4_717_5_alg».proof.Proof.Spec
import proofs.«152444_g91036126806362_cont_sun_c4_717_5_alg».proof.Proof.Consts
import proofs.«152444_g91036126806362_cont_sun_c4_717_5_alg».proof.Proof.RefStages
import Idealize.ShloMosaic.Lib.IdealHost
import Idealize.ShloMosaic.Lib.Pipeline.Value

noncomputable section

namespace Cert.ReferenceIdeal.Hand

open Idealize.ShloMosaic Idealize.ShloMosaic.ValueIdx
open Cert.ReferenceIdeal

/-- A vector [a] stood up as the column [a, 1] along axis 0: entry (p, ·) is the vector's entry p. -/
theorem col_of_vec_apply {α : Type} {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] repeated along the rows to [a, b]: entry (p, q) is the column's entry p. -/
theorem col_across_apply {α : Type} {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ => rfl

/-- The host maximum over axis 1: entry p is the fold of max over row p from the initial value. -/
theorem host_rowmax_entry {a b : ℕ} (src : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (α := Ideal .f32) FloatOps.maximumf src init h' hu (ix1 p)
      = (Finset.univ : Finset (Fin b)).fold max (init (Shape.Idx.first hu)) (fun k => src (ix2 p k)) := by
  refine (Host.reduce_eq_fold_single (FloatOps.maximumf (F := Ideal) (φ := .f32)) src init h' h hu (ix1 p)).trans ?_
  show (Finset.univ : Finset (Fin b)).fold max (init (Shape.Idx.first hu)) (src ∘ h.lift (ix1 p)) = _
  refine Finset.fold_congr fun k _ => congrArg src (funext fun c => Fin.ext ?_)
  rw [h.lift_val]
  match c with
  | ⟨0, _⟩ => rfl
  | ⟨1, _⟩ => rfl

/-- The host sum over axis 1: entry p is the initial value plus the sum of row p. -/
theorem host_rowsum_entry {a b : ℕ} (src : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd (F := Ideal) src init h' hu (ix1 p) = init (Shape.Idx.first hu) + ∑ k : Fin b, src (ix2 p k) := by
  refine (Ideal.hostReduceAdd_single h' h src _ (ix1 p)).trans ?_
  congr 1
  refine Finset.sum_congr rfl fun k _ => congrArg src (funext fun c => Fin.ext ?_)
  rw [h.lift_val]
  match c with
  | ⟨0, _⟩ => rfl
  | ⟨1, _⟩ => rfl

/-- The host logarithm at an index is the logarithm of the entry. -/
theorem host_log_apply {s : Shape} (v : FVec Ideal s .f32) (i : s.Idx) : Host.log (F := Ideal) v i = Ideal.log (v i) := rfl

/-- The host exponential at an index is the exponential of the entry. -/
theorem host_exp_apply {s : Shape} (v : FVec Ideal s .f32) (i : s.Idx) : Host.exp (F := Ideal) v i = Ideal.exp (v i) := rfl

/-- A matrix shifted by its row maxima, as the program spells it: entry (p, n) is l (p, n) minus the fold of max from −∞
    over row p. -/
theorem shifted_entry {a b : ℕ} (l : FVec Ideal ⟨2, ![a, b]⟩ .f32)
    (h' : (⟨2, ![a, b]⟩ : Shape).ReducesTo [1] ⟨1, ![a]⟩) (hR : (⟨2, ![a, b]⟩ : Shape).Reduces [1] ⟨1, ![a]⟩)
    (hu : 0 < (⟨0, ![]⟩ : Shape).numel)
    (hz : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (n : Fin b) :
    subf l
        (broadcastInDim ⟨2, ![a, b]⟩ (![0, 1] : Fin 2 → Fin 2) h2
          (broadcastInDim ⟨2, ![a, 1]⟩ (![0] : Fin 1 → Fin 2) h1
            (maximumf (broadcastInDim ⟨1, ![a]⟩ (![] : Fin 0 → Fin 1) hz (constant (F := Ideal) ⟨0, ![]⟩ .f32 0xFF800000#32))
              (Host.reduce (α := Ideal .f32) FloatOps.maximumf l (constant (F := Ideal) ⟨0, ![]⟩ .f32 0xFF800000#32) h' hu))))
        (ix2 p n)
      = l (ix2 p n) - (Finset.univ : Finset (Fin b)).fold max ⊥ (fun k => l (ix2 p k)) := by
  rw [subf_apply, col_across_apply, col_of_vec_apply, maximumf_apply, broadcastInDim_scalar_apply, constant_apply,
    host_rowmax_entry l _ h' hR hu p, constant_apply, Cert.Words.negInf, max_eq_right bot_le]

/-- The logarithm of the row sums of the exponentials subtracted: entry (p, n) is s (p, n) − log ∑ k, exp s (p, k). -/
theorem sub_logsumexp_entry {a b : ℕ} (s : FVec Ideal ⟨2, ![a, b]⟩ .f32)
    (h' : (⟨2, ![a, b]⟩ : Shape).ReducesTo [1] ⟨1, ![a]⟩) (hR : (⟨2, ![a, b]⟩ : Shape).Reduces [1] ⟨1, ![a]⟩)
    (hu : 0 < (⟨0, ![]⟩ : Shape).numel)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (n : Fin b) :
    subf s
        (broadcastInDim ⟨2, ![a, b]⟩ (![0, 1] : Fin 2 → Fin 2) h2
          (Host.log (F := Ideal)
            (broadcastInDim ⟨2, ![a, 1]⟩ (![0] : Fin 1 → Fin 2) h1
              (Host.reduceAdd (F := Ideal) (Host.exp (F := Ideal) s) (constant (F := Ideal) ⟨0, ![]⟩ .f32 0x00000000#32)
                h' hu))))
        (ix2 p n)
      = s (ix2 p n) - Ideal.log (∑ k : Fin b, Ideal.exp (s (ix2 p k))) := by
  rw [subf_apply, col_across_apply, host_log_apply, col_of_vec_apply, host_rowsum_entry _ _ h' hR hu p, constant_apply,
    Cert.Words.zero, zero_add]
  rfl

variable [Facts]

/-- The shifted logits at (0, n). -/
theorem shifted_at (l : FVec Ideal S1x40 .f32) (n : Fin 40) :
    Stage.shifted l (ix2 (0 : Fin 1) n)
      = l (ix2 (0 : Fin 1) n) - Cert.Gcn.rowMax (fun n => l (ix2 (0 : Fin 1) n)) := by
  unfold Stage.shifted
  exact shifted_entry l _ (by decide) _ _ _ _ 0 n

/-- The log-softmax of the row at (0, n). -/
theorem logSoftmaxRow_at (l : FVec Ideal S1x40 .f32) (n : Fin 40) :
    Stage.logSoftmaxRow l (ix2 (0 : Fin 1) n) = Cert.Gcn.logSoftmax (fun n => l (ix2 (0 : Fin 1) n)) n := by
  unfold Stage.logSoftmaxRow
  refine (sub_logsumexp_entry (Stage.shifted l) _ (by decide) _ _ _ 0 n).trans ?_
  unfold Cert.Gcn.logSoftmax
  rw [shifted_at]
  refine congrArg (fun t => _ - Ideal.log t) (Finset.sum_congr rfl fun k _ => ?_)
  rw [shifted_at]

end Cert.ReferenceIdeal.Hand

end
-- ==== Proof.RefRead.lean ====
/-
  The reference's two results read at an entry.

  The log-probabilities are the composition of the stages: each stage read at an entry is the specification's function of
  its operand read at entries, so the whole is the head of the network on the mean of the second layer's activations.
  The mean absolute weight is the total of max (w, −w) over the 40 × 320 entries from the zero word, divided by a word.
-/
import proofs.«152444_g91036126806362_cont_sun_c4_717_5_alg».proof.Proof.Spec
import proofs.«152444_g91036126806362_cont_sun_c4_717_5_alg».proof.Proof.Consts
import proofs.«152444_g91036126806362_cont_sun_c4_717_5_alg».proof.Proof.RefStages
import proofs.«152444_g91036126806362_cont_sun_c4_717_5_alg».proof.Proof.RefReadLayers
import proofs.«152444_g91036126806362_cont_sun_c4_717_5_alg».proof.Proof.RefReadPool
import proofs.«152444_g91036126806362_cont_sun_c4_717_5_alg».proof.Proof.RefReadLogits
import proofs.«152444_g91036126806362_cont_sun_c4_717_5_alg».proof.Proof.RefReadSoftmax
import Idealize.ShloMosaic.Lib.IdealHost

noncomputable section

namespace Cert.ReferenceIdeal.Hand

open Idealize.ShloMosaic Idealize.ShloMosaic.ValueIdx
open Cert.ReferenceIdeal

/-- The mean absolute value of an [a, b] matrix as the host spells it: the total of max (w, −w) from the zero word,
    divided by the word d. -/
theorem mean_abs_entry {a b : ℕ} (w : FVec Ideal ⟨2, ![a, b]⟩ .f32) (d : BitVec 32)
    (h' : (⟨2, ![a, b]⟩ : Shape).ReducesTo [0, 1] ⟨0, ![]⟩) (hu : 0 < (⟨0, ![]⟩ : Shape).numel) :
    Host.divf (F := Ideal)
        (Host.reduceAdd (F := Ideal) (Host.absf (F := Ideal) w) (constant (F := Ideal) ⟨0, ![]⟩ .f32 0x00000000#32) h' hu)
        (constant (F := Ideal) ⟨0, ![]⟩ .f32 d) ix0
      = Ideal.div (∑ i : Fin a, ∑ j : Fin b, max (w (ix2 i j)) (-(w (ix2 i j)))) (Ideal.ofBits .f32 d) := by
  rw [hostDivf_apply, constant_apply, hostReduceAdd_apply, Ideal.hostReduceAdd_total h' (fun b => b.elim0), constant_apply,
    Cert.Words.zero, zero_add, sum_idx2]
  rfl

variable [Facts]

/-- The second layer's activations, entry by entry, are the specification's. -/
theorem hidden2_fun (x : FVec Ideal S10000x128 .f32) (adj : FVec Ideal S10000x10000 .f32) (w1 : FVec Ideal S128x128 .f32)
    (b1 : FVec Ideal S128 .f32) (w2 : FVec Ideal S128x256 .f32) (b2 : FVec Ideal S256 .f32) :
    (fun (i : Fin 10000) (q : Fin 256) =>
        Stage.conv2 adj (Stage.dense2 (Stage.conv1 adj (Stage.dense1 x w1) b1) w2) b2 (ix2 i q))
      = Cert.Gcn.hidden2 (fun i k => x (ix2 i k)) (fun i n => adj (ix2 i n)) (fun k j => w1 (ix2 k j))
          (fun j => b1 (ix1 j)) (fun j q => w2 (ix2 j q)) (fun q => b2 (ix1 q)) := by
  have e1 : (fun (i : Fin 10000) (j : Fin 128) => Stage.dense1 x w1 (ix2 i j))
      = Cert.Gcn.mm (fun i k => x (ix2 i k)) (fun k j => w1 (ix2 k j)) :=
    funext fun i => funext fun j => dense1_at x w1 i j
  have e2 : (fun (i : Fin 10000) (j : Fin 128) => Stage.conv1 adj (Stage.dense1 x w1) b1 (ix2 i j))
      = Cert.Gcn.layer (fun i n => adj (ix2 i n)) (Cert.Gcn.mm (fun i k => x (ix2 i k)) (fun k j => w1 (ix2 k j)))
          (fun j => b1 (ix1 j)) := by
    funext i j
    rw [conv1_at, e1]
  have e3 : (fun (i : Fin 10000) (q : Fin 256) => Stage.dense2 (Stage.conv1 adj (Stage.dense1 x w1) b1) w2 (ix2 i q))
      = Cert.Gcn.mm
          (Cert.Gcn.layer (fun i n => adj (ix2 i n)) (Cert.Gcn.mm (fun i k => x (ix2 i k)) (fun k j => w1 (ix2 k j)))
            (fun j => b1 (ix1 j)))
          (fun j q => w2 (ix2 j q)) := by
    funext i q
    rw [dense2_at, e2]
  funext i q
  rw [conv2_at, e3]
  rfl

/-- The log-probabilities at (0, n): the head of the network on the mean of the second layer's activations over the nodes. -/
theorem logp_at (x : FVec Ideal S10000x128 .f32) (adj : FVec Ideal S10000x10000 .f32) (sub : FVec Ideal S1x64 .f32)
    (w1 : FVec Ideal S128x128 .f32) (b1 : FVec Ideal S128 .f32) (w2 : FVec Ideal S128x256 .f32)
    (b2 : FVec Ideal S256 .f32) (wf : FVec Ideal S40x320 .f32) (bf : FVec Ideal S40 .f32) (n : Fin 40) :
    Stage.logp x adj sub w1 b1 w2 b2 wf bf (ix2 (0 : Fin 1) n)
      = Cert.Gcn.head
          (fun q => Ideal.div
            (Cert.Gcn.colSum (Cert.Gcn.hidden2 (fun i k => x (ix2 i k)) (fun i n => adj (ix2 i n)) (fun k j => w1 (ix2 k j))
              (fun j => b1 (ix1 j)) (fun j q => w2 (ix2 j q)) (fun q => b2 (ix1 q))) q)
            (Ideal.ofBits .f32 0x461C4000#32))
          (fun k => sub (ix2 (0 : Fin 1) k)) (fun a k => wf (ix2 a k)) (fun n => bf (ix1 n)) n := by
  have e5 : (fun (c : Fin 256) =>
        Stage.seluRow (Stage.pooled (Stage.conv2 adj (Stage.dense2 (Stage.conv1 adj (Stage.dense1 x w1) b1) w2) b2))
          (ix2 (0 : Fin 1) c))
      = fun c => Cert.Gcn.selu (Ideal.div
          (Cert.Gcn.colSum (Cert.Gcn.hidden2 (fun i k => x (ix2 i k)) (fun i n => adj (ix2 i n)) (fun k j => w1 (ix2 k j))
            (fun j => b1 (ix1 j)) (fun j q => w2 (ix2 j q)) (fun q => b2 (ix1 q))) c)
          (Ideal.ofBits .f32 0x461C4000#32)) := by
    funext c
    rw [seluRow_at, pooled_at, hidden2_fun]
  have e6 : (fun (n : Fin 40) =>
        Stage.logitsRow
          (Stage.seluRow (Stage.pooled (Stage.conv2 adj (Stage.dense2 (Stage.conv1 adj (Stage.dense1 x w1) b1) w2) b2)))
          sub wf bf (ix2 (0 : Fin 1) n))
      = Cert.Gcn.logits
          (Cert.Gcn.joined
            (fun c => Cert.Gcn.selu (Ideal.div
              (Cert.Gcn.colSum (Cert.Gcn.hidden2 (fun i k => x (ix2 i k)) (fun i n => adj (ix2 i n))
                (fun k j => w1 (ix2 k j)) (fun j => b1 (ix1 j)) (fun j q => w2 (ix2 j q)) (fun q => b2 (ix1 q))) c)
              (Ideal.ofBits .f32 0x461C4000#32)))
            (fun c => sub (ix2 (0 : Fin 1) c)))
          (fun a k => wf (ix2 a k)) (fun n => bf (ix1 n)) := by
    funext n
    rw [logitsRow_at, e5]
  unfold Stage.logp
  rw [logSoftmaxRow_at, e6]
  rfl

/-- The mean absolute weight at its one entry. -/
theorem l1_at (wf : FVec Ideal S40x320 .f32) :
    Stage.l1 wf ix0 = Cert.Gcn.l1 (fun a k => wf (ix2 a k)) := by
  unfold Stage.l1
  exact mean_abs_entry wf _ _ _

end Cert.ReferenceIdeal.Hand

end
-- ==== Proof.lean ====
/-
  Two programs for one small graph network, equal at the extended reals.

  The network: two graph-convolution layers over 10000 nodes (propagate along the adjacency matrix, add a bias, clip at
  zero; each fed by a dense product), the mean of the second layer's 256 activations over the nodes, selu, 64 side
  features appended, a linear layer to 40 classes, log-softmax; and beside it the mean absolute value of the last
  layer's weights.  One program runs it as four kernel launches — X·W1; the first layer times W2 in 25 blocks of 400
  rows; per block the column sums of the second layer; a tail that adds the 25 partial sums, multiplies by 1/10000 and
  applies the head — among host reshapes.  The other is the plain array program.  Entry by entry the two compute the
  same sums of the same products; they differ only in how the 10000 nodes are grouped when summed and in multiplying by
  1/10000 where the other divides by 10000, and neither difference is visible on the extended reals.
-/
import proofs.«152444_g91036126806362_cont_sun_c4_717_5_alg».proof.Defs
import proofs.«152444_g91036126806362_cont_sun_c4_717_5_alg».proof.Proof.Gen.Kernel
import proofs.«152444_g91036126806362_cont_sun_c4_717_5_alg».proof.Proof.Gen.Kernel.Skeleton
import proofs.«152444_g91036126806362_cont_sun_c4_717_5_alg».proof.Proof.Gen.Kernel.Launch
import proofs.«152444_g91036126806362_cont_sun_c4_717_5_alg».proof.Proof.Gen.Kernel.Points
import proofs.«152444_g91036126806362_cont_sun_c4_717_5_alg».proof.Proof.Gen.Kernel.Frame
import proofs.«152444_g91036126806362_cont_sun_c4_717_5_alg».proof.Proof.Gen.KernelIdeal
import proofs.«152444_g91036126806362_cont_sun_c4_717_5_alg».proof.Proof.Gen.KernelIdeal.Skeleton
import proofs.«152444_g91036126806362_cont_sun_c4_717_5_alg».proof.Proof.Gen.KernelIdeal.Launch
import proofs.«152444_g91036126806362_cont_sun_c4_717_5_alg».proof.Proof.Gen.KernelIdeal.Points
import proofs.«152444_g91036126806362_cont_sun_c4_717_5_alg».proof.Proof.Gen.KernelIdeal.Frame
import proofs.«152444_g91036126806362_cont_sun_c4_717_5_alg».proof.Proof.Gen.ReferenceIdeal
import proofs.«152444_g91036126806362_cont_sun_c4_717_5_alg».proof.Proof.Gen.Pre_finite_inputs
import proofs.«152444_g91036126806362_cont_sun_c4_717_5_alg».proof.Proof.KernelRun
import proofs.«152444_g91036126806362_cont_sun_c4_717_5_alg».proof.Proof.KernelValue
import proofs.«152444_g91036126806362_cont_sun_c4_717_5_alg».proof.Proof.RefRun
import proofs.«152444_g91036126806362_cont_sun_c4_717_5_alg».proof.Proof.RefRead
import Idealize.ShloMosaic.Adequacy
import Idealize.ShloMosaic.Init

noncomputable section

namespace Cert.Proof

open Idealize.ShloMosaic Idealize.ShloMosaic.ValueIdx Idealize.ShloMosaic.TcCoe Idealize.SL.Sem

/-- The word-level program runs and keeps its arguments. -/
theorem frame_k : Cert.frame_Kernel := fun m ρ _ => Cert.Kernel.Gen.frame m ρ

/-- The idealized program runs and keeps its arguments. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Hand.run m ρ)

/-- The one rewrite of the idealization: the literal 9.99999974e-5 is read as the rational 1/10000 it rounds. -/
theorem preserves : Cert.preserves_Kernel_KernelIdeal :=
  IdealRules.named_const.statement Cert.KernelIdeal.κ "inv_10000" .f32 0x38D1B717#32 ((1 / 10000 : ℝ) : EReal) rfl

/-- From memories agreeing on the nine arguments both programs end with the same two results: entry by entry each is
    the same function of the argument arrays — the network's head on the mean of the second layer's activations, and
    the mean absolute weight. -/
theorem algebraic : Cert.algebraic_KernelIdeal_ReferenceIdeal := by
  intro m ρ m' ρ' _ hagree
  refine ⟨fun c => Cert.KernelIdeal.Gen.W8 m ρ c (Proc.devRef .tc Cert.KernelIdeal.main_v7_0),
    fun c => Cert.KernelIdeal.Gen.W8 m ρ c (Proc.devRef .tc Cert.KernelIdeal.main_v8),
    Cert.KernelIdeal.Val.run_values m ρ, ?_⟩
  refine (θ_run Cert.ReferenceIdeal.defs _ _).mono (fun r h c => ?_) (Cert.ReferenceIdeal.Hand.run m' ρ')
  obtain ⟨h1, h2, hk⟩ := h c
  obtain ⟨a0, a1, a2, a3, a4, a5, a6, a7, a8⟩ := hagree c
  refine ⟨h1.trans ?_, h2.trans ?_, hk⟩
  · rw [a0, a1, a2, a3, a4, a5, a6, a7, a8]
    funext i
    obtain ⟨u, n, rfl⟩ : ∃ (u : Fin 1) (n : Fin 40), i = ix2 u n := ⟨i 0, i 1, eq_ix2 i⟩
    obtain rfl : u = 0 := Subsingleton.elim _ _
    exact (Cert.ReferenceIdeal.Hand.logp_at _ _ _ _ _ _ _ _ _ n).trans (Cert.KernelIdeal.Val.logp_value m ρ c n).symm
  · rw [a7]
    funext i
    obtain rfl : i = ix0 := eq_ix0 i
    exact (Cert.ReferenceIdeal.Hand.l1_at _).trans (Cert.KernelIdeal.Val.l1_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
